-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x384x384 : Shape := ⟨4, ![8, 32, 384, 384]⟩
abbrev S8x24x384x384 : Shape := ⟨4, ![8, 24, 384, 384]⟩
abbrev S8 : Shape := ⟨1, ![8]⟩
abbrev S_ : Shape := ⟨0, ![]⟩

class Facts : Prop where
  bcast_S_S8x32x384x384 : S_.BroadcastsInDim S8x32x384x384 (![] : Fin 0 → Fin S8x32x384x384.rank)
  reducesTo_S8x32x384x384_S_d0_1_2_3 : S8x32x384x384.ReducesTo [0, 1, 2, 3] S_
  h_S_ : 0 < S_.numel
  bcast_S_S8x24x384x384 : S_.BroadcastsInDim S8x24x384x384 (![] : Fin 0 → Fin S8x24x384x384.rank)
  reducesTo_S8x24x384x384_S_d0_1_2_3 : S8x24x384x384.ReducesTo [0, 1, 2, 3] S_

variable [Facts]

def fn {F : FTy → Type} [FloatOps F] (main_arg0 : FVec F S8x32x384x384 .f32) (main_arg1 : FVec F S8x24x384x384 .f32) (main_arg2 : IVec S8 32) : IVec S_ 1 :=
  let main_v0 : FVec F S8x32x384x384 .f32 := Host.absf main_arg0
  let main_cst : FVec F S_ .f32 := constant S_ .f32 0x7F800000#32
  let main_v1 : FVec F S8x32x384x384 .f32 := broadcastInDim S8x32x384x384 ![] bcast_S_S8x32x384x384 main_cst
  let main_v2 : IVec S8x32x384x384 1 := cmpf .olt main_v0 main_v1
  let main_c : IVec S_ 1 := constantI S_ 1 1#1
  let main_v3 : IVec S_ 1 := (fun x v => Host.reduce IntOp.andi x v reducesTo_S8x32x384x384_S_d0_1_2_3 h_S_) main_v2 main_c
  let main_v4 : FVec F S8x24x384x384 .f32 := Host.absf main_arg1
  let main_cst_0 : FVec F S_ .f32 := constant S_ .f32 0x7F800000#32
  let main_v5 : FVec F S8x24x384x384 .f32 := broadcastInDim S8x24x384x384 ![] bcast_S_S8x24x384x384 main_cst_0
  let main_v6 : IVec S8x24x384x384 1 := cmpf .olt main_v4 main_v5
  let main_c_1 : IVec S_ 1 := constantI S_ 1 1#1
  let main_v7 : IVec S_ 1 := (fun x v => Host.reduce IntOp.andi x v reducesTo_S8x24x384x384_S_d0_1_2_3 h_S_) main_v6 main_c_1
  let main_v8 : IVec S_ 1 := andi main_v3 main_v7
  main_v8
-- ==== Kernel.lean ====
abbrev S8x32x384x384 : Shape := ⟨4, ![8, 32, 384, 384]⟩
abbrev S8x24x384x384 : Shape := ⟨4, ![8, 24, 384, 384]⟩
abbrev S8 : Shape := ⟨1, ![8]⟩
abbrev S8x384x384x32 : Shape := ⟨4, ![8, 384, 384, 32]⟩
abbrev S8x147456x32 : Shape := ⟨3, ![8, 147456, 32]⟩
abbrev S8x384x384x24 : Shape := ⟨4, ![8, 384, 384, 24]⟩
abbrev S8x147456x24 : Shape := ⟨3, ![8, 147456, 24]⟩
abbrev S8x24x32 : Shape := ⟨3, ![8, 24, 32]⟩
abbrev S8x1x24 : Shape := ⟨3, ![8, 1, 24]⟩
abbrev S1x18432x32 : Shape := ⟨3, ![1, 18432, 32]⟩
abbrev S1x18432x24 : Shape := ⟨3, ![1, 18432, 24]⟩
abbrev S1x24x32 : Shape := ⟨3, ![1, 24, 32]⟩
abbrev S1x1x24 : Shape := ⟨3, ![1, 1, 24]⟩
abbrev S24x32 : Shape := ⟨2, ![24, 32]⟩
abbrev S1x24 : Shape := ⟨2, ![1, 24]⟩
abbrev S18432x32 : Shape := ⟨2, ![18432, 32]⟩
abbrev S18432x24 : Shape := ⟨2, ![18432, 24]⟩
abbrev S24 : Shape := ⟨1, ![24]⟩
abbrev S8x24 : Shape := ⟨2, ![8, 24]⟩
abbrev S8x1 : Shape := ⟨2, ![8, 1]⟩
abbrev S_ : Shape := ⟨0, ![]⟩
abbrev S8x24x1 : Shape := ⟨3, ![8, 24, 1]⟩
abbrev S8x32x24 : Shape := ⟨3, ![8, 32, 24]⟩
abbrev S8x1x1 : Shape := ⟨3, ![8, 1, 1]⟩
abbrev S1x32x24 : Shape := ⟨3, ![1, 32, 24]⟩
abbrev S1x1x1 : Shape := ⟨3, ![1, 1, 1]⟩
abbrev S1x1 : Shape := ⟨2, ![1, 1]⟩
abbrev S32x24 : Shape := ⟨2, ![32, 24]⟩
abbrev S18432 : Shape := ⟨1, ![18432]⟩
abbrev S18432x1 : Shape := ⟨2, ![18432, 1]⟩
abbrev S1 : Shape := ⟨1, ![1]⟩
abbrev S8x24x24 : Shape := ⟨3, ![8, 24, 24]⟩
abbrev S24x24 : Shape := ⟨2, ![24, 24]⟩
abbrev S1x24x24 : Shape := ⟨3, ![1, 24, 24]⟩

abbrev nBuf : Space → Nat
  | .hbm => 139
  | .vmem => 23
  | .smem => 0
  | _ => 0

abbrev hbmTy0_0 (i : Nat) : BufTy := match i % 128 with
  | 0 => ⟨S8x32x384x384, .f32⟩
  | 1 => ⟨S8x24x384x384, .f32⟩
  | 2 => ⟨S8, .i32⟩
  | 3 => ⟨S8x384x384x32, .f32⟩
  | 4 => ⟨S8x147456x32, .f32⟩
  | 5 => ⟨S8x384x384x24, .f32⟩
  | 6 => ⟨S8x147456x24, .f32⟩
  | 7 => ⟨S8x24x32, .f32⟩
  | 8 => ⟨S8x1x24, .f32⟩
  | 9 => ⟨S8x24, .f32⟩
  | 10 => ⟨S24, .i32⟩
  | 11 => ⟨S1x24, .i32⟩
  | 12 => ⟨S8x1, .i32⟩
  | 13 => ⟨S8x24, .i32⟩
  | 14 => ⟨S8x24, .i32⟩
  | 15 => ⟨S8x24, .i1⟩
  | 16 => ⟨S8x24, .f32⟩
  | 17 => ⟨S_, .f32⟩
  | 18 => ⟨S8x24, .f32⟩
  | 19 => ⟨S8x24, .f32⟩
  | 20 => ⟨S8x24x1, .f32⟩
  | 21 => ⟨S8x24x32, .f32⟩
  | 22 => ⟨S8x24x32, .f32⟩
  | 23 => ⟨S8x24x1, .f32⟩
  | 24 => ⟨S8x24x32, .f32⟩
  | 25 => ⟨S8x24x32, .f32⟩
  | 26 => ⟨S8x32x24, .f32⟩
  | 27 => ⟨S8x1x24, .f32⟩
  | 28 => ⟨S8x24x32, .f32⟩
  | 29 => ⟨S_, .f32⟩
  | 30 => ⟨S8x24, .f32⟩
  | 31 => ⟨S8x1x24, .f32⟩
  | 32 => ⟨S8x1x1, .f32⟩
  | 33 => ⟨S8, .f32⟩
  | 34 => ⟨S8, .f32⟩
  | 35 => ⟨S8x24, .f32⟩
  | 36 => ⟨S_, .f32⟩
  | 37 => ⟨S8, .f32⟩
  | 38 => ⟨S8, .f32⟩
  | 39 => ⟨S_, .f32⟩
  | 40 => ⟨S_, .f32⟩
  | 41 => ⟨S_, .f32⟩
  | 42 => ⟨S_, .f32⟩
  | 43 => ⟨S8x24x24, .f32⟩
  | 44 => ⟨S8x24x1, .f32⟩
  | 45 => ⟨S8x1x24, .f32⟩
  | 46 => ⟨S8x24x24, .f32⟩
  | 47 => ⟨S8x24x24, .f32⟩
  | 48 => ⟨S8x24x24, .f32⟩
  | 49 => ⟨S_, .f32⟩
  | 50 => ⟨S8x24x24, .f32⟩
  | 51 => ⟨S8x24x24, .f32⟩
  | 52 => ⟨S8x24x24, .f32⟩
  | 53 => ⟨S_, .f32⟩
  | 54 => ⟨S8x24x24, .f32⟩
  | 55 => ⟨S8x24x24, .f32⟩
  | 56 => ⟨S_, .f32⟩
  | 57 => ⟨S8x24x24, .f32⟩
  | 58 => ⟨S8x24x24, .i1⟩
  | 59 => ⟨S_, .f32⟩
  | 60 => ⟨S_, .f32⟩
  | 61 => ⟨S8x24x24, .f32⟩
  | 62 => ⟨S8x24x24, .f32⟩
  | 63 => ⟨S8x24x24, .f32⟩
  | 64 => ⟨S_, .f32⟩
  | 65 => ⟨S_, .f32⟩
  | 66 => ⟨S8x24x24, .f32⟩
  | 67 => ⟨S8x24x24, .f32⟩
  | 68 => ⟨S24x24, .i32⟩
  | 69 => ⟨S24x24, .i32⟩
  | 70 => ⟨S_, .i32⟩
  | 71 => ⟨S24x24, .i32⟩
  | 72 => ⟨S24x24, .i32⟩
  | 73 => ⟨S24x24, .i1⟩
  | 74 => ⟨S24x24, .f32⟩
  | 75 => ⟨S_, .f32⟩
  | 76 => ⟨S24x24, .f32⟩
  | 77 => ⟨S24x24, .f32⟩
  | 78 => ⟨S_, .f32⟩
  | 79 => ⟨S24x24, .f32⟩
  | 80 => ⟨S24x24, .f32⟩
  | 81 => ⟨S8x24x1, .f32⟩
  | 82 => ⟨S8x1x24, .f32⟩
  | 83 => ⟨S8x24x24, .f32⟩
  | 84 => ⟨S8x24x24, .f32⟩
  | 85 => ⟨S8x24x24, .f32⟩
  | 86 => ⟨S_, .f32⟩
  | 87 => ⟨S24x24, .f32⟩
  | 88 => ⟨S24x24, .f32⟩
  | 89 => ⟨S1x24x24, .f32⟩
  | 90 => ⟨S8x24x24, .f32⟩
  | 91 => ⟨S8x24x24, .f32⟩
  | 92 => ⟨S1x24x24, .f32⟩
  | 93 => ⟨S8x24x24, .f32⟩
  | 94 => ⟨S8x24x24, .f32⟩
  | 95 => ⟨S_, .f32⟩
  | 96 => ⟨S8x24x24, .f32⟩
  | 97 => ⟨S8x24x24, .f32⟩
  | 98 => ⟨S8x24x24, .f32⟩
  | 99 => ⟨S8x24x24, .f32⟩
  | 100 => ⟨S_, .f32⟩
  | 101 => ⟨S8, .f32⟩
  | 102 => ⟨S_, .f32⟩
  | 103 => ⟨S8, .f32⟩
  | 104 => ⟨S8, .f32⟩
  | 105 => ⟨S8, .f32⟩
  | 106 => ⟨S8, .f32⟩
  | 107 => ⟨S_, .f32⟩
  | 108 => ⟨S_, .f32⟩
  | 109 => ⟨S_, .f32⟩
  | 110 => ⟨S_, .f32⟩
  | 111 => ⟨S_, .f32⟩
  | 112 => ⟨S8x24, .f32⟩
  | 113 => ⟨S8x24, .i1⟩
  | 114 => ⟨S_, .f32⟩
  | 115 => ⟨S_, .f32⟩
  | 116 => ⟨S8x24, .f32⟩
  | 117 => ⟨S8x24, .f32⟩
  | 118 => ⟨S8x24, .f32⟩
  | 119 => ⟨S_, .f32⟩
  | 120 => ⟨S_, .f32⟩
  | 121 => ⟨S8x24, .f32⟩
  | 122 => ⟨S8x24, .f32⟩
  | 123 => ⟨S8x24, .f32⟩
  | 124 => ⟨S_, .f32⟩
  | 125 => ⟨S8, .f32⟩
  | 126 => ⟨S8, .f32⟩
  | 127 => ⟨S_, .f32⟩
  | _ => ⟨S8x32x384x384, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | _ => ⟨S8x32x384x384, .f32⟩

abbrev hbmTy (i : Nat) : BufTy := match i / 128 with
  | 0 => hbmTy0_0 i
  | 1 => hbmTy0_1 i
  | _ => ⟨S8x32x384x384, .f32⟩

abbrev bufTy : (tb : Table) → Fin (tcTables nBuf tb) → BufTy
  | .hbm, ⟨i, _⟩ => hbmTy i
  | .local _ .vmem, ⟨0, _⟩ => ⟨S1x18432x32, .f32⟩
  | .local _ .vmem, ⟨1, _⟩ => ⟨S1x18432x32, .f32⟩
  | .local _ .vmem, ⟨2, _⟩ => ⟨S1x18432x24, .f32⟩
  | .local _ .vmem, ⟨3, _⟩ => ⟨S1x18432x24, .f32⟩
  | .local _ .vmem, ⟨4, _⟩ => ⟨S1x24x32, .f32⟩
  | .local _ .vmem, ⟨5, _⟩ => ⟨S1x24x32, .f32⟩
  | .local _ .vmem, ⟨6, _⟩ => ⟨S1x1x24, .f32⟩
  | .local _ .vmem, ⟨7, _⟩ => ⟨S1x1x24, .f32⟩
  | .local _ .vmem, ⟨8, _⟩ => ⟨S24x32, .f32⟩
  | .local _ .vmem, ⟨9, _⟩ => ⟨S1x24, .f32⟩
  | .local _ .vmem, ⟨10, _⟩ => ⟨S1x18432x32, .f32⟩
  | .local _ .vmem, ⟨11, _⟩ => ⟨S1x18432x32, .f32⟩
  | .local _ .vmem, ⟨12, _⟩ => ⟨S1x18432x24, .f32⟩
  | .local _ .vmem, ⟨13, _⟩ => ⟨S1x18432x24, .f32⟩
  | .local _ .vmem, ⟨14, _⟩ => ⟨S1x32x24, .f32⟩
  | .local _ .vmem, ⟨15, _⟩ => ⟨S1x32x24, .f32⟩
  | .local _ .vmem, ⟨16, _⟩ => ⟨S1x1x24, .f32⟩
  | .local _ .vmem, ⟨17, _⟩ => ⟨S1x1x24, .f32⟩
  | .local _ .vmem, ⟨18, _⟩ => ⟨S1x1x24, .f32⟩
  | .local _ .vmem, ⟨19, _⟩ => ⟨S1x1x24, .f32⟩
  | .local _ .vmem, ⟨20, _⟩ => ⟨S1x1x1, .f32⟩
  | .local _ .vmem, ⟨21, _⟩ => ⟨S1x1x1, .f32⟩
  | .local _ .vmem, ⟨22, _⟩ => ⟨S1x1, .f32⟩
  | _, _ => ⟨S8x32x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_call1_v0 : Ref sig .tc := ⟨.hbm, 65, rfl⟩
abbrev main_call1_v1 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_15 : Ref sig .tc := ⟨.hbm, 107, rfl⟩
abbrev main_v82 : Ref sig .tc := ⟨.hbm, 108, rfl⟩
abbrev main_cst_16 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_call2_v0 : Ref sig .tc := ⟨.hbm, 115, rfl⟩
abbrev main_call2_v1 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_call3_v0 : Ref sig .tc := ⟨.hbm, 120, rfl⟩
abbrev main_call3_v1 : Ref sig .tc := ⟨.hbm, 121, rfl⟩
abbrev main_v88 : Ref sig .tc := ⟨.hbm, 122, rfl⟩
abbrev main_v89 : Ref sig .tc := ⟨.hbm, 123, rfl⟩
abbrev main_cst_20 : Ref sig .tc := ⟨.hbm, 124, rfl⟩
abbrev main_v90 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_cst_22 : Ref sig .tc := ⟨.hbm, 129, rfl⟩
abbrev main_v93 : Ref sig .tc := ⟨.hbm, 130, rfl⟩
abbrev main_cst_23 : Ref sig .tc := ⟨.hbm, 131, rfl⟩
abbrev main_v94 : Ref sig .tc := ⟨.hbm, 132, rfl⟩
abbrev main_cst_24 : Ref sig .tc := ⟨.hbm, 133, rfl⟩
abbrev main_v95 : Ref sig .tc := ⟨.hbm, 134, rfl⟩
abbrev main_v96 : Ref sig .tc := ⟨.hbm, 135, rfl⟩
abbrev main_cst_25 : Ref sig .tc := ⟨.hbm, 136, rfl⟩
abbrev main_v97 : Ref sig .tc := ⟨.hbm, 137, rfl⟩
abbrev main_v98 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_15 : BitVec 32 := 0#32
  let v22 : BitVec 1 := Scalar.cmpi .ne v21 c0_i32_15
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x18432x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x18432x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x24x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_29 : BitVec 32 := 0#32
  let v51 : BitVec 1 := Scalar.cmpi .ne v50 c0_i32_29
  v51

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x18432x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x18432x24 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x24 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x24 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x24 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  transposes_S8x32x384x384_S8x384x384x32_0_2_3_1 : S8x32x384x384.Transposes [0, 2, 3, 1] S8x384x384x32
  shapeCasts_S8x384x384x32_S8x147456x32 : S8x384x384x32.ShapeCasts S8x147456x32
  transposes_S8x24x384x384_S8x384x384x24_0_2_3_1 : S8x24x384x384.Transposes [0, 2, 3, 1] S8x384x384x24
  shapeCasts_S8x384x384x24_S8x147456x24 : S8x384x384x24.ShapeCasts S8x147456x24
  inb_S24x32_S24x32_0_0 : ∀ a, (![0, 0] : Fin 2 → Nat) a + S24x32.size a ≤ S24x32.size a
  h_S24x32 : 0 < S24x32.numel
  shapeCasts_S24x32_S24x32 : S24x32.ShapeCasts S24x32
  inb_S1x24_S1x24_0_0 : ∀ a, (![0, 0] : Fin 2 → Nat) a + S1x24.size a ≤ S1x24.size a
  h_S1x24 : 0 < S1x24.numel
  shapeCasts_S1x24_S1x24 : S1x24.ShapeCasts S1x24
  inb_S1x18432x32_S1x18432x32_0_0_0 : ∀ a, (![0, 0, 0] : Fin 3 → Nat) a + S1x18432x32.size a ≤ S1x18432x32.size a
  h_S1x18432x32 : 0 < S1x18432x32.numel
  shapeCasts_S1x18432x32_S18432x32 : S1x18432x32.ShapeCasts S18432x32
  inb_S1x18432x24_S1x18432x24_0_0_0 : ∀ a, (![0, 0, 0] : Fin 3 → Nat) a + S1x18432x24.size a ≤ S1x18432x24.size a
  h_S1x18432x24 : 0 < S1x18432x24.numel
  shapeCasts_S1x18432x24_S18432x24 : S1x18432x24.ShapeCasts S18432x24
  reduces_S18432x24_S24 : S18432x24.Reduces [0] S24
  shapeCasts_S24_S1x24 : S24.ShapeCasts S1x24
  inb_S1x24x32_S1x24x32_0_0_0 : ∀ a, (![0, 0, 0] : Fin 3 → Nat) a + S1x24x32.size a ≤ S1x24x32.size a
  h_S1x24x32 : 0 < S1x24x32.numel
  shapeCasts_S1x24x32_S24x32 : S1x24x32.ShapeCasts S24x32
  shapeCasts_S24x32_S1x24x32 : S24x32.ShapeCasts S1x24x32
  inb_S1x1x24_S1x1x24_0_0_0 : ∀ a, (![0, 0, 0] : Fin 3 → Nat) a + S1x1x24.size a ≤ S1x1x24.size a
  h_S1x1x24 : 0 < S1x1x24.numel
  shapeCasts_S1x1x24_S1x24 : S1x1x24.ShapeCasts S1x24
  shapeCasts_S1x24_S1x1x24 : S1x24.ShapeCasts S1x1x24
  shapeCasts_S8x1x24_S8x24 : S8x1x24.ShapeCasts S8x24
  bcast_S24_S1x24_1 : S24.BroadcastsInDim S1x24 (![1] : Fin 1 → Fin S1x24.rank)
  bcast_S8_S8x1_0 : S8.BroadcastsInDim S8x1 (![0] : Fin 1 → Fin S8x1.rank)
  bcast_S1x24_S8x24_0_1 : S1x24.BroadcastsInDim S8x24 (![0, 1] : Fin 2 → Fin S8x24.rank)
  bcast_S8x1_S8x24_0_1 : S8x1.BroadcastsInDim S8x24 (![0, 1] : Fin 2 → Fin S8x24.rank)
  bcast_S_S8x24 : S_.BroadcastsInDim S8x24 (![] : Fin 0 → Fin S8x24.rank)
  bcast_S8x24_S8x24x1_0_1 : S8x24.BroadcastsInDim S8x24x1 (![0, 1] : Fin 2 → Fin S8x24x1.rank)
  bcast_S8x24x1_S8x24x32_0_1_2 : S8x24x1.BroadcastsInDim S8x24x32 (![0, 1, 2] : Fin 3 → Fin S8x24x32.rank)
  transposes_S8x24x32_S8x32x24_0_2_1 : S8x24x32.Transposes [0, 2, 1] S8x32x24
  bcast_S8x24_S8x1x24_0_2 : S8x24.BroadcastsInDim S8x1x24 (![0, 2] : Fin 2 → Fin S8x1x24.rank)
  reducesTo_S8x24x32_S8x24_d2 : S8x24x32.ReducesTo [2] S8x24
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x32x24_S1x32x24_0_0_0 : ∀ a, (![0, 0, 0] : Fin 3 → Nat) a + S1x32x24.size a ≤ S1x32x24.size a
  h_S1x32x24 : 0 < S1x32x24.numel
  shapeCasts_S1x32x24_S32x24 : S1x32x24.ShapeCasts S32x24
  reduces_S18432x32_S18432 : S18432x32.Reduces [1] S18432
  shapeCasts_S18432_S18432x1 : S18432.ShapeCasts S18432x1
  broadcasts_S18432x1_S18432x24 : S18432x1.Broadcasts S18432x24
  broadcasts_S1x24_S18432x24 : S1x24.Broadcasts S18432x24
  reduces_S1x24_S1 : S1x24.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S8x1x1_S8 : S8x1x1.ShapeCasts S8
  reducesTo_S8x24_S8_d1 : S8x24.ReducesTo [1] S8
  reducesTo_S8_S_d0 : S8.ReducesTo [0] S_
  bcast_S8x24x1_S8x24x24_0_1_2 : S8x24x1.BroadcastsInDim S8x24x24 (![0, 1, 2] : Fin 3 → Fin S8x24x24.rank)
  bcast_S8x1x24_S8x24x24_0_1_2 : S8x1x24.BroadcastsInDim S8x24x24 (![0, 1, 2] : Fin 3 → Fin S8x24x24.rank)
  bcast_S_S8x24x24 : S_.BroadcastsInDim S8x24x24 (![] : Fin 0 → Fin S8x24x24.rank)
  bcast_S_S24x24 : S_.BroadcastsInDim S24x24 (![] : Fin 0 → Fin S24x24.rank)
  bcast_S24x24_S1x24x24_1_2 : S24x24.BroadcastsInDim S1x24x24 (![1, 2] : Fin 2 → Fin S1x24x24.rank)
  bcast_S1x24x24_S8x24x24_0_1_2 : S1x24x24.BroadcastsInDim S8x24x24 (![0, 1, 2] : Fin 3 → Fin S8x24x24.rank)
  reducesTo_S8x24x24_S8_d1_2 : S8x24x24.ReducesTo [1, 2] S8
  bcast_S_S8 : S_.BroadcastsInDim S8 (![] : Fin 0 → Fin S8.rank)
  dot_S18432x24_S18432x32_S24x32_0_0_1_1_n_n_wf : DotDims.WF S18432x24 S18432x32 S24x32 [0] [0] [1] [1] [] []
  dot_S18432x32_S32x24_S18432x24_1_0_0_1_n_n_wf : DotDims.WF S18432x32 S32x24 S18432x24 [1] [0] [0] [1] [] []
  dot_S8x24x32_S8x24x32_S8x24x24_2_2_1_1_0_0_wf : DotDims.WF S8x24x32 S8x24x32 S8x24x24 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x18432x32.size a ≤ S8x147456x32.size a
  hwx0_0 : ∀ i : grid0.Coords, EltTy.bits .f32 = 32 ∨ (Rect.block (s := S8x147456x32) S1x18432x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x18432x24.size a ≤ S8x147456x24.size a
  hwx0_1 : ∀ i : grid0.Coords, EltTy.bits .f32 = 32 ∨ (Rect.block (s := S8x147456x24) S1x18432x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x24x32.size a ≤ S8x24x32.size a
  hwx0_2 : ∀ i : grid0.Coords, EltTy.bits .f32 = 32 ∨ (Rect.block (s := S8x24x32) S1x24x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x24.size a ≤ S8x1x24.size a
  hwx0_3 : ∀ i : grid0.Coords, EltTy.bits .f32 = 32 ∨ (Rect.block (s := S8x1x24) S1x1x24.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x18432x32.size a ≤ S8x147456x32.size a
  hwx1_0 : ∀ i : grid1.Coords, EltTy.bits .f32 = 32 ∨ (Rect.block (s := S8x147456x32) S1x18432x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x18432x24.size a ≤ S8x147456x24.size a
  hwx1_1 : ∀ i : grid1.Coords, EltTy.bits .f32 = 32 ∨ (Rect.block (s := S8x147456x24) S1x18432x24.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x24.size a ≤ S8x32x24.size a
  hwx1_2 : ∀ i : grid1.Coords, EltTy.bits .f32 = 32 ∨ (Rect.block (s := S8x32x24) S1x32x24.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x24.size a ≤ S8x1x24.size a
  hwx1_3 : ∀ i : grid1.Coords, EltTy.bits .f32 = 32 ∨ (Rect.block (s := S8x1x24) S1x1x24.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x24.size a ≤ S8x1x24.size a
  hwx1_4 : ∀ i : grid1.Coords, EltTy.bits .f32 = 32 ∨ (Rect.block (s := S8x1x24) S1x1x24.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1.size a ≤ S8x1x1.size a
  hwx1_5 : ∀ i : grid1.Coords, EltTy.bits .f32 = 32 ∨ (Rect.block (s := S8x1x1) S1x1x1.size (cc1_transform_5 i) (hinb1_5 i)).WholeWords (EltTy.packing .f32)

variable [Facts₀]

def dot_S18432x24_S18432x32_S24x32_0_0_1_1_n_n : DotDims S18432x24 S18432x32 S24x32 where
  lhsContracting := [0]
  rhsContracting := [0]
  lhsNonContracting := [1]
  rhsNonContracting := [1]
  lhsBatch := []
  rhsBatch := []
  wf := dot_S18432x24_S18432x32_S24x32_0_0_1_1_n_n_wf
def dot_S18432x32_S32x24_S18432x24_1_0_0_1_n_n : DotDims S18432x32 S32x24 S18432x24 where
  lhsContracting := [1]
  rhsContracting := [0]
  lhsNonContracting := [0]
  rhsNonContracting := [1]
  lhsBatch := []
  rhsBatch := []
  wf := dot_S18432x32_S32x24_S18432x24_1_0_0_1_n_n_wf
def dot_S8x24x32_S8x24x32_S8x24x24_2_2_1_1_0_0 : DotDims S8x24x32 S8x24x32 S8x24x24 where
  lhsContracting := [2]
  rhsContracting := [2]
  lhsNonContracting := [1]
  rhsNonContracting := [1]
  lhsBatch := [0]
  rhsBatch := [0]
  wf := dot_S8x24x32_S8x24x32_S8x24x24_2_2_1_1_0_0_wf

abbrev win0_0 : Pipeline.Window sig grid0 :=
  Pipeline.Window.ofSpec (Memref.whole main_v1) S1x18432x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x18432x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x24x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x1x24.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1x18432x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x18432x24.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x32x24.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x1x24.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x1x24.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x1x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8x32x384x384 : Shape := ⟨4, ![8, 32, 384, 384]⟩
abbrev S8x24x384x384 : Shape := ⟨4, ![8, 24, 384, 384]⟩
abbrev S8 : Shape := ⟨1, ![8]⟩
abbrev S8x384x384x32 : Shape := ⟨4, ![8, 384, 384, 32]⟩
abbrev S8x147456x32 : Shape := ⟨3, ![8, 147456, 32]⟩
abbrev S8x384x384x24 : Shape := ⟨4, ![8, 384, 384, 24]⟩
abbrev S8x147456x24 : Shape := ⟨3, ![8, 147456, 24]⟩
abbrev S24 : Shape := ⟨1, ![24]⟩
abbrev S1x24 : Shape := ⟨2, ![1, 24]⟩
abbrev S8x1 : Shape := ⟨2, ![8, 1]⟩
abbrev S8x24 : Shape := ⟨2, ![8, 24]⟩
abbrev S_ : Shape := ⟨0, ![]⟩
abbrev S8x24x32 : Shape := ⟨3, ![8, 24, 32]⟩
abbrev S8x24x1 : Shape := ⟨3, ![8, 24, 1]⟩
abbrev S8x147456 : Shape := ⟨2, ![8, 147456]⟩
abbrev S8x147456x1 : Shape := ⟨3, ![8, 147456, 1]⟩
abbrev S8x1x24 : Shape := ⟨3, ![8, 1, 24]⟩
abbrev S8x24x24 : Shape := ⟨3, ![8, 24, 24]⟩
abbrev S24x24 : Shape := ⟨2, ![24, 24]⟩
abbrev S1x24x24 : Shape := ⟨3, ![1, 24, 24]⟩

abbrev nBuf : Space → Nat
  | .hbm => 174
  | .vmem => 0
  | .smem => 0
  | _ => 0

abbrev hbmTy0_0 (i : Nat) : BufTy := match i % 128 with
  | 0 => ⟨S8x32x384x384, .f32⟩
  | 1 => ⟨S8x24x384x384, .f32⟩
  | 2 => ⟨S8, .i32⟩
  | 3 => ⟨S8x384x384x32, .f32⟩
  | 4 => ⟨S8x147456x32, .f32⟩
  | 5 => ⟨S8x384x384x24, .f32⟩
  | 6 => ⟨S8x147456x24, .f32⟩
  | 7 => ⟨S24, .i32⟩
  | 8 => ⟨S1x24, .i32⟩
  | 9 => ⟨S8x1, .i32⟩
  | 10 => ⟨S8x24, .i32⟩
  | 11 => ⟨S8x24, .i32⟩
  | 12 => ⟨S8x24, .i1⟩
  | 13 => ⟨S8x24, .f32⟩
  | 14 => ⟨S8, .f32⟩
  | 15 => ⟨S_, .f32⟩
  | 16 => ⟨S8x24, .f32⟩
  | 17 => ⟨S8x24x32, .f32⟩
  | 18 => ⟨S_, .f32⟩
  | 19 => ⟨S8x24, .f32⟩
  | 20 => ⟨S8x24, .f32⟩
  | 21 => ⟨S8x24x1, .f32⟩
  | 22 => ⟨S8x24x32, .f32⟩
  | 23 => ⟨S8x24x32, .f32⟩
  | 24 => ⟨S8x24x1, .f32⟩
  | 25 => ⟨S8x24x32, .f32⟩
  | 26 => ⟨S8x24x32, .f32⟩
  | 27 => ⟨S8x147456x32, .f32⟩
  | 28 => ⟨S_, .f32⟩
  | 29 => ⟨S8x147456, .f32⟩
  | 30 => ⟨S8x24x32, .f32⟩
  | 31 => ⟨S_, .f32⟩
  | 32 => ⟨S8x24, .f32⟩
  | 33 => ⟨S8x147456x24, .f32⟩
  | 34 => ⟨S8x147456x1, .f32⟩
  | 35 => ⟨S_, .f32⟩
  | 36 => ⟨S8x147456x24, .f32⟩
  | 37 => ⟨S8x147456x24, .f32⟩
  | 38 => ⟨S8x147456x24, .f32⟩
  | 39 => ⟨S8x147456x24, .f32⟩
  | 40 => ⟨S8x1x24, .f32⟩
  | 41 => ⟨S8x147456x24, .f32⟩
  | 42 => ⟨S8x147456x24, .f32⟩
  | 43 => ⟨S_, .f32⟩
  | 44 => ⟨S8x147456x24, .f32⟩
  | 45 => ⟨S8x147456x24, .f32⟩
  | 46 => ⟨S_, .f32⟩
  | 47 => ⟨S8x147456x24, .f32⟩
  | 48 => ⟨S8x147456x24, .i1⟩
  | 49 => ⟨S_, .f32⟩
  | 50 => ⟨S_, .f32⟩
  | 51 => ⟨S8x147456x24, .f32⟩
  | 52 => ⟨S8x147456x24, .f32⟩
  | 53 => ⟨S8x147456x24, .f32⟩
  | 54 => ⟨S_, .f32⟩
  | 55 => ⟨S_, .f32⟩
  | 56 => ⟨S8x147456x24, .f32⟩
  | 57 => ⟨S8x147456x24, .f32⟩
  | 58 => ⟨S8x1x24, .f32⟩
  | 59 => ⟨S8x147456x24, .f32⟩
  | 60 => ⟨S8x147456x24, .f32⟩
  | 61 => ⟨S_, .f32⟩
  | 62 => ⟨S8x147456x24, .f32⟩
  | 63 => ⟨S8x147456x24, .f32⟩
  | 64 => ⟨S_, .f32⟩
  | 65 => ⟨S8x147456x24, .f32⟩
  | 66 => ⟨S8x147456x24, .f32⟩
  | 67 => ⟨S8x147456x24, .f32⟩
  | 68 => ⟨S8x147456x24, .f32⟩
  | 69 => ⟨S_, .f32⟩
  | 70 => ⟨S8, .f32⟩
  | 71 => ⟨S_, .f32⟩
  | 72 => ⟨S8, .f32⟩
  | 73 => ⟨S8, .f32⟩
  | 74 => ⟨S_, .f32⟩
  | 75 => ⟨S_, .f32⟩
  | 76 => ⟨S_, .f32⟩
  | 77 => ⟨S_, .f32⟩
  | 78 => ⟨S8x24x24, .f32⟩
  | 79 => ⟨S8x24x1, .f32⟩
  | 80 => ⟨S8x1x24, .f32⟩
  | 81 => ⟨S8x24x24, .f32⟩
  | 82 => ⟨S8x24x24, .f32⟩
  | 83 => ⟨S8x24x24, .f32⟩
  | 84 => ⟨S_, .f32⟩
  | 85 => ⟨S8x24x24, .f32⟩
  | 86 => ⟨S8x24x24, .f32⟩
  | 87 => ⟨S8x24x24, .f32⟩
  | 88 => ⟨S_, .f32⟩
  | 89 => ⟨S8x24x24, .f32⟩
  | 90 => ⟨S8x24x24, .f32⟩
  | 91 => ⟨S_, .f32⟩
  | 92 => ⟨S8x24x24, .f32⟩
  | 93 => ⟨S8x24x24, .i1⟩
  | 94 => ⟨S_, .f32⟩
  | 95 => ⟨S_, .f32⟩
  | 96 => ⟨S8x24x24, .f32⟩
  | 97 => ⟨S8x24x24, .f32⟩
  | 98 => ⟨S8x24x24, .f32⟩
  | 99 => ⟨S_, .f32⟩
  | 100 => ⟨S_, .f32⟩
  | 101 => ⟨S8x24x24, .f32⟩
  | 102 => ⟨S8x24x24, .f32⟩
  | 103 => ⟨S24x24, .i32⟩
  | 104 => ⟨S24x24, .i32⟩
  | 105 => ⟨S_, .i32⟩
  | 106 => ⟨S24x24, .i32⟩
  | 107 => ⟨S24x24, .i32⟩
  | 108 => ⟨S24x24, .i1⟩
  | 109 => ⟨S24x24, .f32⟩
  | 110 => ⟨S_, .f32⟩
  | 111 => ⟨S24x24, .f32⟩
  | 112 => ⟨S24x24, .f32⟩
  | 113 => ⟨S_, .f32⟩
  | 114 => ⟨S24x24, .f32⟩
  | 115 => ⟨S24x24, .f32⟩
  | 116 => ⟨S8x24x1, .f32⟩
  | 117 => ⟨S8x1x24, .f32⟩
  | 118 => ⟨S8x24x24, .f32⟩
  | 119 => ⟨S8x24x24, .f32⟩
  | 120 => ⟨S8x24x24, .f32⟩
  | 121 => ⟨S_, .f32⟩
  | 122 => ⟨S24x24, .f32⟩
  | 123 => ⟨S24x24, .f32⟩
  | 124 => ⟨S1x24x24, .f32⟩
  | 125 => ⟨S8x24x24, .f32⟩
  | 126 => ⟨S8x24x24, .f32⟩
  | 127 => ⟨S1x24x24, .f32⟩
  | _ => ⟨S8x32x384x384, .f32⟩

abbrev hbmTy0_1 (i : Nat) : BufTy := match i % 128 with
  | 0 => ⟨S8x24x24, .f32⟩
  | 1 => ⟨S8x24x24, .f32⟩
  | 2 => ⟨S_, .f32⟩
  | 3 => ⟨S8x24x24, .f32⟩
  | 4 => ⟨S8x24x24, .f32⟩
  | 5 => ⟨S8x24x24, .f32⟩
  | 6 => ⟨S8x24x24, .f32⟩
  | 7 => ⟨S_, .f32⟩
  | 8 => ⟨S8, .f32⟩
  | 9 => ⟨S_, .f32⟩
  | 10 => ⟨S8, .f32⟩
  | 11 => ⟨S8, .f32⟩
  | 12 => ⟨S8, .f32⟩
  | 13 => ⟨S8, .f32⟩
  | 14 => ⟨S_, .f32⟩
  | 15 => ⟨S_, .f32⟩
  | 16 => ⟨S_, .f32⟩
  | 17 => ⟨S_, .f32⟩
  | 18 => ⟨S_, .f32⟩
  | 19 => ⟨S8x24, .f32⟩
  | 20 => ⟨S8x24, .i1⟩
  | 21 => ⟨S_, .f32⟩
  | 22 => ⟨S_, .f32⟩
  | 23 => ⟨S8x24, .f32⟩
  | 24 => ⟨S8x24, .f32⟩
  | 25 => ⟨S8x24, .f32⟩
  | 26 => ⟨S_, .f32⟩
  | 27 => ⟨S_, .f32⟩
  | 28 => ⟨S8x24, .f32⟩
  | 29 => ⟨S8x24, .f32⟩
  | 30 => ⟨S8x24, .f32⟩
  | 31 => ⟨S_, .f32⟩
  | 32 => ⟨S8, .f32⟩
  | 33 => ⟨S8, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | _ => ⟨S8x32x384x384, .f32⟩

abbrev hbmTy (i : Nat) : BufTy := match i / 128 with
  | 0 => hbmTy0_0 i
  | 1 => hbmTy0_1 i
  | _ => ⟨S8x32x384x384, .f32⟩

abbrev bufTy : (tb : Table) → Fin (tcTables nBuf tb) → BufTy
  | .hbm, ⟨i, _⟩ => hbmTy i
  | _, _ => ⟨S8x32x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_cst_17 : Ref sig .tc := ⟨.hbm, 94, rfl⟩
abbrev main_call2_v0 : Ref sig .tc := ⟨.hbm, 95, rfl⟩
abbrev main_call2_v1 : Ref sig .tc := ⟨.hbm, 96, rfl⟩
abbrev main_v69 : Ref sig .tc := ⟨.hbm, 97, rfl⟩
abbrev main_v70 : Ref sig .tc := ⟨.hbm, 98, rfl⟩
abbrev main_cst_18 : Ref sig .tc := ⟨.hbm, 99, rfl⟩
abbrev main_call3_v0 : Ref sig .tc := ⟨.hbm, 100, rfl⟩
abbrev main_call3_v1 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_19 : Ref sig .tc := ⟨.hbm, 110, rfl⟩
abbrev main_v78 : Ref sig .tc := ⟨.hbm, 111, rfl⟩
abbrev main_v79 : Ref sig .tc := ⟨.hbm, 112, rfl⟩
abbrev main_cst_20 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_21 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_22 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_23 : Ref sig .tc := ⟨.hbm, 135, rfl⟩
abbrev main_v99 : Ref sig .tc := ⟨.hbm, 136, rfl⟩
abbrev main_cst_24 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_25 : Ref sig .tc := ⟨.hbm, 142, rfl⟩
abbrev main_v104 : Ref sig .tc := ⟨.hbm, 143, rfl⟩
abbrev main_cst_26 : Ref sig .tc := ⟨.hbm, 144, rfl⟩
abbrev main_v105 : Ref sig .tc := ⟨.hbm, 145, rfl⟩
abbrev main_cst_27 : Ref sig .tc := ⟨.hbm, 146, rfl⟩
abbrev main_v106 : Ref sig .tc := ⟨.hbm, 147, rfl⟩
abbrev main_v107 : Ref sig .tc := ⟨.hbm, 148, rfl⟩
abbrev main_cst_28 : Ref sig .tc := ⟨.hbm, 149, rfl⟩
abbrev main_call4_v0 : Ref sig .tc := ⟨.hbm, 150, rfl⟩
abbrev main_call4_v1 : Ref sig .tc := ⟨.hbm, 151, rfl⟩
abbrev main_v108 : Ref sig .tc := ⟨.hbm, 152, rfl⟩
abbrev main_v109 : Ref sig .tc := ⟨.hbm, 153, rfl⟩
abbrev main_cst_29 : Ref sig .tc := ⟨.hbm, 154, rfl⟩
abbrev main_call5_v0 : Ref sig .tc := ⟨.hbm, 155, rfl⟩
abbrev main_call5_v1 : Ref sig .tc := ⟨.hbm, 156, rfl⟩
abbrev main_v110 : Ref sig .tc := ⟨.hbm, 157, rfl⟩
abbrev main_v111 : Ref sig .tc := ⟨.hbm, 158, rfl⟩
abbrev main_cst_30 : Ref sig .tc := ⟨.hbm, 159, rfl⟩
abbrev main_v112 : Ref sig .tc := ⟨.hbm, 160, rfl⟩
abbrev main_v113 : Ref sig .tc := ⟨.hbm, 161, rfl⟩
abbrev main_cst_31 : Ref sig .tc := ⟨.hbm, 162, rfl⟩
abbrev main_v114 : Ref sig .tc := ⟨.hbm, 163, rfl⟩
abbrev main_cst_32 : Ref sig .tc := ⟨.hbm, 164, rfl⟩
abbrev main_v115 : Ref sig .tc := ⟨.hbm, 165, rfl⟩
abbrev main_cst_33 : Ref sig .tc := ⟨.hbm, 166, rfl⟩
abbrev main_v116 : Ref sig .tc := ⟨.hbm, 167, rfl⟩
abbrev main_cst_34 : Ref sig .tc := ⟨.hbm, 168, rfl⟩
abbrev main_v117 : Ref sig .tc := ⟨.hbm, 169, rfl⟩
abbrev main_v118 : Ref sig .tc := ⟨.hbm, 170, rfl⟩
abbrev main_cst_35 : Ref sig .tc := ⟨.hbm, 171, rfl⟩
abbrev main_v119 : Ref sig .tc := ⟨.hbm, 172, rfl⟩
abbrev main_v120 : Ref sig .tc := ⟨.hbm, 173, rfl⟩

abbrev nD : Nat := 1
abbrev τ : Topo := Topo.v7x

variable {F : FTy → Type} [FloatOps F]

class Facts₀ : Prop where
  transposes_S8x32x384x384_S8x384x384x32_0_2_3_1 : S8x32x384x384.Transposes [0, 2, 3, 1] S8x384x384x32
  shapeCasts_S8x384x384x32_S8x147456x32 : S8x384x384x32.ShapeCasts S8x147456x32
  transposes_S8x24x384x384_S8x384x384x24_0_2_3_1 : S8x24x384x384.Transposes [0, 2, 3, 1] S8x384x384x24
  shapeCasts_S8x384x384x24_S8x147456x24 : S8x384x384x24.ShapeCasts S8x147456x24
  bcast_S24_S1x24_1 : S24.BroadcastsInDim S1x24 (![1] : Fin 1 → Fin S1x24.rank)
  bcast_S8_S8x1_0 : S8.BroadcastsInDim S8x1 (![0] : Fin 1 → Fin S8x1.rank)
  bcast_S1x24_S8x24_0_1 : S1x24.BroadcastsInDim S8x24 (![0, 1] : Fin 2 → Fin S8x24.rank)
  bcast_S8x1_S8x24_0_1 : S8x1.BroadcastsInDim S8x24 (![0, 1] : Fin 2 → Fin S8x24.rank)
  reducesTo_S8x147456x24_S8x24_d1 : S8x147456x24.ReducesTo [1] S8x24
  h_S_ : 0 < S_.numel
  bcast_S_S8x24 : S_.BroadcastsInDim S8x24 (![] : Fin 0 → Fin S8x24.rank)
  bcast_S8x24_S8x24x1_0_1 : S8x24.BroadcastsInDim S8x24x1 (![0, 1] : Fin 2 → Fin S8x24x1.rank)
  bcast_S8x24x1_S8x24x32_0_1_2 : S8x24x1.BroadcastsInDim S8x24x32 (![0, 1, 2] : Fin 3 → Fin S8x24x32.rank)
  reducesTo_S8x147456x32_S8x147456_d2 : S8x147456x32.ReducesTo [2] S8x147456
  reducesTo_S8x24x32_S8x24_d2 : S8x24x32.ReducesTo [2] S8x24
  bcast_S8x147456_S8x147456x1_0_1 : S8x147456.BroadcastsInDim S8x147456x1 (![0, 1] : Fin 2 → Fin S8x147456x1.rank)
  bcast_S_S8x147456x24 : S_.BroadcastsInDim S8x147456x24 (![] : Fin 0 → Fin S8x147456x24.rank)
  bcast_S8x147456x1_S8x147456x24_0_1_2 : S8x147456x1.BroadcastsInDim S8x147456x24 (![0, 1, 2] : Fin 3 → Fin S8x147456x24.rank)
  bcast_S8x24_S8x1x24_0_2 : S8x24.BroadcastsInDim S8x1x24 (![0, 2] : Fin 2 → Fin S8x1x24.rank)
  bcast_S8x1x24_S8x147456x24_0_1_2 : S8x1x24.BroadcastsInDim S8x147456x24 (![0, 1, 2] : Fin 3 → Fin S8x147456x24.rank)
  reducesTo_S8x147456x24_S8_d1_2 : S8x147456x24.ReducesTo [1, 2] S8
  reducesTo_S8_S_d0 : S8.ReducesTo [0] S_
  bcast_S8x24x1_S8x24x24_0_1_2 : S8x24x1.BroadcastsInDim S8x24x24 (![0, 1, 2] : Fin 3 → Fin S8x24x24.rank)
  bcast_S8x1x24_S8x24x24_0_1_2 : S8x1x24.BroadcastsInDim S8x24x24 (![0, 1, 2] : Fin 3 → Fin S8x24x24.rank)
  bcast_S_S8x24x24 : S_.BroadcastsInDim S8x24x24 (![] : Fin 0 → Fin S8x24x24.rank)
  bcast_S_S24x24 : S_.BroadcastsInDim S24x24 (![] : Fin 0 → Fin S24x24.rank)
  bcast_S24x24_S1x24x24_1_2 : S24x24.BroadcastsInDim S1x24x24 (![1, 2] : Fin 2 → Fin S1x24x24.rank)
  bcast_S1x24x24_S8x24x24_0_1_2 : S1x24x24.BroadcastsInDim S8x24x24 (![0, 1, 2] : Fin 3 → Fin S8x24x24.rank)
  reducesTo_S8x24x24_S8_d1_2 : S8x24x24.ReducesTo [1, 2] S8
  bcast_S_S8 : S_.BroadcastsInDim S8 (![] : Fin 0 → Fin S8.rank)
  reducesTo_S8x24_S8_d1 : S8x24.ReducesTo [1] S8
  dot_S8x147456x24_S8x147456x32_S8x24x32_1_1_2_2_0_0_wf : DotDims.WF S8x147456x24 S8x147456x32 S8x24x32 [1] [1] [2] [2] [0] [0]
  dot_S8x147456x32_S8x24x32_S8x147456x24_2_2_1_1_0_0_wf : DotDims.WF S8x147456x32 S8x24x32 S8x147456x24 [2] [2] [1] [1] [0] [0]
  dot_S8x24x32_S8x24x32_S8x24x24_2_2_1_1_0_0_wf : DotDims.WF S8x24x32 S8x24x32 S8x24x24 [2] [2] [1] [1] [0] [0]

variable [Facts₀]

def dot_S8x147456x24_S8x147456x32_S8x24x32_1_1_2_2_0_0 : DotDims S8x147456x24 S8x147456x32 S8x24x32 where
  lhsContracting := [1]
  rhsContracting := [1]
  lhsNonContracting := [2]
  rhsNonContracting := [2]
  lhsBatch := [0]
  rhsBatch := [0]
  wf := dot_S8x147456x24_S8x147456x32_S8x24x32_1_1_2_2_0_0_wf
def dot_S8x147456x32_S8x24x32_S8x147456x24_2_2_1_1_0_0 : DotDims S8x147456x32 S8x24x32 S8x147456x24 where
  lhsContracting := [2]
  rhsContracting := [2]
  lhsNonContracting := [1]
  rhsNonContracting := [1]
  lhsBatch := [0]
  rhsBatch := [0]
  wf := dot_S8x147456x32_S8x24x32_S8x147456x24_2_2_1_1_0_0_wf
def dot_S8x24x32_S8x24x32_S8x24x24_2_2_1_1_0_0 : DotDims S8x24x32 S8x24x32 S8x24x24 where
  lhsContracting := [2]
  rhsContracting := [2]
  lhsNonContracting := [1]
  rhsNonContracting := [1]
  lhsBatch := [0]
  rhsBatch := [0]
  wf := dot_S8x24x32_S8x24x32_S8x24x24_2_2_1_1_0_0_wf

class Facts : Prop extends Facts₀ where

variable [Facts]
-- ==== Proof.AsmDefs.lean ====
/-
  The run of the kernel program through its two regions, for ANY proof data of the two regions given at the buffer
  contents each region is entered from: what the unscoped buffers hold between the items of @main is a fold from the
  launch memory — a host stretch applies its operations, a region replaces its output arrays by what its write-backs
  leave (the proof data's `arrAt … N`) —, and every weakly fair execution ends with every unscoped buffer at the last
  fold's contents. The frame (the arguments end unchanged) and the result's value are both read off that post.
-/
import proofs.«146572_j77713138254116_1_alg».proof.Proof.Gen.KernelIdeal.Launch
import proofs.«146572_j77713138254116_1_alg».proof.Proof.Gen.KernelIdeal.Points
import proofs.«146572_j77713138254116_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- Buffer contents of the TensorCore's references on every core. -/
abbrev Conts (F : FTy → Type) [FloatOps F] : Type := (c : Dev nD) → (b : Ref sig .tc) → Buf (Elt F) ((c : Thread nD τ).loc b)

/-- Region 0's half at entry contents V: proof data whose arrays are V's, full shares, nothing owed, the body
    obligation, and the class invariant in and out. -/
structure Half0 (V : Conts F) where
  dat : (c : Dev nD) → Dat τ (Elt F) Unit ℕ (UR sig nD τ) ℕ cfg0 c
  hA : ∀ c w, (dat c).A w = V c (Pipeline.arrRef spec0 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)

/-- Region 1's half at entry contents V. -/
structure Half1 (V : Conts F) where
  dat : (c : Dev nD) → Dat τ (Elt F) Unit ℕ (UR sig nD τ) ℕ cfg1 c
  hA : ∀ c w, (dat c).A w = V c (Pipeline.arrRef spec1 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec1 c : sProp 𝕄) ⊢ (dat c).Φ 0
  hout : ∀ c, (dat c).Φ (Fin.last cfg1.N) ⊢ (Pipeline.ΦA spec1 c : sProp 𝕄)

variable (m : (ℓ : Loc nD τ sig) → Buf (Elt F) ℓ) (ρ : Dev nD → PrngReg)
variable (h0 : ∀ V : Conts F, Half0 V) (h1 : ∀ V : Conts F, Half1 V)

/-! ## The contents between the items -/

/-- Region 0 is entered from the launch memory after the first host stretch. -/
abbrev E1 : Conts F := fun c b => Gen.V1 m c b
/-- Region 0's proof data. -/
abbrev d0 (c : Dev nD) : Dat τ (Elt F) Unit ℕ (UR sig nD τ) ℕ cfg0 c := (h0 (E1 m)).dat c
/-- After region 0: its arrays at what the write-backs leave, every other buffer as entered. -/
def W2 (c : Dev nD) : Valuation τ sig (Elt F) :=
  Pipeline.withArrays spec0 c (Gen.V1 m c) fun w => (d0 m h0 c).arrAt w cfg0.N
/-- What the regions leave, as the unknowns the generated fold is written over: after region 0 read off W2,
    after region 1 off a given valuation. -/
def outsOf (W4 : Dev nD → Valuation τ sig (Elt F)) : Gen.Outs (F := F) := fun j r c =>
  match j with
  | 2 => W2 m h0 c (Proc.devRef .tc r)
  | _ => W4 c (Proc.devRef .tc r)
/-- Region 1 is entered from these contents (the second host stretch applied after region 0). -/
abbrev E3 : Conts F := fun c b => Gen.V3 m (outsOf m h0 fun c => Gen.V1 m c) c b
/-- Region 1's proof data. -/
abbrev d1 (c : Dev nD) : Dat τ (Elt F) Unit ℕ (UR sig nD τ) ℕ cfg1 c := (h1 (E3 m h0)).dat c
/-- After region 1. -/
def W4 (c : Dev nD) : Valuation τ sig (Elt F) :=
  Pipeline.withArrays spec1 c (Gen.V3 m (outsOf m h0 fun c => Gen.V1 m c) c) fun w => (d1 m h0 h1 c).arrAt w cfg1.N
/-- The regions' results, for the generated fold. -/
abbrev outs : Gen.Outs (F := F) := outsOf m h0 (W4 m h0 h1)

theorem V3_outs (c : Dev nD) : Gen.V3 m (outs m h0 h1) c = Gen.V3 m (outsOf m h0 fun c => Gen.V1 m c) c := rfl

/-! ## What a region leaves, read at its arrays and elsewhere -/

theorem W2_arr (c : Dev nD) (w : Fin cfg0.W) :
    W2 m h0 c (Proc.devRef .tc (Pipeline.arrRef spec0 w)) = (d0 m h0 c).arrAt w cfg0.N := by
  unfold W2; exact Pipeline.withArrays_arr spec0 launch0.win.arr_inj c _ _ w
theorem W4_arr (c : Dev nD) (w : Fin cfg1.W) :
    W4 m h0 h1 c (Proc.devRef .tc (Pipeline.arrRef spec1 w)) = (d1 m h0 h1 c).arrAt w cfg1.N := by
  unfold W4; exact Pipeline.withArrays_arr spec1 launch1.win.arr_inj c _ _ w

/-- After region 0 each of its arrays holds what the pipeline leaves: the inputs as entered, the two outputs the
    write-backs' fold. -/
theorem hF0 (c : Dev nD) (w : Fin cfg0.W) :
    (d0 m h0 c).arrAt w cfg0.N = (fun b : Ref sig .tc => Gen.V2 m (outs m h0 h1) c b) (Pipeline.arrRef spec0 w) := by
  match w with
  | ⟨0, _⟩ => exact ((d0 m h0 c).arrAt_in 0 rfl _).trans (((h0 (E1 m)).hA c 0).trans (Gen.V2_of m (outs m h0 h1) c main_v1 (by decide)).symm)
  | ⟨1, _⟩ => exact ((d0 m h0 c).arrAt_in 1 rfl _).trans (((h0 (E1 m)).hA c 1).trans (Gen.V2_of m (outs m h0 h1) c main_v3 (by decide)).symm)
  | ⟨2, _⟩ =>
    refine (W2_arr m h0 c 2).symm.trans ?_
    show W2 m h0 c (Proc.devRef .tc main_v4_0) = Gen.V2 m (outs m h0 h1) c main_v4_0
    unfold Gen.V2
    rw [Function.update_of_ne (StableHlo.devRef_ne_of_ne (by decide) : (Proc.devRef .tc main_v4_0 : DevRef τ sig) ≠ Proc.devRef .tc main_v4_1), Function.update_self]
    rfl
  | ⟨3, _⟩ =>
    refine (W2_arr m h0 c 3).symm.trans ?_
    show W2 m h0 c (Proc.devRef .tc main_v4_1) = Gen.V2 m (outs m h0 h1) c main_v4_1
    unfold Gen.V2
    rw [Function.update_self]
    rfl
/-- Every other buffer is as region 0 found it. -/
theorem hrest0 (c : Dev nD) : ∀ b : Ref sig .tc, b ∉ Finset.univ.image (Pipeline.arrRef spec0) →
    (fun b : Ref sig .tc => Gen.V2 m (outs m h0 h1) c b) b = E1 m c b := fun b hb =>
  Gen.V2_of m (outs m h0 h1) c b (by
    intro hmem
    simp only [List.mem_cons, List.mem_nil_iff, or_false] at hmem
    rcases hmem with rfl | rfl
    · exact hb (Finset.mem_image.mpr ⟨2, Finset.mem_univ _, rfl⟩)
    · exact hb (Finset.mem_image.mpr ⟨3, Finset.mem_univ _, rfl⟩))

/-- After region 1 each of its arrays holds what the pipeline leaves. -/
theorem hF1 (c : Dev nD) (w : Fin cfg1.W) :
    (d1 m h0 h1 c).arrAt w cfg1.N = (fun b : Ref sig .tc => Gen.V4 m (outs m h0 h1) c b) (Pipeline.arrRef spec1 w) := by
  match w with
  | ⟨0, _⟩ => exact ((d1 m h0 h1 c).arrAt_in 0 rfl _).trans (((h1 (E3 m h0)).hA c 0).trans (Gen.V4_of m (outs m h0 h1) c main_v1 (by decide)).symm)
  | ⟨1, _⟩ => exact ((d1 m h0 h1 c).arrAt_in 1 rfl _).trans (((h1 (E3 m h0)).hA c 1).trans (Gen.V4_of m (outs m h0 h1) c main_v3 (by decide)).symm)
  | ⟨2, _⟩ => exact ((d1 m h0 h1 c).arrAt_in 2 rfl _).trans (((h1 (E3 m h0)).hA c 2).trans (Gen.V4_of m (outs m h0 h1) c main_v21 (by decide)).symm)
  | ⟨3, _⟩ => exact ((d1 m h0 h1 c).arrAt_in 3 rfl _).trans (((h1 (E3 m h0)).hA c 3).trans (Gen.V4_of m (outs m h0 h1) c main_v22 (by decide)).symm)
  | ⟨4, _⟩ => exact ((d1 m h0 h1 c).arrAt_in 4 rfl _).trans (((h1 (E3 m h0)).hA c 4).trans (Gen.V4_of m (outs m h0 h1) c main_v25 (by decide)).symm)
  | ⟨5, _⟩ =>
    refine (W4_arr m h0 h1 c 5).symm.trans ?_
    show W4 m h0 h1 c (Proc.devRef .tc main_v26) = Gen.V4 m (outs m h0 h1) c main_v26
    unfold Gen.V4
    rw [Function.update_self]
    rfl
/-- Every other buffer is as region 1 found it. -/
theorem hrest1 (c : Dev nD) : ∀ b : Ref sig .tc, b ∉ Finset.univ.image (Pipeline.arrRef spec1) →
    (fun b : Ref sig .tc => Gen.V4 m (outs m h0 h1) c b) b = E3 m h0 c b := fun b hb =>
  Gen.V4_of m (outs m h0 h1) c b (by
    intro hmem
    simp only [List.mem_cons, List.mem_nil_iff, or_false] at hmem
    rcases hmem with rfl
    exact hb (Finset.mem_image.mpr ⟨5, Finset.mem_univ _, rfl⟩))

end Cert.KernelIdeal.Asm

end
-- ==== Proof.Asm.lean ====
/-
  The two regions of the kernel program as segments of @main over the thread state "every unscoped buffer at the
  fold's contents, the generator register at some state, nothing owed", and the launch: every weakly fair execution
  terminates with every unscoped buffer at the last fold's contents.
-/
import proofs.«146572_j77713138254116_1_alg».proof.Proof.AsmDefs
import proofs.«146572_j77713138254116_1_alg».proof.Proof.Gen.KernelIdeal.Launch
import proofs.«146572_j77713138254116_1_alg».proof.Proof.Gen.KernelIdeal.Points
import proofs.«146572_j77713138254116_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (h0 : ∀ V : Conts F, Half0 V) (h1 : ∀ V : Conts F, Half1 V)

/-! ## The proof data family and what rides beside the buffers -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (cfgs p) c
  | ⟨0, _⟩ => fun c => d0 m h0 c
  | ⟨1, _⟩ => fun c => d1 m h0 h1 c
/-- No core owes another anything: no level is assigned. -/
abbrev L : GSem nD τ sig → Finset Unit := fun _ => ∅
abbrev lv : GSem nD τ sig → Unit → ℕ := fun _ _ => 0
/-- Beside the buffers, through every item: the generator register at some state, and the core owing nothing. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

/-! ## The regions as segments -/

set_option backward.isDefEq.respectTransparency.types false in
/-- Region 0 over the thread state: entered with every unscoped buffer at the first host stretch's results, left
    with its two output arrays replaced by the write-backs' fold. Its arrays are split out of the unscoped buffers
    and put back; the generator register passes through the class invariant; nothing is owed. -/
def reg0 : RegionSeg (pcfgs (F := F)) adm (pdats m h0 h1) () defs₀ Variants.none L lv 0 where
  win := launch0.win.to₀
  block_pos := launch0.block_pos
  stage_whole := launch0.stage_whole
  K := PEmpty
  osem k := k.elim
  ho := Pipeline.OwnSemFacts.none _
  hbody c := ((h0 (E1 m)).hbody c).loose
  hwaits := Pipeline.hwaits_of_owed_zero _ _ _ _ L lv 0 fun c t => (h0 (E1 m)).howed c t
  pre c := iprop(StableHlo.held (c : Thread nD τ) (Pipeline.ucRefs τ sig) (Gen.V1 m c) ∗ Rst c)
  post c := iprop(StableHlo.held (c : Thread nD τ) (Pipeline.ucRefs τ sig) (Gen.V2 m (outs m h0 h1) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m h0 h1) launch0.win launch0.arr_whole c
      ((pdats m h0 h1 0 c).share_full fun w => (h0 (E1 m)).hq c w) (E1 m c) fun w => (h0 (E1 m)).hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (((h0 (E1 m)).hrec c 0).symm ▸ Set.mem_univ x)
      rw [show (pdats m h0 h1 0 c).owed 0 = 0 from (h0 (E1 m)).howed c 0]
      iexact HO
    isplitl [Hp]; · iexact Hp
    iexact Hrest
  hin c := by
    refine .trans ?_ ((h0 (E1 m)).hin c)
    unfold Pipeline.ΦA
    iintro ⟨Hp, -, Hr⟩
    isplitl [Hr]; · iexact Hr
    iexact Hp
  hout c := by
    rw [Pipeline.ownSems0_none]
    refine ((h0 (E1 m)).hout c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m h0 h1) ((pdats m h0 h1 0 c).share_full fun w => (h0 (E1 m)).hq c w)
      (E1 m c) (fun b : Ref sig .tc => Gen.V2 m (outs m h0 h1) c b) ((pdats m h0 h1 0 c).arrAt · cfg0.N) (hF0 m h0 h1 c) (hrest0 m h0 h1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m h0 h1 0 c).owed (Fin.last _) = 0 from (h0 (E1 m)).howed c _]
    iexact HO

set_option backward.isDefEq.respectTransparency.types false in
/-- Region 1 over the thread state: entered with every unscoped buffer at the second host stretch's results, left
    with its one output array replaced by the write-backs' fold. -/
def reg1 : RegionSeg (pcfgs (F := F)) adm (pdats m h0 h1) () defs₀ Variants.none L lv 1 where
  win := launch1.win.to₀
  block_pos := launch1.block_pos
  stage_whole := launch1.stage_whole
  K := PEmpty
  osem k := k.elim
  ho := Pipeline.OwnSemFacts.none _
  hbody c := ((h1 (E3 m h0)).hbody c).loose
  hwaits := Pipeline.hwaits_of_owed_zero _ _ _ _ L lv 1 fun c t => (h1 (E3 m h0)).howed c t
  pre c := iprop(StableHlo.held (c : Thread nD τ) (Pipeline.ucRefs τ sig) (Gen.V3 m (outsOf m h0 fun c => Gen.V1 m c) c) ∗ Rst c)
  post c := iprop(StableHlo.held (c : Thread nD τ) (Pipeline.ucRefs τ sig) (Gen.V4 m (outs m h0 h1) c) ∗ Rst c)
  X c := iprop(∃ r, prngReg c r)
  Y c := iprop(∃ r, prngReg c r)
  Z c := Pipeline.unscopedRest (Ix := Unit) (Name := ℕ) (U := UR sig nD τ) (Lvl := ℕ) spec1 c (E3 m h0 c)
  hentry c := by
    rw [Pipeline.ownSems0_none]
    have hsplit := Pipeline.arrays_of_unscopedBufs (p := 1) (pcfgs (F := F)) adm (pdats m h0 h1) launch1.win launch1.arr_whole c
      ((pdats m h0 h1 1 c).share_full fun w => (h1 (E3 m h0)).hq c w) (E3 m h0 c) fun w => (h1 (E3 m h0)).hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (((h1 (E3 m h0)).hrec c 0).symm ▸ Set.mem_univ x)
      rw [show (pdats m h0 h1 1 c).owed 0 = 0 from (h1 (E3 m h0)).howed c 0]
      iexact HO
    isplitl [Hp]; · iexact Hp
    iexact Hrest
  hin c := by
    refine .trans ?_ ((h1 (E3 m h0)).hin c)
    unfold Pipeline.ΦA
    iintro ⟨Hp, -, Hr⟩
    isplitl [Hr]; · iexact Hr
    iexact Hp
  hout c := by
    rw [Pipeline.ownSems0_none]
    refine ((h1 (E3 m h0)).hout c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m h0 h1) ((pdats m h0 h1 1 c).share_full fun w => (h1 (E3 m h0)).hq c w)
      (E3 m h0 c) (fun b : Ref sig .tc => Gen.V4 m (outs m h0 h1) c b) ((pdats m h0 h1 1 c).arrAt · cfg1.N) (hF1 m h0 h1 c) (hrest1 m h0 h1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m h0 h1 1 c).owed (Fin.last _) = 0 from (h1 (E3 m h0)).howed c _]
    iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting,
    and every final memory holds every unscoped TensorCore buffer at the last fold's contents: the launch memory
    through the host stretches, with the regions' output arrays at what their write-backs leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V13 m (outs m h0 h1) c b) := by
  refine Pipeline.θ_run_regions_kit_dev (pcfgs (F := F)) adm (pdats m h0 h1) () cellOf_inj emb₁ defs₀ Variants.none L lv m ρ main
    (Gen.segs m (outs m h0 h1) Variants.none L lv Est () (pdats m h0 h1) (reg0 m h0 h1) (reg1 m h0 h1))
    (fun c Q => by
      rewrite [main_chain c, Seg.run_eq_chain,
        show (Gen.segs m (outs m h0 h1) Variants.none L lv Est () (pdats m h0 h1) (reg0 m h0 h1) (reg1 m h0 h1) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V13 m (outs m h0 h1) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V13 m (outs m h0 h1) c b)
    (hfin := fun c s' => by
      iintro ⟨Hh, HSI⟩
      unfold StableHlo.held
      imodintro
      iapply (pointsTo_read_all (Pipeline.ucRefs τ sig) (fun b => (((c : Thread nD τ)).1, b)) (Gen.V13 m (outs m h0 h1) c) s')
      isplitl [Hh] <;> iassumption)
    (hQ := fun s h c => h c)

include h0 h1 in
/-- The frame: every argument array ends as launched (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Gen.V13_main_arg0 m (outs m h0 h1) c),
     (h c _ (mem_uc main_arg1 (by decide))).trans (Gen.V13_main_arg1 m (outs m h0 h1) c),
     (h c _ (mem_uc main_arg2 (by decide))).trans (Gen.V13_main_arg2 m (outs m h0 h1) c)⟩) (run m ρ h0 h1)

end Cert.KernelIdeal.Asm

end
-- ==== Proof.R0Runs.lean ====
/- The first TensorCore region of the program (its first kernel call): the windows' blocks at the contents the
   region is entered with, the two conditions of the kernel body in closed form over the grid, where the output
   windows are idle, and the region invariant with the two accumulators as owned memrefs. -/
import proofs.«146572_j77713138254116_1_alg».proof.Proof.Gen.KernelIdeal.Launch
import proofs.«146572_j77713138254116_1_alg».proof.Proof.Gen.KernelIdeal.Skeleton
import proofs.«146572_j77713138254116_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the accumulators are zeroed), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the accumulators are copied out), from the grid coordinates. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The staging and accumulator memrefs -/

/-- One staging buffer of each output window, through which its contents are stated. -/
abbrev VO0_2 : View sig .tc .vmem S1x24x32 .f32 := (Memref.whole cc0_stg2_0 : Memref sig .tc .vmem S1x24x32 .f32).view
abbrev VO0_3 : View sig .tc .vmem S1x1x24 .f32 := (Memref.whole cc0_stg3_0 : Memref sig .tc .vmem S1x1x24 .f32).view
/-- Each window's current staging memref at point `t`, as the pipeline passes it, and its wholeness. -/
abbrev ms0_0 (t : Fin cfg0.N) : Memref sig .tc .vmem S1x18432x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x18432x24 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x24x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x24 .f32 := win0_3.stage (cfg0.slots t 3)
abbrev hs0_3 (t : Fin cfg0.N) : (ms0_3 t).IsWhole := hstage0_3 ((cfg0.slots t 3).cast nbuf0_3)
/-- The two accumulators: whole scoped buffers of the kernel's own, passed beside the windows. -/
abbrev scM0_0 : Memref sig .tc .vmem S24x32 .f32 := Memref.whole cc0_scratch0
abbrev scM0_1 : Memref sig .tc .vmem S1x24 .f32 := Memref.whole cc0_scratch1
/-- The accumulators as views: what they hold is stated through these. -/
abbrev VS0_0 : View sig .tc .vmem S24x32 .f32 := scM0_0.view
abbrev VS0_1 : View sig .tc .vmem S1x24 .f32 := scM0_1.view

/-- The core's scoped buffers that belong to the other kernel call, each whole at some contents: this region
    passes them through untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 (F := F) c) ∗ (∃ r, prngReg c r)) := by
  unfold Pipeline.ΦA Rest0; rw [scopedRest0_eq]; simp only [scM0_0, scM0_1, owns_whole]; try rfl

end Cert.KernelIdeal.R0

end
-- ==== Proof.R0RunA.lean ====
/- The kernel body's whole run in the case where the accumulators are zeroed and nothing is copied out (points ≡ 0 mod 8). -/
import proofs.«146572_j77713138254116_1_alg».proof.Proof.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in each output's staging memref and in each accumulator (last first) in this
    case, with the proof that on whole memrefs at the stated contents the body runs to the continuation holding
    the inputs as they were and each stored buffer with its pieces written. -/
noncomputable def kernelRun0_A (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) :
    Σ' (L2 : List (View.Piece (Elt F) S1x24x32 .f32)) (L3 : List (View.Piece (Elt F) S1x1x24 .f32)) (LS0 : List (View.Piece (Elt F) S24x32 .f32)), { LS1 : List (View.Piece (Elt F) S1x24 .f32) //
      ∀ (xi2 : Vec F S1x24x32 .f32) (xi3 : Vec F S1x1x24 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨[], [], ?_, ?_, fun xi2 xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.R0

end
-- ==== Proof.R0RunB.lean ====
/- The kernel body's whole run in the case where it only accumulates (points with remainder 1..6 mod 8). -/
import proofs.«146572_j77713138254116_1_alg».proof.Proof.R0RunA

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in each output's staging memref and in each accumulator (last first) in this
    case, with the proof that on whole memrefs at the stated contents the body runs to the continuation holding
    the inputs as they were and each stored buffer with its pieces written. -/
noncomputable def kernelRun0_B (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) :
    Σ' (L2 : List (View.Piece (Elt F) S1x24x32 .f32)) (L3 : List (View.Piece (Elt F) S1x1x24 .f32)) (LS0 : List (View.Piece (Elt F) S24x32 .f32)), { LS1 : List (View.Piece (Elt F) S1x24 .f32) //
      ∀ (xi2 : Vec F S1x24x32 .f32) (xi3 : Vec F S1x1x24 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨[], [], ?_, ?_, fun xi2 xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.R0

end
-- ==== Proof.R0RunC.lean ====
/- The kernel body's whole run in the case where it accumulates and then copies the accumulators out (points ≡ 7 mod 8). -/
import proofs.«146572_j77713138254116_1_alg».proof.Proof.R0RunB

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in each output's staging memref and in each accumulator (last first) in this
    case, with the proof that on whole memrefs at the stated contents the body runs to the continuation holding
    the inputs as they were and each stored buffer with its pieces written. -/
noncomputable def kernelRun0_C (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) :
    Σ' (L2 : List (View.Piece (Elt F) S1x24x32 .f32)) (L3 : List (View.Piece (Elt F) S1x1x24 .f32)) (LS0 : List (View.Piece (Elt F) S24x32 .f32)), { LS1 : List (View.Piece (Elt F) S1x24 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.R0

end
-- ==== Proof.R0Frame.lean ====
/- The first TensorCore region: what each control case of the kernel body leaves in the two output windows' staging
   buffers and in the two accumulators, the same point by point over the grid, the pipeline's proof data at the
   contents the region is entered with, and the body obligation. -/
import proofs.«146572_j77713138254116_1_alg».proof.Proof.R0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- This case stores nothing into output window 2 (idle there and not written back): no pieces, a placeholder
    nothing consults. -/
def out0_A_2 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) : Vec F S1x24x32 .f32 :=
  VO0_2.read (Elt F) (VO0_2.writes (Elt F) VO0_2.junk (kernelRun0_A c i arg2 harg2 arg3 harg3 arg4 harg4 arg5 harg5 arg6 harg6 arg7 harg7 hc0 hc1 x0 x1).1)

/-- This case stores nothing into output window 3 (idle there and not written back): no pieces, a placeholder
    nothing consults. -/
def out0_A_3 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) : Vec F S1x1x24 .f32 :=
  VO0_3.read (Elt F) (VO0_3.writes (Elt F) VO0_3.junk (kernelRun0_A c i arg2 harg2 arg3 harg3 arg4 harg4 arg5 harg5 arg6 harg6 arg7 harg7 hc0 hc1 x0 x1).2.1)

/-- The case's pieces for accumulator 0 tile it, so they cover it. -/
theorem scover0_A_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) (y : S24x32.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S24x32.size (by sl_kernel_rfl) y

/-- What the case leaves in accumulator 0: its pieces read back. -/
def sout0_A_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) : Vec F S24x32 .f32 :=
  VS0_0.read (Elt F) (VS0_0.writes (Elt F) VS0_0.junk (kernelRun0_A c i arg2 harg2 arg3 harg3 arg4 harg4 arg5 harg5 arg6 harg6 arg7 harg7 hc0 hc1 x0 x1).2.2.1)

/-- The case's pieces for accumulator 1 tile it, so they cover it. -/
theorem scover0_A_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) (y : S1x24.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S1x24.size (by sl_kernel_rfl) y

/-- What the case leaves in accumulator 1: its pieces read back. -/
def sout0_A_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) : Vec F S1x24 .f32 :=
  VS0_1.read (Elt F) (VS0_1.writes (Elt F) VS0_1.junk (kernelRun0_A c i arg2 harg2 arg3 harg3 arg4 harg4 arg5 harg5 arg6 harg6 arg7 harg7 hc0 hc1 x0 x1).2.2.2.1)

/-- This case stores nothing into output window 2 (idle there and not written back): no pieces, a placeholder
    nothing consults. -/
def out0_B_2 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) : Vec F S1x24x32 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1).1)

/-- This case stores nothing into output window 3 (idle there and not written back): no pieces, a placeholder
    nothing consults. -/
def out0_B_3 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) : Vec F S1x1x24 .f32 :=
  VO0_3.read (Elt F) (VO0_3.writes (Elt F) VO0_3.junk (kernelRun0_B c i arg2 harg2 arg3 harg3 arg4 harg4 arg5 harg5 arg6 harg6 arg7 harg7 hc0 hc1 x0 x1 xs0 xs1).2.1)

/-- The case's pieces for accumulator 0 tile it, so they cover it. -/
theorem scover0_B_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) (y : S24x32.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S24x32.size (by sl_kernel_rfl) y

/-- What the case leaves in accumulator 0: its pieces read back. -/
def sout0_B_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) : Vec F S24x32 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)

/-- The case's pieces for accumulator 1 tile it, so they cover it. -/
theorem scover0_B_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) (y : S1x24.Idx) :
    ∃ pc ∈ (kernelRun0_B c i arg2 harg2 arg3 harg3 arg4 harg4 arg5 harg5 arg6 harg6 arg7 harg7 hc0 hc1 x0 x1 xs0 xs1).2.2.2.1, y ∈ pc.1.set :=
  View.cover_of_tiledL (kernelRun0_B c i arg2 harg2 arg3 harg3 arg4 harg4 arg5 harg5 arg6 harg6 arg7 harg7 hc0 hc1 x0 x1 xs0 xs1).2.2.2.1 S1x24.size (by sl_kernel_rfl) y

/-- What the case leaves in accumulator 1: its pieces read back. -/
def sout0_B_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) : Vec F S1x24 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.2.1)

/-- In the copy-out case the body's stores into output window 2 tile its block, so they cover it. -/
theorem cover0_C_2 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) (y : S1x24x32.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x24x32.size (by sl_kernel_rfl) y

/-- What the copy-out case leaves in output window 2's staging buffer: its pieces read back. -/
def out0_C_2 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) : Vec F S1x24x32 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)

/-- In the copy-out case the body's stores into output window 3 tile its block, so they cover it. -/
theorem cover0_C_3 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) (y : S1x1x24.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x1x24.size (by sl_kernel_rfl) y

/-- What the copy-out case leaves in output window 3's staging buffer: its pieces read back. -/
def out0_C_3 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) : Vec F S1x1x24 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

/-- The case's pieces for accumulator 0 tile it, so they cover it. -/
theorem scover0_C_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) (y : S24x32.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S24x32.size (by sl_kernel_rfl) y

/-- What the case leaves in accumulator 0: its pieces read back. -/
def sout0_C_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) : Vec F S24x32 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)

/-- The case's pieces for accumulator 1 tile it, so they cover it. -/
theorem scover0_C_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) (y : S1x24.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1x24.size (by sl_kernel_rfl) y

/-- What the case leaves in accumulator 1: its pieces read back. -/
def sout0_C_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) : Vec F S1x24 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## What the outputs and the accumulators hold after each point -/

/-- What the two output windows' staging buffers and the two accumulators hold after the body at position `n` (the
    outputs in window order, then the accumulators): the case the closed forms select at `n`, run at the point's
    memrefs and input blocks, the accumulators at what this leaves at `n - 1`. -/
def outsAt0 (c : Dev nD) : (n : ℕ) → n < cfg0.N → Vec F S1x24x32 .f32 × Vec F S1x1x24 .f32 × Vec F S24x32 .f32 × Vec F S1x24 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
          out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
          sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
          sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2,
          out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- `outsAt0` at a point where the accumulators are zeroed. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
          out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
          sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
          sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point that only accumulates: over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point that accumulates and copies out: over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the two accumulators at what the point before left in them, the other scoped buffers at anything, and
    the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ Rest0 (F := F) c) ∗ (∃ r, prngReg c r)) := by
  cases n with
  | zero => exact absurd rfl hz
  | succ n => rfl

/-! ## The pipeline's proof data -/

/-- The proof data of this pipeline on core `c`: the arrays as the region finds them; after the body at point `t`
    each input's buffer at its block and each output's at `outsAt0`'s component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in;
    the invariant hands the body the accumulators (at anything at the first point, at what the point before left
    afterwards) and takes them back at this point's contents; the outputs' buffers are handed back untouched where
    the case leaves them idle, and at the copied accumulators where it stores them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_2 out0_C_3 sout0_C_0 sout0_C_1; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]
    · iexists _; iexact HS0
    isplitl [HS1]
    · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.R0

end
-- ==== Proof.R1Runs.lean ====
/- Region 1 of the program (custom_call 1, `cc1__pass2_kernel`), at the buffer contents `V` the region is
   entered with: the windows' blocks, the body's branch conditions in closed form over the grid, where the output
   window is idle, the staging and scratch memrefs, and the region invariant with the carried scratch named. -/
import proofs.«146572_j77713138254116_1_alg».proof.Proof.Gen.KernelIdeal.Launch
import proofs.«146572_j77713138254116_1_alg».proof.Proof.Gen.KernelIdeal.Skeleton
import proofs.«146572_j77713138254116_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the scratch), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the copy of the scratch into the output window). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the reset is taken and the copy is not, the output window is idle and not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- Where neither is taken, likewise. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- Where the copy is taken the output window is live. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of the output window, through which its contents are stated. -/
abbrev VO1_5 : View sig .tc .vmem S1x1x1 .f32 := (Memref.whole cc1_stg5_0 : Memref sig .tc .vmem S1x1x1 .f32).view
abbrev ms1_0 (t : Fin cfg1.N) : Memref sig .tc .vmem S1x18432x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x18432x24 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32x24 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x24 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x24 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
/-- The scratch operand: a whole scoped buffer of the kernel's own. -/
abbrev scM1_0 : Memref sig .tc .vmem S1x1 .f32 := Memref.whole cc1_scratch0
/-- The scratch the kernel carries between points, as a view. -/
abbrev VS1_0 : View sig .tc .vmem S1x1 .f32 := scM1_0.view

/-- The core's scoped buffers that are no staging buffer of this region, the other region's at some contents and this
    region's scratch as `S` says. -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ S)

/-- The region invariant of the class with the scratch operand as a memref owned at some contents. -/
theorem PhiA1_eq (c : Dev nD) :
    (Pipeline.ΦA spec1 c : sProp 𝕄)
      = iprop(rest1 c (iprop(∃ d, owns (c : Thread nD τ) scM1_0 fullShare d)) ∗ (∃ r, prngReg c r)) := by
  unfold Pipeline.ΦA rest1; rw [scopedRest1_eq]; simp only [scM1_0, owns_whole]; try rfl

end Cert.KernelIdeal.R1

end
-- ==== Proof.R1RunA.lean ====
/- Region 1: the whole-body run of `cc1__pass2_kernel` in the case of the reset taken, the copy not (points ≡ 0 mod 8). -/
import proofs.«146572_j77713138254116_1_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output window's staging memref and in the carried scratch, as pieces (last
    first), in the case of the reset taken, the copy not (points ≡ 0 mod 8), with the proof that on whole memrefs — the inputs' at their contents — the body runs to
    the continuation holding the inputs' as they were and each stored buffer with its pieces written. -/
noncomputable def kernelRun1_A (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) :
    Σ' (L5 : List (View.Piece (Elt F) S1x1x1 .f32)), { LS0 : List (View.Piece (Elt F) S1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8) K } := by
  refine ⟨[], ?_, fun xi5 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.R1

end
-- ==== Proof.R1RunB.lean ====
/- Region 1: the whole-body run of `cc1__pass2_kernel` in the case of neither conditional taken (points ≡ 1..6 mod 8). -/
import proofs.«146572_j77713138254116_1_alg».proof.Proof.R1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output window's staging memref and in the carried scratch, as pieces (last
    first), in the case of neither conditional taken (points ≡ 1..6 mod 8), with the proof that on whole memrefs — the inputs' at their contents — the body runs to
    the continuation holding the inputs' as they were and each stored buffer with its pieces written. -/
noncomputable def kernelRun1_B (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) :
    Σ' (L5 : List (View.Piece (Elt F) S1x1x1 .f32)), { LS0 : List (View.Piece (Elt F) S1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8) K } := by
  refine ⟨[], ?_, fun xi5 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.R1

end
-- ==== Proof.R1RunC.lean ====
/- Region 1: the whole-body run of `cc1__pass2_kernel` in the case of the reset not taken, the copy taken (points ≡ 7 mod 8). -/
import proofs.«146572_j77713138254116_1_alg».proof.Proof.R1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output window's staging memref and in the carried scratch, as pieces (last
    first), in the case of the reset not taken, the copy taken (points ≡ 7 mod 8), with the proof that on whole memrefs — the inputs' at their contents — the body runs to
    the continuation holding the inputs' as they were and each stored buffer with its pieces written. -/
noncomputable def kernelRun1_C (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) :
    Σ' (L5 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8) K } := by
  refine ⟨?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.R1

end
-- ==== Proof.R1Frame.lean ====
/- Region 1 of the program: what the output window and the carried scratch hold per case and point by point, the
   proof data of the region's pipeline at the entry contents `V`, the body obligation, and the invariant's two ends. -/
import proofs.«146572_j77713138254116_1_alg».proof.Proof.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back over junk (no piece: a placeholder nothing consults, the window being idle and not written back at these points). -/
def out1_A_5 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) : Vec F S1x1x1 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the carried scratch cover it. -/
theorem scover1_A_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) (y : S1x1.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1x1.size (by sl_kernel_rfl) y

/-- What case A leaves in the carried scratch: its pieces read back over junk. -/
def sout1_A_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) : Vec F S1x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- What case B leaves in the output window's staging buffer: its pieces read back over junk (no piece: a placeholder nothing consults, the window being idle and not written back at these points). -/
def out1_B_5 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) : Vec F S1x1x1 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's pieces for the carried scratch cover it. -/
theorem scover1_B_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) (y : S1x1.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1x1.size (by sl_kernel_rfl) y

/-- What case B leaves in the carried scratch: its pieces read back over junk. -/
def sout1_B_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) : Vec F S1x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- In the case of the copy, the pieces stored into the output window tile its block, so they cover it. -/
theorem cover1_C_5 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) (y : S1x1x1.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1x1x1.size (by sl_kernel_rfl) y

/-- What case C leaves in the output window's staging buffer: its pieces read back over junk. -/
def out1_C_5 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) : Vec F S1x1x1 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's pieces for the carried scratch cover it. -/
theorem scover1_C_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) (y : S1x1.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1x1.size (by sl_kernel_rfl) y

/-- What case C leaves in the carried scratch: its pieces read back over junk. -/
def sout1_C_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) : Vec F S1x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output window and the scratch hold after each point -/

/-- THE ACCUMULATION. What the output window's staging buffer and the carried scratch hold after the body at position
    `n` (a pair: the output, then the scratch): the case the closed forms select at `n`, run at the point's memrefs and
    input blocks, the scratch at what this leaves at `n - 1`. -/
def outsAt1 (c : Dev nD) : (n : ℕ) → n < cfg1.N → Vec F S1x1x1 .f32 × Vec F S1x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the scoped rest with the
    carried scratch at what the point before left in it, and the generator register at some state. -/
def PhiS1 (c : Dev nD) : (n : ℕ) → n ≤ cfg1.N → sProp 𝕄
  | 0, _ => Pipeline.ΦA spec1 c
  | n + 1, hn => iprop(rest1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(rest1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    invariant hands the body the carried scratch at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold rest1
        iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 R6 R7 R8 R9 HS0 Hg]
        · isplitl [R0 R1 R2 R3 R4 R5 R6 R7 R8 R9 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        unfold rest1
        iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [R0 R1 R2 R3 R4 R5 R6 R7 R8 R9 HS0 Hg]
        · isplitl [R0 R1 R2 R3 R4 R5 R6 R7 R8 R9 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        unfold rest1
        iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [R0 R1 R2 R3 R4 R5 R6 R7 R8 R9 HS0 Hg]
        · isplitl [R0 R1 R2 R3 R4 R5 R6 R7 R8 R9 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        unfold rest1
        iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 R6 R7 R8 R9 HS0 Hg]
        · isplitl [R0 R1 R2 R3 R4 R5 R6 R7 R8 R9 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold rest1
  iintro ⟨⟨R0, R1, R2, R3, R4, R5, R6, R7, R8, R9, HS0⟩, Hg⟩
  isplitl [R0 R1 R2 R3 R4 R5 R6 R7 R8 R9 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.R1

end
-- ==== Proof.Halves.lean ====
/-
  The two regions' halves — each region's proof data at any entry contents, with its body obligation and the class
  invariant in and out — handed to the run of @main, and the frame of the program read off that run.
-/
import proofs.«146572_j77713138254116_1_alg».proof.Proof.Asm
import proofs.«146572_j77713138254116_1_alg».proof.Proof.R0Frame
import proofs.«146572_j77713138254116_1_alg».proof.Proof.R1Frame

noncomputable section

namespace Cert.KernelIdeal.Asm

open Cert.KernelIdeal Cert.KernelIdeal.Gen
open Idealize.ShloMosaic Idealize.ShloMosaic.TcCoe
open Idealize.SL Idealize.SL.Sem

variable {F : FTy → Type} [FloatOps F]

/-- Region 0's half at any entry contents. -/
def half0 (V : Conts F) : Half0 V where
  dat := R0.dat0 V
  hA := R0.A_eq0 V
  hq := fun _ _ => rfl
  howed := fun _ _ => rfl
  hrec := fun _ _ => rfl
  hbody := R0.body_obligation0 V
  hin := R0.hin0 V
  hout := R0.hout0 V

/-- Region 1's half at any entry contents. -/
def half1 (V : Conts F) : Half1 V where
  dat := R1.dat1 V
  hA := R1.A_eq1 V
  hq := fun _ _ => rfl
  howed := fun _ _ => rfl
  hrec := fun _ _ => rfl
  hbody := R1.body_obligation1 V
  hin := R1.hin1 V
  hout := R1.hout1 V

variable (m : (ℓ : Loc nD τ sig) → Buf (Elt F) ℓ) (ρ : Dev nD → PrngReg)

/-- What the regions leave, for the fold. -/
abbrev outsK : Gen.Outs (F := F) := outs m half0 half1

/-- Every weakly fair execution terminates with every unscoped buffer at the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Gen.V13 m (outsK m) c b) :=
  run m ρ half0 half1

/-- The program's frame: it terminates, nothing faults, the arguments end unchanged. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame m ρ half0 half1

end Cert.KernelIdeal.Asm

end
-- ==== Proof.BAsmDefs.lean ====
/-
  The run of the kernel program through its two regions, for ANY proof data of the two regions given at the buffer
  contents each region is entered from: what the unscoped buffers hold between the items of @main is a fold from the
  launch memory — a host stretch applies its operations, a region replaces its output arrays by what its write-backs
  leave (the proof data's `arrAt … N`) —, and every weakly fair execution ends with every unscoped buffer at the last
  fold's contents. The frame (the arguments end unchanged) and the result's value are both read off that post.
-/
import proofs.«146572_j77713138254116_1_alg».proof.Proof.Gen.Kernel.Launch
import proofs.«146572_j77713138254116_1_alg».proof.Proof.Gen.Kernel.Points
import proofs.«146572_j77713138254116_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- Buffer contents of the TensorCore's references on every core. -/
abbrev Conts (F : FTy → Type) [FloatOps F] : Type := (c : Dev nD) → (b : Ref sig .tc) → Buf (Elt F) ((c : Thread nD τ).loc b)

/-- Region 0's half at entry contents V: proof data whose arrays are V's, full shares, nothing owed, the body
    obligation, and the class invariant in and out. -/
structure Half0 (V : Conts F) where
  dat : (c : Dev nD) → Dat τ (Elt F) Unit ℕ (UR sig nD τ) ℕ cfg0 c
  hA : ∀ c w, (dat c).A w = V c (Pipeline.arrRef spec0 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)

/-- Region 1's half at entry contents V. -/
structure Half1 (V : Conts F) where
  dat : (c : Dev nD) → Dat τ (Elt F) Unit ℕ (UR sig nD τ) ℕ cfg1 c
  hA : ∀ c w, (dat c).A w = V c (Pipeline.arrRef spec1 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec1 c : sProp 𝕄) ⊢ (dat c).Φ 0
  hout : ∀ c, (dat c).Φ (Fin.last cfg1.N) ⊢ (Pipeline.ΦA spec1 c : sProp 𝕄)

variable (m : (ℓ : Loc nD τ sig) → Buf (Elt F) ℓ) (ρ : Dev nD → PrngReg)
variable (h0 : ∀ V : Conts F, Half0 V) (h1 : ∀ V : Conts F, Half1 V)

/-! ## The contents between the items -/

/-- Region 0 is entered from the launch memory after the first host stretch. -/
abbrev E1 : Conts F := fun c b => Gen.V1 m c b
/-- Region 0's proof data. -/
abbrev d0 (c : Dev nD) : Dat τ (Elt F) Unit ℕ (UR sig nD τ) ℕ cfg0 c := (h0 (E1 m)).dat c
/-- After region 0: its arrays at what the write-backs leave, every other buffer as entered. -/
def W2 (c : Dev nD) : Valuation τ sig (Elt F) :=
  Pipeline.withArrays spec0 c (Gen.V1 m c) fun w => (d0 m h0 c).arrAt w cfg0.N
/-- What the regions leave, as the unknowns the generated fold is written over: after region 0 read off W2,
    after region 1 off a given valuation. -/
def outsOf (W4 : Dev nD → Valuation τ sig (Elt F)) : Gen.Outs (F := F) := fun j r c =>
  match j with
  | 2 => W2 m h0 c (Proc.devRef .tc r)
  | _ => W4 c (Proc.devRef .tc r)
/-- Region 1 is entered from these contents (the second host stretch applied after region 0). -/
abbrev E3 : Conts F := fun c b => Gen.V3 m (outsOf m h0 fun c => Gen.V1 m c) c b
/-- Region 1's proof data. -/
abbrev d1 (c : Dev nD) : Dat τ (Elt F) Unit ℕ (UR sig nD τ) ℕ cfg1 c := (h1 (E3 m h0)).dat c
/-- After region 1. -/
def W4 (c : Dev nD) : Valuation τ sig (Elt F) :=
  Pipeline.withArrays spec1 c (Gen.V3 m (outsOf m h0 fun c => Gen.V1 m c) c) fun w => (d1 m h0 h1 c).arrAt w cfg1.N
/-- The regions' results, for the generated fold. -/
abbrev outs : Gen.Outs (F := F) := outsOf m h0 (W4 m h0 h1)

theorem V3_outs (c : Dev nD) : Gen.V3 m (outs m h0 h1) c = Gen.V3 m (outsOf m h0 fun c => Gen.V1 m c) c := rfl

/-! ## What a region leaves, read at its arrays and elsewhere -/

theorem W2_arr (c : Dev nD) (w : Fin cfg0.W) :
    W2 m h0 c (Proc.devRef .tc (Pipeline.arrRef spec0 w)) = (d0 m h0 c).arrAt w cfg0.N := by
  unfold W2; exact Pipeline.withArrays_arr spec0 launch0.win.arr_inj c _ _ w
theorem W4_arr (c : Dev nD) (w : Fin cfg1.W) :
    W4 m h0 h1 c (Proc.devRef .tc (Pipeline.arrRef spec1 w)) = (d1 m h0 h1 c).arrAt w cfg1.N := by
  unfold W4; exact Pipeline.withArrays_arr spec1 launch1.win.arr_inj c _ _ w

/-- After region 0 each of its arrays holds what the pipeline leaves: the inputs as entered, the two outputs the
    write-backs' fold. -/
theorem hF0 (c : Dev nD) (w : Fin cfg0.W) :
    (d0 m h0 c).arrAt w cfg0.N = (fun b : Ref sig .tc => Gen.V2 m (outs m h0 h1) c b) (Pipeline.arrRef spec0 w) := by
  match w with
  | ⟨0, _⟩ => exact ((d0 m h0 c).arrAt_in 0 rfl _).trans (((h0 (E1 m)).hA c 0).trans (Gen.V2_of m (outs m h0 h1) c main_v1 (by decide)).symm)
  | ⟨1, _⟩ => exact ((d0 m h0 c).arrAt_in 1 rfl _).trans (((h0 (E1 m)).hA c 1).trans (Gen.V2_of m (outs m h0 h1) c main_v3 (by decide)).symm)
  | ⟨2, _⟩ =>
    refine (W2_arr m h0 c 2).symm.trans ?_
    show W2 m h0 c (Proc.devRef .tc main_v4_0) = Gen.V2 m (outs m h0 h1) c main_v4_0
    unfold Gen.V2
    rw [Function.update_of_ne (StableHlo.devRef_ne_of_ne (by decide) : (Proc.devRef .tc main_v4_0 : DevRef τ sig) ≠ Proc.devRef .tc main_v4_1), Function.update_self]
    rfl
  | ⟨3, _⟩ =>
    refine (W2_arr m h0 c 3).symm.trans ?_
    show W2 m h0 c (Proc.devRef .tc main_v4_1) = Gen.V2 m (outs m h0 h1) c main_v4_1
    unfold Gen.V2
    rw [Function.update_self]
    rfl
/-- Every other buffer is as region 0 found it. -/
theorem hrest0 (c : Dev nD) : ∀ b : Ref sig .tc, b ∉ Finset.univ.image (Pipeline.arrRef spec0) →
    (fun b : Ref sig .tc => Gen.V2 m (outs m h0 h1) c b) b = E1 m c b := fun b hb =>
  Gen.V2_of m (outs m h0 h1) c b (by
    intro hmem
    simp only [List.mem_cons, List.mem_nil_iff, or_false] at hmem
    rcases hmem with rfl | rfl
    · exact hb (Finset.mem_image.mpr ⟨2, Finset.mem_univ _, rfl⟩)
    · exact hb (Finset.mem_image.mpr ⟨3, Finset.mem_univ _, rfl⟩))

/-- After region 1 each of its arrays holds what the pipeline leaves. -/
theorem hF1 (c : Dev nD) (w : Fin cfg1.W) :
    (d1 m h0 h1 c).arrAt w cfg1.N = (fun b : Ref sig .tc => Gen.V4 m (outs m h0 h1) c b) (Pipeline.arrRef spec1 w) := by
  match w with
  | ⟨0, _⟩ => exact ((d1 m h0 h1 c).arrAt_in 0 rfl _).trans (((h1 (E3 m h0)).hA c 0).trans (Gen.V4_of m (outs m h0 h1) c main_v1 (by decide)).symm)
  | ⟨1, _⟩ => exact ((d1 m h0 h1 c).arrAt_in 1 rfl _).trans (((h1 (E3 m h0)).hA c 1).trans (Gen.V4_of m (outs m h0 h1) c main_v3 (by decide)).symm)
  | ⟨2, _⟩ => exact ((d1 m h0 h1 c).arrAt_in 2 rfl _).trans (((h1 (E3 m h0)).hA c 2).trans (Gen.V4_of m (outs m h0 h1) c main_v21 (by decide)).symm)
  | ⟨3, _⟩ => exact ((d1 m h0 h1 c).arrAt_in 3 rfl _).trans (((h1 (E3 m h0)).hA c 3).trans (Gen.V4_of m (outs m h0 h1) c main_v22 (by decide)).symm)
  | ⟨4, _⟩ => exact ((d1 m h0 h1 c).arrAt_in 4 rfl _).trans (((h1 (E3 m h0)).hA c 4).trans (Gen.V4_of m (outs m h0 h1) c main_v25 (by decide)).symm)
  | ⟨5, _⟩ =>
    refine (W4_arr m h0 h1 c 5).symm.trans ?_
    show W4 m h0 h1 c (Proc.devRef .tc main_v26) = Gen.V4 m (outs m h0 h1) c main_v26
    unfold Gen.V4
    rw [Function.update_self]
    rfl
/-- Every other buffer is as region 1 found it. -/
theorem hrest1 (c : Dev nD) : ∀ b : Ref sig .tc, b ∉ Finset.univ.image (Pipeline.arrRef spec1) →
    (fun b : Ref sig .tc => Gen.V4 m (outs m h0 h1) c b) b = E3 m h0 c b := fun b hb =>
  Gen.V4_of m (outs m h0 h1) c b (by
    intro hmem
    simp only [List.mem_cons, List.mem_nil_iff, or_false] at hmem
    rcases hmem with rfl
    exact hb (Finset.mem_image.mpr ⟨5, Finset.mem_univ _, rfl⟩))

end Cert.Kernel.Asm

end
-- ==== Proof.BAsm.lean ====
/-
  The two regions of the kernel program as segments of @main over the thread state "every unscoped buffer at the
  fold's contents, the generator register at some state, nothing owed", and the launch: every weakly fair execution
  terminates with every unscoped buffer at the last fold's contents.
-/
import proofs.«146572_j77713138254116_1_alg».proof.Proof.BAsmDefs
import proofs.«146572_j77713138254116_1_alg».proof.Proof.Gen.Kernel.Launch
import proofs.«146572_j77713138254116_1_alg».proof.Proof.Gen.Kernel.Points
import proofs.«146572_j77713138254116_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (h0 : ∀ V : Conts F, Half0 V) (h1 : ∀ V : Conts F, Half1 V)

/-! ## The proof data family and what rides beside the buffers -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (cfgs p) c
  | ⟨0, _⟩ => fun c => d0 m h0 c
  | ⟨1, _⟩ => fun c => d1 m h0 h1 c
/-- No core owes another anything: no level is assigned. -/
abbrev L : GSem nD τ sig → Finset Unit := fun _ => ∅
abbrev lv : GSem nD τ sig → Unit → ℕ := fun _ _ => 0
/-- Beside the buffers, through every item: the generator register at some state, and the core owing nothing. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

/-! ## The regions as segments -/

set_option backward.isDefEq.respectTransparency.types false in
/-- Region 0 over the thread state: entered with every unscoped buffer at the first host stretch's results, left
    with its two output arrays replaced by the write-backs' fold. Its arrays are split out of the unscoped buffers
    and put back; the generator register passes through the class invariant; nothing is owed. -/
def reg0 : RegionSeg (pcfgs (F := F)) adm (pdats m h0 h1) () defs₀ Variants.none L lv 0 where
  win := launch0.win.to₀
  block_pos := launch0.block_pos
  stage_whole := launch0.stage_whole
  K := PEmpty
  osem k := k.elim
  ho := Pipeline.OwnSemFacts.none _
  hbody c := ((h0 (E1 m)).hbody c).loose
  hwaits := Pipeline.hwaits_of_owed_zero _ _ _ _ L lv 0 fun c t => (h0 (E1 m)).howed c t
  pre c := iprop(StableHlo.held (c : Thread nD τ) (Pipeline.ucRefs τ sig) (Gen.V1 m c) ∗ Rst c)
  post c := iprop(StableHlo.held (c : Thread nD τ) (Pipeline.ucRefs τ sig) (Gen.V2 m (outs m h0 h1) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m h0 h1) launch0.win launch0.arr_whole c
      ((pdats m h0 h1 0 c).share_full fun w => (h0 (E1 m)).hq c w) (E1 m c) fun w => (h0 (E1 m)).hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (((h0 (E1 m)).hrec c 0).symm ▸ Set.mem_univ x)
      rw [show (pdats m h0 h1 0 c).owed 0 = 0 from (h0 (E1 m)).howed c 0]
      iexact HO
    isplitl [Hp]; · iexact Hp
    iexact Hrest
  hin c := by
    refine .trans ?_ ((h0 (E1 m)).hin c)
    unfold Pipeline.ΦA
    iintro ⟨Hp, -, Hr⟩
    isplitl [Hr]; · iexact Hr
    iexact Hp
  hout c := by
    rw [Pipeline.ownSems0_none]
    refine ((h0 (E1 m)).hout c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m h0 h1) ((pdats m h0 h1 0 c).share_full fun w => (h0 (E1 m)).hq c w)
      (E1 m c) (fun b : Ref sig .tc => Gen.V2 m (outs m h0 h1) c b) ((pdats m h0 h1 0 c).arrAt · cfg0.N) (hF0 m h0 h1 c) (hrest0 m h0 h1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m h0 h1 0 c).owed (Fin.last _) = 0 from (h0 (E1 m)).howed c _]
    iexact HO

set_option backward.isDefEq.respectTransparency.types false in
/-- Region 1 over the thread state: entered with every unscoped buffer at the second host stretch's results, left
    with its one output array replaced by the write-backs' fold. -/
def reg1 : RegionSeg (pcfgs (F := F)) adm (pdats m h0 h1) () defs₀ Variants.none L lv 1 where
  win := launch1.win.to₀
  block_pos := launch1.block_pos
  stage_whole := launch1.stage_whole
  K := PEmpty
  osem k := k.elim
  ho := Pipeline.OwnSemFacts.none _
  hbody c := ((h1 (E3 m h0)).hbody c).loose
  hwaits := Pipeline.hwaits_of_owed_zero _ _ _ _ L lv 1 fun c t => (h1 (E3 m h0)).howed c t
  pre c := iprop(StableHlo.held (c : Thread nD τ) (Pipeline.ucRefs τ sig) (Gen.V3 m (outsOf m h0 fun c => Gen.V1 m c) c) ∗ Rst c)
  post c := iprop(StableHlo.held (c : Thread nD τ) (Pipeline.ucRefs τ sig) (Gen.V4 m (outs m h0 h1) c) ∗ Rst c)
  X c := iprop(∃ r, prngReg c r)
  Y c := iprop(∃ r, prngReg c r)
  Z c := Pipeline.unscopedRest (Ix := Unit) (Name := ℕ) (U := UR sig nD τ) (Lvl := ℕ) spec1 c (E3 m h0 c)
  hentry c := by
    rw [Pipeline.ownSems0_none]
    have hsplit := Pipeline.arrays_of_unscopedBufs (p := 1) (pcfgs (F := F)) adm (pdats m h0 h1) launch1.win launch1.arr_whole c
      ((pdats m h0 h1 1 c).share_full fun w => (h1 (E3 m h0)).hq c w) (E3 m h0 c) fun w => (h1 (E3 m h0)).hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (((h1 (E3 m h0)).hrec c 0).symm ▸ Set.mem_univ x)
      rw [show (pdats m h0 h1 1 c).owed 0 = 0 from (h1 (E3 m h0)).howed c 0]
      iexact HO
    isplitl [Hp]; · iexact Hp
    iexact Hrest
  hin c := by
    refine .trans ?_ ((h1 (E3 m h0)).hin c)
    unfold Pipeline.ΦA
    iintro ⟨Hp, -, Hr⟩
    isplitl [Hr]; · iexact Hr
    iexact Hp
  hout c := by
    rw [Pipeline.ownSems0_none]
    refine ((h1 (E3 m h0)).hout c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m h0 h1) ((pdats m h0 h1 1 c).share_full fun w => (h1 (E3 m h0)).hq c w)
      (E3 m h0 c) (fun b : Ref sig .tc => Gen.V4 m (outs m h0 h1) c b) ((pdats m h0 h1 1 c).arrAt · cfg1.N) (hF1 m h0 h1 c) (hrest1 m h0 h1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m h0 h1 1 c).owed (Fin.last _) = 0 from (h1 (E3 m h0)).howed c _]
    iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting,
    and every final memory holds every unscoped TensorCore buffer at the last fold's contents: the launch memory
    through the host stretches, with the regions' output arrays at what their write-backs leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V13 m (outs m h0 h1) c b) := by
  refine Pipeline.θ_run_regions_kit_dev (pcfgs (F := F)) adm (pdats m h0 h1) () cellOf_inj emb₁ defs₀ Variants.none L lv m ρ main
    (Gen.segs m (outs m h0 h1) Variants.none L lv Est () (pdats m h0 h1) (reg0 m h0 h1) (reg1 m h0 h1))
    (fun c Q => by
      rewrite [main_chain c, Seg.run_eq_chain,
        show (Gen.segs m (outs m h0 h1) Variants.none L lv Est () (pdats m h0 h1) (reg0 m h0 h1) (reg1 m h0 h1) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V13 m (outs m h0 h1) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V13 m (outs m h0 h1) c b)
    (hfin := fun c s' => by
      iintro ⟨Hh, HSI⟩
      unfold StableHlo.held
      imodintro
      iapply (pointsTo_read_all (Pipeline.ucRefs τ sig) (fun b => (((c : Thread nD τ)).1, b)) (Gen.V13 m (outs m h0 h1) c) s')
      isplitl [Hh] <;> iassumption)
    (hQ := fun s h c => h c)

include h0 h1 in
/-- The frame: every argument array ends as launched (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Gen.V13_main_arg0 m (outs m h0 h1) c),
     (h c _ (mem_uc main_arg1 (by decide))).trans (Gen.V13_main_arg1 m (outs m h0 h1) c),
     (h c _ (mem_uc main_arg2 (by decide))).trans (Gen.V13_main_arg2 m (outs m h0 h1) c)⟩) (run m ρ h0 h1)

end Cert.Kernel.Asm

end
-- ==== Proof.BR0Runs.lean ====
/- The first TensorCore region of the program (its first kernel call): the windows' blocks at the contents the
   region is entered with, the two conditions of the kernel body in closed form over the grid, where the output
   windows are idle, and the region invariant with the two accumulators as owned memrefs. -/
import proofs.«146572_j77713138254116_1_alg».proof.Proof.Gen.Kernel.Launch
import proofs.«146572_j77713138254116_1_alg».proof.Proof.Gen.Kernel.Skeleton
import proofs.«146572_j77713138254116_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the accumulators are zeroed), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the accumulators are copied out), from the grid coordinates. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The staging and accumulator memrefs -/

/-- One staging buffer of each output window, through which its contents are stated. -/
abbrev VO0_2 : View sig .tc .vmem S1x24x32 .f32 := (Memref.whole cc0_stg2_0 : Memref sig .tc .vmem S1x24x32 .f32).view
abbrev VO0_3 : View sig .tc .vmem S1x1x24 .f32 := (Memref.whole cc0_stg3_0 : Memref sig .tc .vmem S1x1x24 .f32).view
/-- Each window's current staging memref at point `t`, as the pipeline passes it, and its wholeness. -/
abbrev ms0_0 (t : Fin cfg0.N) : Memref sig .tc .vmem S1x18432x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x18432x24 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x24x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x24 .f32 := win0_3.stage (cfg0.slots t 3)
abbrev hs0_3 (t : Fin cfg0.N) : (ms0_3 t).IsWhole := hstage0_3 ((cfg0.slots t 3).cast nbuf0_3)
/-- The two accumulators: whole scoped buffers of the kernel's own, passed beside the windows. -/
abbrev scM0_0 : Memref sig .tc .vmem S24x32 .f32 := Memref.whole cc0_scratch0
abbrev scM0_1 : Memref sig .tc .vmem S1x24 .f32 := Memref.whole cc0_scratch1
/-- The accumulators as views: what they hold is stated through these. -/
abbrev VS0_0 : View sig .tc .vmem S24x32 .f32 := scM0_0.view
abbrev VS0_1 : View sig .tc .vmem S1x24 .f32 := scM0_1.view

/-- The core's scoped buffers that belong to the other kernel call, each whole at some contents: this region
    passes them through untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 (F := F) c) ∗ (∃ r, prngReg c r)) := by
  unfold Pipeline.ΦA Rest0; rw [scopedRest0_eq]; simp only [scM0_0, scM0_1, owns_whole]; try rfl

end Cert.Kernel.R0

end
-- ==== Proof.BR0RunA.lean ====
/- The kernel body's whole run in the case where the accumulators are zeroed and nothing is copied out (points ≡ 0 mod 8). -/
import proofs.«146572_j77713138254116_1_alg».proof.Proof.BR0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in each output's staging memref and in each accumulator (last first) in this
    case, with the proof that on whole memrefs at the stated contents the body runs to the continuation holding
    the inputs as they were and each stored buffer with its pieces written. -/
noncomputable def kernelRun0_A (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) :
    Σ' (L2 : List (View.Piece (Elt F) S1x24x32 .f32)) (L3 : List (View.Piece (Elt F) S1x1x24 .f32)) (LS0 : List (View.Piece (Elt F) S24x32 .f32)), { LS1 : List (View.Piece (Elt F) S1x24 .f32) //
      ∀ (xi2 : Vec F S1x24x32 .f32) (xi3 : Vec F S1x1x24 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨[], [], ?_, ?_, fun xi2 xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.R0

end
-- ==== Proof.BR0RunB.lean ====
/- The kernel body's whole run in the case where it only accumulates (points with remainder 1..6 mod 8). -/
import proofs.«146572_j77713138254116_1_alg».proof.Proof.BR0RunA

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in each output's staging memref and in each accumulator (last first) in this
    case, with the proof that on whole memrefs at the stated contents the body runs to the continuation holding
    the inputs as they were and each stored buffer with its pieces written. -/
noncomputable def kernelRun0_B (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) :
    Σ' (L2 : List (View.Piece (Elt F) S1x24x32 .f32)) (L3 : List (View.Piece (Elt F) S1x1x24 .f32)) (LS0 : List (View.Piece (Elt F) S24x32 .f32)), { LS1 : List (View.Piece (Elt F) S1x24 .f32) //
      ∀ (xi2 : Vec F S1x24x32 .f32) (xi3 : Vec F S1x1x24 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨[], [], ?_, ?_, fun xi2 xi3 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.R0

end
-- ==== Proof.BR0RunC.lean ====
/- The kernel body's whole run in the case where it accumulates and then copies the accumulators out (points ≡ 7 mod 8). -/
import proofs.«146572_j77713138254116_1_alg».proof.Proof.BR0RunB

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body's stores leave in each output's staging memref and in each accumulator (last first) in this
    case, with the proof that on whole memrefs at the stated contents the body runs to the continuation holding
    the inputs as they were and each stored buffer with its pieces written. -/
noncomputable def kernelRun0_C (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) :
    Σ' (L2 : List (View.Piece (Elt F) S1x24x32 .f32)) (L3 : List (View.Piece (Elt F) S1x1x24 .f32)) (LS0 : List (View.Piece (Elt F) S24x32 .f32)), { LS1 : List (View.Piece (Elt F) S1x24 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.R0

end
-- ==== Proof.BR0Frame.lean ====
/- The first TensorCore region: what each control case of the kernel body leaves in the two output windows' staging
   buffers and in the two accumulators, the same point by point over the grid, the pipeline's proof data at the
   contents the region is entered with, and the body obligation. -/
import proofs.«146572_j77713138254116_1_alg».proof.Proof.BR0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- This case stores nothing into output window 2 (idle there and not written back): no pieces, a placeholder
    nothing consults. -/
def out0_A_2 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) : Vec F S1x24x32 .f32 :=
  VO0_2.read (Elt F) (VO0_2.writes (Elt F) VO0_2.junk (kernelRun0_A c i arg2 harg2 arg3 harg3 arg4 harg4 arg5 harg5 arg6 harg6 arg7 harg7 hc0 hc1 x0 x1).1)

/-- This case stores nothing into output window 3 (idle there and not written back): no pieces, a placeholder
    nothing consults. -/
def out0_A_3 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) : Vec F S1x1x24 .f32 :=
  VO0_3.read (Elt F) (VO0_3.writes (Elt F) VO0_3.junk (kernelRun0_A c i arg2 harg2 arg3 harg3 arg4 harg4 arg5 harg5 arg6 harg6 arg7 harg7 hc0 hc1 x0 x1).2.1)

/-- The case's pieces for accumulator 0 tile it, so they cover it. -/
theorem scover0_A_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) (y : S24x32.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S24x32.size (by sl_kernel_rfl) y

/-- What the case leaves in accumulator 0: its pieces read back. -/
def sout0_A_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) : Vec F S24x32 .f32 :=
  VS0_0.read (Elt F) (VS0_0.writes (Elt F) VS0_0.junk (kernelRun0_A c i arg2 harg2 arg3 harg3 arg4 harg4 arg5 harg5 arg6 harg6 arg7 harg7 hc0 hc1 x0 x1).2.2.1)

/-- The case's pieces for accumulator 1 tile it, so they cover it. -/
theorem scover0_A_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) (y : S1x24.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S1x24.size (by sl_kernel_rfl) y

/-- What the case leaves in accumulator 1: its pieces read back. -/
def sout0_A_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) : Vec F S1x24 .f32 :=
  VS0_1.read (Elt F) (VS0_1.writes (Elt F) VS0_1.junk (kernelRun0_A c i arg2 harg2 arg3 harg3 arg4 harg4 arg5 harg5 arg6 harg6 arg7 harg7 hc0 hc1 x0 x1).2.2.2.1)

/-- This case stores nothing into output window 2 (idle there and not written back): no pieces, a placeholder
    nothing consults. -/
def out0_B_2 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) : Vec F S1x24x32 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1).1)

/-- This case stores nothing into output window 3 (idle there and not written back): no pieces, a placeholder
    nothing consults. -/
def out0_B_3 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) : Vec F S1x1x24 .f32 :=
  VO0_3.read (Elt F) (VO0_3.writes (Elt F) VO0_3.junk (kernelRun0_B c i arg2 harg2 arg3 harg3 arg4 harg4 arg5 harg5 arg6 harg6 arg7 harg7 hc0 hc1 x0 x1 xs0 xs1).2.1)

/-- The case's pieces for accumulator 0 tile it, so they cover it. -/
theorem scover0_B_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) (y : S24x32.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S24x32.size (by sl_kernel_rfl) y

/-- What the case leaves in accumulator 0: its pieces read back. -/
def sout0_B_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) : Vec F S24x32 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)

/-- The case's pieces for accumulator 1 tile it, so they cover it. -/
theorem scover0_B_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) (y : S1x24.Idx) :
    ∃ pc ∈ (kernelRun0_B c i arg2 harg2 arg3 harg3 arg4 harg4 arg5 harg5 arg6 harg6 arg7 harg7 hc0 hc1 x0 x1 xs0 xs1).2.2.2.1, y ∈ pc.1.set :=
  View.cover_of_tiledL (kernelRun0_B c i arg2 harg2 arg3 harg3 arg4 harg4 arg5 harg5 arg6 harg6 arg7 harg7 hc0 hc1 x0 x1 xs0 xs1).2.2.2.1 S1x24.size (by sl_kernel_rfl) y

/-- What the case leaves in accumulator 1: its pieces read back. -/
def sout0_B_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) : Vec F S1x24 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.2.1)

/-- In the copy-out case the body's stores into output window 2 tile its block, so they cover it. -/
theorem cover0_C_2 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) (y : S1x24x32.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x24x32.size (by sl_kernel_rfl) y

/-- What the copy-out case leaves in output window 2's staging buffer: its pieces read back. -/
def out0_C_2 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) : Vec F S1x24x32 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)

/-- In the copy-out case the body's stores into output window 3 tile its block, so they cover it. -/
theorem cover0_C_3 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) (y : S1x1x24.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x1x24.size (by sl_kernel_rfl) y

/-- What the copy-out case leaves in output window 3's staging buffer: its pieces read back. -/
def out0_C_3 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) : Vec F S1x1x24 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

/-- The case's pieces for accumulator 0 tile it, so they cover it. -/
theorem scover0_C_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) (y : S24x32.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S24x32.size (by sl_kernel_rfl) y

/-- What the case leaves in accumulator 0: its pieces read back. -/
def sout0_C_0 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) : Vec F S24x32 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)

/-- The case's pieces for accumulator 1 tile it, so they cover it. -/
theorem scover0_C_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) (y : S1x24.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1x24.size (by sl_kernel_rfl) y

/-- What the case leaves in accumulator 1: its pieces read back. -/
def sout0_C_1 (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) : Vec F S1x24 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## What the outputs and the accumulators hold after each point -/

/-- What the two output windows' staging buffers and the two accumulators hold after the body at position `n` (the
    outputs in window order, then the accumulators): the case the closed forms select at `n`, run at the point's
    memrefs and input blocks, the accumulators at what this leaves at `n - 1`. -/
def outsAt0 (c : Dev nD) : (n : ℕ) → n < cfg0.N → Vec F S1x24x32 .f32 × Vec F S1x1x24 .f32 × Vec F S24x32 .f32 × Vec F S1x24 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
          out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
          sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
          sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2,
          out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- `outsAt0` at a point where the accumulators are zeroed. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
          out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
          sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
          sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point that only accumulates: over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point that accumulates and copies out: over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
          sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the two accumulators at what the point before left in them, the other scoped buffers at anything, and
    the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ Rest0 (F := F) c) ∗ (∃ r, prngReg c r)) := by
  cases n with
  | zero => exact absurd rfl hz
  | succ n => rfl

/-! ## The pipeline's proof data -/

/-- The proof data of this pipeline on core `c`: the arrays as the region finds them; after the body at point `t`
    each input's buffer at its block and each output's at `outsAt0`'s component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in;
    the invariant hands the body the accumulators (at anything at the first point, at what the point before left
    afterwards) and takes them back at this point's contents; the outputs' buffers are handed back untouched where
    the case leaves them idle, and at the copied accumulators where it stores them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_2 out0_C_3 sout0_C_0 sout0_C_1; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]
    · iexists _; iexact HS0
    isplitl [HS1]
    · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.R0

end
-- ==== Proof.BR1Runs.lean ====
/- Region 1 of the program (custom_call 1, `cc1__pass2_kernel`), at the buffer contents `V` the region is
   entered with: the windows' blocks, the body's branch conditions in closed form over the grid, where the output
   window is idle, the staging and scratch memrefs, and the region invariant with the carried scratch named. -/
import proofs.«146572_j77713138254116_1_alg».proof.Proof.Gen.Kernel.Launch
import proofs.«146572_j77713138254116_1_alg».proof.Proof.Gen.Kernel.Skeleton
import proofs.«146572_j77713138254116_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the scratch), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the copy of the scratch into the output window). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the reset is taken and the copy is not, the output window is idle and not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- Where neither is taken, likewise. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- Where the copy is taken the output window is live. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of the output window, through which its contents are stated. -/
abbrev VO1_5 : View sig .tc .vmem S1x1x1 .f32 := (Memref.whole cc1_stg5_0 : Memref sig .tc .vmem S1x1x1 .f32).view
abbrev ms1_0 (t : Fin cfg1.N) : Memref sig .tc .vmem S1x18432x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x18432x24 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32x24 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x24 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x24 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
/-- The scratch operand: a whole scoped buffer of the kernel's own. -/
abbrev scM1_0 : Memref sig .tc .vmem S1x1 .f32 := Memref.whole cc1_scratch0
/-- The scratch the kernel carries between points, as a view. -/
abbrev VS1_0 : View sig .tc .vmem S1x1 .f32 := scM1_0.view

/-- The core's scoped buffers that are no staging buffer of this region, the other region's at some contents and this
    region's scratch as `S` says. -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ S)

/-- The region invariant of the class with the scratch operand as a memref owned at some contents. -/
theorem PhiA1_eq (c : Dev nD) :
    (Pipeline.ΦA spec1 c : sProp 𝕄)
      = iprop(rest1 c (iprop(∃ d, owns (c : Thread nD τ) scM1_0 fullShare d)) ∗ (∃ r, prngReg c r)) := by
  unfold Pipeline.ΦA rest1; rw [scopedRest1_eq]; simp only [scM1_0, owns_whole]; try rfl

end Cert.Kernel.R1

end
-- ==== Proof.BR1RunA.lean ====
/- Region 1: the whole-body run of `cc1__pass2_kernel` in the case of the reset taken, the copy not (points ≡ 0 mod 8). -/
import proofs.«146572_j77713138254116_1_alg».proof.Proof.BR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output window's staging memref and in the carried scratch, as pieces (last
    first), in the case of the reset taken, the copy not (points ≡ 0 mod 8), with the proof that on whole memrefs — the inputs' at their contents — the body runs to
    the continuation holding the inputs' as they were and each stored buffer with its pieces written. -/
noncomputable def kernelRun1_A (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) :
    Σ' (L5 : List (View.Piece (Elt F) S1x1x1 .f32)), { LS0 : List (View.Piece (Elt F) S1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8) K } := by
  refine ⟨[], ?_, fun xi5 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.R1

end
-- ==== Proof.BR1RunB.lean ====
/- Region 1: the whole-body run of `cc1__pass2_kernel` in the case of neither conditional taken (points ≡ 1..6 mod 8). -/
import proofs.«146572_j77713138254116_1_alg».proof.Proof.BR1RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output window's staging memref and in the carried scratch, as pieces (last
    first), in the case of neither conditional taken (points ≡ 1..6 mod 8), with the proof that on whole memrefs — the inputs' at their contents — the body runs to
    the continuation holding the inputs' as they were and each stored buffer with its pieces written. -/
noncomputable def kernelRun1_B (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) :
    Σ' (L5 : List (View.Piece (Elt F) S1x1x1 .f32)), { LS0 : List (View.Piece (Elt F) S1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8) K } := by
  refine ⟨[], ?_, fun xi5 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.R1

end
-- ==== Proof.BR1RunC.lean ====
/- Region 1: the whole-body run of `cc1__pass2_kernel` in the case of the reset not taken, the copy taken (points ≡ 7 mod 8). -/
import proofs.«146572_j77713138254116_1_alg».proof.Proof.BR1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output window's staging memref and in the carried scratch, as pieces (last
    first), in the case of the reset not taken, the copy taken (points ≡ 7 mod 8), with the proof that on whole memrefs — the inputs' at their contents — the body runs to
    the continuation holding the inputs' as they were and each stored buffer with its pieces written. -/
noncomputable def kernelRun1_C (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) :
    Σ' (L5 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__pass2_kernel i arg2 harg2 arg3 harg3 arg4 harg4 arg5 harg5 arg6 harg6 arg7 harg7 arg8 harg8) K } := by
  refine ⟨?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.R1

end
-- ==== Proof.BR1Frame.lean ====
/- Region 1 of the program: what the output window and the carried scratch hold per case and point by point, the
   proof data of the region's pipeline at the entry contents `V`, the body obligation, and the invariant's two ends. -/
import proofs.«146572_j77713138254116_1_alg».proof.Proof.BR1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back over junk (no piece: a placeholder nothing consults, the window being idle and not written back at these points). -/
def out1_A_5 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) : Vec F S1x1x1 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the carried scratch cover it. -/
theorem scover1_A_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) (y : S1x1.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1x1.size (by sl_kernel_rfl) y

/-- What case A leaves in the carried scratch: its pieces read back over junk. -/
def sout1_A_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) : Vec F S1x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- What case B leaves in the output window's staging buffer: its pieces read back over junk (no piece: a placeholder nothing consults, the window being idle and not written back at these points). -/
def out1_B_5 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) : Vec F S1x1x1 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's pieces for the carried scratch cover it. -/
theorem scover1_B_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) (y : S1x1.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1x1.size (by sl_kernel_rfl) y

/-- What case B leaves in the carried scratch: its pieces read back over junk. -/
def sout1_B_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) : Vec F S1x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- In the case of the copy, the pieces stored into the output window tile its block, so they cover it. -/
theorem cover1_C_5 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) (y : S1x1x1.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1x1x1.size (by sl_kernel_rfl) y

/-- What case C leaves in the output window's staging buffer: its pieces read back over junk. -/
def out1_C_5 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) : Vec F S1x1x1 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's pieces for the carried scratch cover it. -/
theorem scover1_C_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) (y : S1x1.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1x1.size (by sl_kernel_rfl) y

/-- What case C leaves in the carried scratch: its pieces read back over junk. -/
def sout1_C_0 (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) : Vec F S1x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output window and the scratch hold after each point -/

/-- THE ACCUMULATION. What the output window's staging buffer and the carried scratch hold after the body at position
    `n` (a pair: the output, then the scratch): the case the closed forms select at `n`, run at the point's memrefs and
    input blocks, the scratch at what this leaves at `n - 1`. -/
def outsAt1 (c : Dev nD) : (n : ℕ) → n < cfg1.N → Vec F S1x1x1 .f32 × Vec F S1x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the scoped rest with the
    carried scratch at what the point before left in it, and the generator register at some state. -/
def PhiS1 (c : Dev nD) : (n : ℕ) → n ≤ cfg1.N → sProp 𝕄
  | 0, _ => Pipeline.ΦA spec1 c
  | n + 1, hn => iprop(rest1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(rest1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    invariant hands the body the carried scratch at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold rest1
        iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 R6 R7 R8 R9 HS0 Hg]
        · isplitl [R0 R1 R2 R3 R4 R5 R6 R7 R8 R9 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        unfold rest1
        iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [R0 R1 R2 R3 R4 R5 R6 R7 R8 R9 HS0 Hg]
        · isplitl [R0 R1 R2 R3 R4 R5 R6 R7 R8 R9 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        unfold rest1
        iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [R0 R1 R2 R3 R4 R5 R6 R7 R8 R9 HS0 Hg]
        · isplitl [R0 R1 R2 R3 R4 R5 R6 R7 R8 R9 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        unfold rest1
        iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 R6 R7 R8 R9 HS0 Hg]
        · isplitl [R0 R1 R2 R3 R4 R5 R6 R7 R8 R9 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold rest1
  iintro ⟨⟨R0, R1, R2, R3, R4, R5, R6, R7, R8, R9, HS0⟩, Hg⟩
  isplitl [R0 R1 R2 R3 R4 R5 R6 R7 R8 R9 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.R1

end
-- ==== Proof.BHalves.lean ====
/-
  The two regions' halves — each region's proof data at any entry contents, with its body obligation and the class
  invariant in and out — handed to the run of @main, and the frame of the program read off that run.
-/
import proofs.«146572_j77713138254116_1_alg».proof.Proof.BAsm
import proofs.«146572_j77713138254116_1_alg».proof.Proof.BR0Frame
import proofs.«146572_j77713138254116_1_alg».proof.Proof.BR1Frame

noncomputable section

namespace Cert.Kernel.Asm

open Cert.Kernel Cert.Kernel.Gen
open Idealize.ShloMosaic Idealize.ShloMosaic.TcCoe
open Idealize.SL Idealize.SL.Sem

variable {F : FTy → Type} [FloatOps F]

/-- Region 0's half at any entry contents. -/
def half0 (V : Conts F) : Half0 V where
  dat := R0.dat0 V
  hA := R0.A_eq0 V
  hq := fun _ _ => rfl
  howed := fun _ _ => rfl
  hrec := fun _ _ => rfl
  hbody := R0.body_obligation0 V
  hin := R0.hin0 V
  hout := R0.hout0 V

/-- Region 1's half at any entry contents. -/
def half1 (V : Conts F) : Half1 V where
  dat := R1.dat1 V
  hA := R1.A_eq1 V
  hq := fun _ _ => rfl
  howed := fun _ _ => rfl
  hrec := fun _ _ => rfl
  hbody := R1.body_obligation1 V
  hin := R1.hin1 V
  hout := R1.hout1 V

variable (m : (ℓ : Loc nD τ sig) → Buf (Elt F) ℓ) (ρ : Dev nD → PrngReg)

/-- What the regions leave, for the fold. -/
abbrev outsK : Gen.Outs (F := F) := outs m half0 half1

/-- Every weakly fair execution terminates with every unscoped buffer at the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Gen.V13 m (outsK m) c b) :=
  run m ρ half0 half1

/-- The program's frame: it terminates, nothing faults, the arguments end unchanged. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame m ρ half0 half1

end Cert.Kernel.Asm

end
-- ==== Proof.BridgeHost.lean ====
/-
  The host operations of the kernel program around its two regions, read as the reference's stages: the re-laid
  arguments, and — given what region 0 leaves — the cluster means, their squared norms and the validity mask.
-/
import proofs.«146572_j77713138254116_1_alg».proof.Proof.Gen.KernelIdeal.Regions
import proofs.«146572_j77713138254116_1_alg».proof.Proof.Gen.ReferenceIdeal.Read
import Idealize.ShloMosaic.Lib.StableHlo.Run

noncomputable section

namespace Cert.Bridge

open Cert.KernelIdeal Cert.KernelIdeal.Gen
open Cert.ReferenceIdeal.Read
open Idealize.ShloMosaic Idealize.ShloMosaic.TcCoe Idealize.SL.Sem Idealize.ShloMosaic.StableHlo

variable (m : (ℓ : Loc nD τ sig) → Buf (Elt Ideal) ℓ) (outs : Gen.Outs (F := Ideal)) (c : Dev nD)

/-- The three arguments as core c holds them at launch. -/
abbrev a0 : FVec Ideal S8x32x384x384 .f32 := m ((c.tc : Thread nD τ).loc main_arg0)
abbrev a1 : FVec Ideal S8x24x384x384 .f32 := m ((c.tc : Thread nD τ).loc main_arg1)
abbrev a2 : IVec S8 32 := m ((c.tc : Thread nD τ).loc main_arg2)

/-- The first host stretch lays the prediction out as [batch, row, channel]: the reference's own first two operations. -/
theorem host0_v1 : Gen.V1 m c (Proc.devRef .tc main_v1) = val_main_v1 (F := Ideal) (a0 m c) := by
  show StableHlo.after hostOps0 _ (Proc.devRef .tc main_v1) = _
  after_results; rfl
/-- And the target likewise. -/
theorem host0_v3 : Gen.V1 m c (Proc.devRef .tc main_v3) = val_main_v3 (F := Ideal) (a1 m c) := by
  show StableHlo.after hostOps0 _ (Proc.devRef .tc main_v3) = _
  after_results; rfl

/-- After region 0 its two output arrays hold what the region left; the integer argument is untouched. -/
theorem V2_v4_0 : Gen.V2 m outs c (Proc.devRef .tc main_v4_0) = outs 2 main_v4_0 c := by
  unfold Gen.V2
  rw [Function.update_of_ne (StableHlo.devRef_ne_of_ne (by decide) : (Proc.devRef .tc main_v4_0 : DevRef τ sig) ≠ Proc.devRef .tc main_v4_1), Function.update_self]
theorem V2_v4_1 : Gen.V2 m outs c (Proc.devRef .tc main_v4_1) = outs 2 main_v4_1 c := by
  unfold Gen.V2
  rw [Function.update_self]
theorem V2_arg2 : Gen.V2 m outs c (Proc.devRef .tc main_arg2) = a2 m c :=
  (Gen.V2_of m outs c main_arg2 (by decide)).trans ((Gen.V1_of m c main_arg2 (by decide)).trans rfl)

/-! ## The second host stretch, given what region 0 left

  Region 0's two arrays enter as hypotheses: the cluster sums are the reference's contraction over all rows, the
  counts (re-laid from [8,1,24] to [8,24]) the reference's column sums. Every operation of the stretch is then the
  reference's own, so each buffer is the reference's stage by unfolding. -/

section Stretch1

variable (h40 : outs 2 main_v4_0 c = val_main_v13 (F := Ideal) (a0 m c) (a1 m c))
variable (h41 : (fun i => shapeCast main_v5.ty.shape (outs 2 main_v4_1 c) shapeCasts_S8x1x24_S8x24 i) = val_main_v12 (F := Ideal) (a1 m c))

include h40 h41 in
/-- The masked cluster means. -/
theorem host1_v20 : Gen.V3 m outs c (Proc.devRef .tc main_v20) = val_main_v21 (F := Ideal) (a0 m c) (a1 m c) (a2 m c) := by
  show StableHlo.after hostOps1 (Gen.V2 m outs c) (Proc.devRef .tc main_v20) = _
  after_results_simp
  rw [V2_v4_0, V2_v4_1, V2_arg2, h41, h40]
  rfl

include h40 h41 in
/-- Their squared norms. -/
theorem host1_v24 : Gen.V3 m outs c (Proc.devRef .tc main_v24) = val_main_v25 (F := Ideal) (a0 m c) (a1 m c) (a2 m c) := by
  show StableHlo.after hostOps1 (Gen.V2 m outs c) (Proc.devRef .tc main_v24) = _
  after_results_simp
  rw [V2_v4_0, V2_v4_1, V2_arg2, h41, h40]
  rfl

/-- The validity mask: column k of batch b is valid when k < n_objects b. -/
theorem host1_v12 : Gen.V3 m outs c (Proc.devRef .tc main_v12) = val_main_v10 (F := Ideal) (a2 m c) := by
  show StableHlo.after hostOps1 (Gen.V2 m outs c) (Proc.devRef .tc main_v12) = _
  after_results_simp
  rw [V2_arg2]
  rfl

include h41 in
/-- The counts as [8, 24]. -/
theorem host1_v5 : Gen.V3 m outs c (Proc.devRef .tc main_v5) = val_main_v12 (F := Ideal) (a1 m c) := by
  show StableHlo.after hostOps1 (Gen.V2 m outs c) (Proc.devRef .tc main_v5) = _
  after_results_simp
  rw [V2_v4_1, h41]

include h40 h41 in
/-- Region 1's third operand: the means with their last two axes exchanged. -/
theorem host1_v21 : Gen.V3 m outs c (Proc.devRef .tc main_v21)
    = transpose S8x32x24 [0, 2, 1] (val_main_v21 (F := Ideal) (a0 m c) (a1 m c) (a2 m c)) transposes_S8x24x32_S8x32x24_0_2_1 := by
  show StableHlo.after hostOps1 (Gen.V2 m outs c) (Proc.devRef .tc main_v21) = _
  after_results_simp
  rw [V2_v4_0, V2_v4_1, V2_arg2, h41, h40]
  rfl

/-- Its fourth: the mask as [8, 1, 24] — the reference's own broadcast of it. -/
theorem host1_v22 : Gen.V3 m outs c (Proc.devRef .tc main_v22) = val_main_v42 (F := Ideal) (a2 m c) := by
  show StableHlo.after hostOps1 (Gen.V2 m outs c) (Proc.devRef .tc main_v22) = _
  after_results_simp
  rw [V2_arg2]
  rfl

include h40 h41 in
/-- Its fifth: the squared norms as [8, 1, 24] — the reference's own broadcast of them. -/
theorem host1_v25 : Gen.V3 m outs c (Proc.devRef .tc main_v25) = val_main_v32 (F := Ideal) (a0 m c) (a1 m c) (a2 m c) := by
  show StableHlo.after hostOps1 (Gen.V2 m outs c) (Proc.devRef .tc main_v25) = _
  after_results_simp
  rw [V2_v4_0, V2_v4_1, V2_arg2, h41, h40]
  rfl

/-- The re-laid arguments reach region 1 as the first stretch left them. -/
theorem host1_v1 : Gen.V3 m outs c (Proc.devRef .tc main_v1) = val_main_v1 (F := Ideal) (a0 m c) :=
  (Gen.V3_of m outs c main_v1 (by decide)).trans ((Gen.V2_of m outs c main_v1 (by decide)).trans (host0_v1 m c))
theorem host1_v3 : Gen.V3 m outs c (Proc.devRef .tc main_v3) = val_main_v3 (F := Ideal) (a1 m c) :=
  (Gen.V3_of m outs c main_v3 (by decide)).trans ((Gen.V2_of m outs c main_v3 (by decide)).trans (host0_v3 m c))
theorem host1_arg2 : Gen.V3 m outs c (Proc.devRef .tc main_arg2) = a2 m c :=
  (Gen.V3_of m outs c main_arg2 (by decide)).trans (V2_arg2 m outs c)

end Stretch1

end Cert.Bridge

end
-- ==== Proof.BridgeTail.lean ====
/-
  The host operations after the second region, read against the reference's last stages: given the variance
  numerator, its denominator, the means, their squared norms and the mask as the reference's stages, the scalar result
  is the reference's, every remaining operation being literally the same on both sides.
-/
import proofs.«146572_j77713138254116_1_alg».proof.Proof.Gen.KernelIdeal.Regions
import proofs.«146572_j77713138254116_1_alg».proof.Proof.Gen.ReferenceIdeal.Read
import Idealize.ShloMosaic.Lib.StableHlo.Run

noncomputable section

namespace Cert.Bridge

open Cert.KernelIdeal Cert.KernelIdeal.Gen
open Cert.ReferenceIdeal.Read
open Idealize.ShloMosaic Idealize.ShloMosaic.TcCoe Idealize.SL.Sem Idealize.ShloMosaic.StableHlo

variable (m : (ℓ : Loc nD τ sig) → Buf (Elt Ideal) ℓ) (outs : Gen.Outs (F := Ideal)) (c : Dev nD)
variable (x0 : FVec Ideal S8x32x384x384 .f32) (x1 : FVec Ideal S8x24x384x384 .f32) (x2 : IVec S8 32)

set_option maxHeartbeats 8000000 in
/-- The program's scalar result from the buffers the last region leaves. -/
theorem tail_eq
    (h26 : (fun i => shapeCast main_v27.ty.shape (Gen.V4 m outs c (Proc.devRef .tc main_v26)) shapeCasts_S8x1x1_S8 i) = val_main_v51 (F := Ideal) x0 x1 x2)
    (h30 : (Host.reduceAdd (F := Ideal) (mulf (Gen.V4 m outs c (Proc.devRef .tc main_v5)) (Gen.V4 m outs c (Proc.devRef .tc main_v12))) (constant (F := Ideal) S_ .f32 0#32) reducesTo_S8x24_S8_d1 h_S_ : FVec Ideal S8 .f32)
      = (val_main_v52 (F := Ideal) x1 x2 : FVec Ideal S8 .f32))
    (h20 : Gen.V4 m outs c (Proc.devRef .tc main_v20) = val_main_v21 (F := Ideal) x0 x1 x2)
    (h24 : Gen.V4 m outs c (Proc.devRef .tc main_v24) = val_main_v25 (F := Ideal) x0 x1 x2)
    (h12 : Gen.V4 m outs c (Proc.devRef .tc main_v12) = val_main_v10 (F := Ideal) x2)
    (harg2 : Gen.V4 m outs c (Proc.devRef .tc main_arg2) = x2) :
    Gen.V13 m outs c (Proc.devRef .tc main_v98) = val_main_v120 (F := Ideal) x0 x1 x2 := by
  show StableHlo.after hostOps2_8 _ (Proc.devRef .tc main_v98) = _
  after_results_simp
  rw [h26, h30, h20, h24, h12, harg2]
  rfl

end Cert.Bridge

end
-- ==== Proof.RefRead.lean ====
/-
  The reference's variance term read index by index. Its numerator at batch b is the sum over all rows l and columns k
  of one pointwise term of the row's squared norm, the row's product with mean k, that mean's squared norm, the
  target entry and the mask; its denominator the sum over rows and columns of target times mask.
-/
import proofs.«146572_j77713138254116_1_alg».proof.Proof.Gen.ReferenceIdeal.Read
import Idealize.ShloMosaic.Lib.ValueIdx
import Idealize.ShloMosaic.PureOps.Ideal.Laws

noncomputable section

namespace Cert.RefRead

open Cert.ReferenceIdeal Cert.ReferenceIdeal.Gen Cert.ReferenceIdeal.Read
open Idealize.ShloMosaic Idealize.ShloMosaic.ValueIdx

/-- One entry's share of the variance numerator: with d2 = max(p2 − 2·pm + m2, 0) the clamped squared distance of a
    row to a mean, dist its guarded square root (0 unless d2 exceeds the threshold), the hinge max(dist − 1/2, 0)
    squared, times the masked target entry g·v. -/
def varT (p2 pm m2 g v : Ideal .f32) : Ideal .f32 :=
  let d2 := max ((p2 - Scalar.ofBits (F := Ideal) .f32 0x40000000#32 * pm) + m2) (Scalar.ofBits (F := Ideal) .f32 0x00000000#32)
  let pos := FloatOps.cmpf .ogt d2 (Scalar.ofBits (F := Ideal) .f32 0x2B8CBCCC#32)
  let dist := Scalar.select pos (FloatOps.sqrt (Scalar.select pos d2 (Scalar.ofBits (F := Ideal) .f32 0x3F800000#32))) (Scalar.ofBits (F := Ideal) .f32 0x00000000#32)
  let h := max (dist - Scalar.ofBits (F := Ideal) .f32 0x3F000000#32) (Scalar.ofBits (F := Ideal) .f32 0x00000000#32)
  (h * h) * (g * v)

/-- Over a rank-3 index set, the indices whose first coordinate is b are the pairs of the other two coordinates. -/
theorem sum_first_eq {n0 n1 n2 : Nat} (x : (⟨3, ![n0, n1, n2]⟩ : Shape).Idx → EReal) (b : Fin n0)
    [DecidablePred fun i : (⟨3, ![n0, n1, n2]⟩ : Shape).Idx => i 0 = b] :
    ∑ i ∈ Finset.univ.filter (fun i : (⟨3, ![n0, n1, n2]⟩ : Shape).Idx => i 0 = b), x i = ∑ l : Fin n1, ∑ k : Fin n2, x (ix3 b l k) := by
  rw [← Finset.sum_product' (s := Finset.univ) (t := Finset.univ) (f := fun (l : Fin n1) (k : Fin n2) => x (ix3 b l k))]
  have hback : ∀ a ∈ Finset.univ.filter (fun i : (⟨3, ![n0, n1, n2]⟩ : Shape).Idx => i 0 = b), ix3 b (a 1) (a 2) = a := by
    intro a ha
    have hd : a 0 = b := (Finset.mem_filter.mp ha).2
    funext d
    match d with
    | ⟨0, _⟩ => exact hd.symm
    | ⟨1, _⟩ => rfl
    | ⟨2, _⟩ => rfl
  refine Finset.sum_nbij' (fun i => (i 1, i 2)) (fun p => ix3 b p.1 p.2) ?_ ?_ ?_ ?_ ?_
  · intro a _; exact Finset.mem_product.mpr ⟨Finset.mem_univ _, Finset.mem_univ _⟩
  · intro p _; exact Finset.mem_filter.mpr ⟨Finset.mem_univ _, rfl⟩
  · exact hback
  · intro p _; rfl
  · intro a ha; exact congrArg x (hback a ha).symm

/-- A sum over the row and column axes of an [8, 147456, 24] array into [8]: at batch j, the initial value plus the
    double sum over rows and columns. -/
theorem hostReduceAdd_rows_cols (x : S8x147456x24.Idx → EReal) (init : EReal) (j : S8.Idx) :
    Ideal.hostReduceAdd reducesTo_S8x147456x24_S8_d1_2 x init j = init + ∑ l : Fin 147456, ∑ k : Fin 24, x (ix3 (j 0) l k) := by
  unfold Ideal.hostReduceAdd
  refine congrArg (init + ·) ?_
  classical
  have hdrop : ∀ a : S8x147456x24.Idx, ((reducesTo_S8x147456x24_S8_d1_2).drop a 0 : Nat) = a 0 :=
    fun a => Shape.ReducesTo.drop_apply_val_of_eq reducesTo_S8x147456x24_S8_d1_2 a 0 0
  rw [Finset.filter_congr (q := fun i : S8x147456x24.Idx => i 0 = j 0) (fun a _ => ⟨fun h => Fin.ext (by rw [← h]; exact (hdrop a).symm),
    fun h => funext fun b => Fin.ext (by match b with | ⟨0, _⟩ => exact (hdrop a).trans (congrArg Fin.val h))⟩)]
  exact sum_first_eq x (j 0)

/-- The reference's product of hinge and masked target at row l and column k of batch b. -/
theorem v50_at (x0 : FVec Ideal S8x32x384x384 .f32) (x1 : FVec Ideal S8x24x384x384 .f32) (x2 : IVec S8 32)
    (b : Fin 8) (l : Fin 147456) (k : Fin 24) :
    val_main_v50 (F := Ideal) x0 x1 x2 (ix3 b l k)
      = varT (∑ d : Fin 32, val_main_v1 (F := Ideal) x0 (ix3 b l d) * val_main_v1 (F := Ideal) x0 (ix3 b l d))
          (∑ d : Fin 32, val_main_v1 (F := Ideal) x0 (ix3 b l d) * val_main_v21 (F := Ideal) x0 x1 x2 (ix3 b k d))
          (val_main_v25 (F := Ideal) x0 x1 x2 (ix2 b k)) (val_main_v3 (F := Ideal) x1 (ix3 b l k)) (val_main_v10 (F := Ideal) x2 (ix2 b k)) := by
  have e23 : idx_main_v23 (idx_main_v27 (idx_main_v30 (ix3 b l k))) = fun d => ix3 b l d :=
    funext fun d => funext fun a => Fin.ext (by match a with | ⟨0, _⟩ => rfl | ⟨1, _⟩ => rfl | ⟨2, _⟩ => rfl)
  have el : lidx_main_v26 (ix3 b l k) = fun d => ix3 b l d :=
    funext fun d => funext fun a => Fin.ext (by match a with | ⟨0, _⟩ => rfl | ⟨1, _⟩ => rfl | ⟨2, _⟩ => rfl)
  have er : ridx_main_v26 (ix3 b l k) = fun d => ix3 b k d :=
    funext fun d => funext fun a => Fin.ext (by match a with | ⟨0, _⟩ => rfl | ⟨1, _⟩ => rfl | ⟨2, _⟩ => rfl)
  have e32 : idx_main_v32 (idx_main_v33 (ix3 b l k)) = ix2 b k :=
    funext fun a => Fin.ext (by match a with | ⟨0, _⟩ => rfl | ⟨1, _⟩ => rfl)
  have e42 : idx_main_v42 (idx_main_v43 (ix3 b l k)) = ix2 b k :=
    funext fun a => Fin.ext (by match a with | ⟨0, _⟩ => rfl | ⟨1, _⟩ => rfl)
  have hp2 : val_main_v30 (F := Ideal) x0 (ix3 b l k) = ∑ d : Fin 32, val_main_v1 (F := Ideal) x0 (ix3 b l d) * val_main_v1 (F := Ideal) x0 (ix3 b l d) := by
    rw [val_main_v30_apply, val_main_v27_apply, val_main_v23_apply, e23]
    rw [show (val_main_cst_1 (F := Ideal)) (Shape.Idx.first h_S_) = 0 from Ideal.ofBits_zero_f32, zero_add]
    rfl
  have hpm : val_main_v26 (F := Ideal) x0 x1 x2 (ix3 b l k) = ∑ d : Fin 32, val_main_v1 (F := Ideal) x0 (ix3 b l d) * val_main_v21 (F := Ideal) x0 x1 x2 (ix3 b k d) := by
    rw [val_main_v26_apply, el, er]
  have hm2 : val_main_v33 (F := Ideal) x0 x1 x2 (ix3 b l k) = val_main_v25 (F := Ideal) x0 x1 x2 (ix2 b k) := by
    rw [val_main_v33_apply, val_main_v32_apply, e32]
  have hv : val_main_v43 (F := Ideal) x2 (ix3 b l k) = val_main_v10 (F := Ideal) x2 (ix2 b k) := by
    rw [val_main_v43_apply, val_main_v42_apply, e42]
  rw [← hp2, ← hpm, ← hm2, ← hv]
  rfl

/-- The reference's variance numerator at batch i. -/
theorem ref_v51 (x0 : FVec Ideal S8x32x384x384 .f32) (x1 : FVec Ideal S8x24x384x384 .f32) (x2 : IVec S8 32) (i : S8.Idx) :
    val_main_v51 (F := Ideal) x0 x1 x2 i = ∑ l : Fin 147456, ∑ k : Fin 24,
      varT (∑ d : Fin 32, val_main_v1 (F := Ideal) x0 (ix3 (i 0) l d) * val_main_v1 (F := Ideal) x0 (ix3 (i 0) l d))
          (∑ d : Fin 32, val_main_v1 (F := Ideal) x0 (ix3 (i 0) l d) * val_main_v21 (F := Ideal) x0 x1 x2 (ix3 (i 0) k d))
          (val_main_v25 (F := Ideal) x0 x1 x2 (ix2 (i 0) k)) (val_main_v3 (F := Ideal) x1 (ix3 (i 0) l k)) (val_main_v10 (F := Ideal) x2 (ix2 (i 0) k)) := by
  unfold val_main_v51
  simp only [Host.reduceAdd, Ideal.hostReduceAdd_def]
  rw [hostReduceAdd_rows_cols]
  rw [show (val_main_cst_10 (F := Ideal)) (Shape.Idx.first h_S_) = 0 from Ideal.ofBits_zero_f32, zero_add]
  exact Finset.sum_congr rfl fun l _ => Finset.sum_congr rfl fun k _ => v50_at x0 x1 x2 (i 0) l k

/-- The reference's variance denominator at batch i: the masked target summed over rows and columns. -/
theorem ref_v52 (x1 : FVec Ideal S8x24x384x384 .f32) (x2 : IVec S8 32) (i : S8.Idx) :
    val_main_v52 (F := Ideal) x1 x2 i = ∑ l : Fin 147456, ∑ k : Fin 24,
      val_main_v3 (F := Ideal) x1 (ix3 (i 0) l k) * val_main_v10 (F := Ideal) x2 (ix2 (i 0) k) := by
  unfold val_main_v52
  simp only [Host.reduceAdd, Ideal.hostReduceAdd_def]
  rw [hostReduceAdd_rows_cols]
  rw [show (val_main_cst_11 (F := Ideal)) (Shape.Idx.first h_S_) = 0 from Ideal.ofBits_zero_f32, zero_add]
  refine Finset.sum_congr rfl fun l _ => Finset.sum_congr rfl fun k _ => ?_
  have e42 : idx_main_v42 (idx_main_v43 (ix3 (i 0) l k)) = ix2 (i 0) k :=
    funext fun a => Fin.ext (by match a with | ⟨0, _⟩ => rfl | ⟨1, _⟩ => rfl)
  rw [val_main_v44_apply, val_main_v43_apply, val_main_v42_apply, e42]
  rfl

end Cert.RefRead

end
-- ==== Proof.BridgeDen.lean ====
/-
  The variance term's denominator: the kernel program multiplies the column counts by the mask and sums over the 24
  columns; the reference sums target times mask over rows and columns. They agree because the mask is 0 or 1, and a
  factor 0 or 1 passes through a sum of extended reals.
-/
import proofs.«146572_j77713138254116_1_alg».proof.Proof.Gen.KernelIdeal.Regions
import proofs.«146572_j77713138254116_1_alg».proof.Proof.RefRead
import Idealize.ShloMosaic.Lib.ValueIdx
import Idealize.ShloMosaic.PureOps.Ideal.Laws

noncomputable section

namespace Cert.Bridge

open Cert.KernelIdeal Cert.KernelIdeal.Gen
open Cert.ReferenceIdeal.Read
open Idealize.ShloMosaic Idealize.ShloMosaic.ValueIdx

/-- The validity mask holds only zeros and ones. -/
theorem mask01 (x2 : IVec S8 32) (j : S8x24.Idx) :
    val_main_v10 (F := Ideal) x2 j = 0 ∨ val_main_v10 (F := Ideal) x2 j = 1 := by
  rw [val_main_v10_apply]
  generalize val_main_v9 (F := Ideal) x2 j = w
  show (((BitVec.toNat w : ℕ) : ℝ) : EReal) = 0 ∨ (((BitVec.toNat w : ℕ) : ℝ) : EReal) = 1
  have h2 : BitVec.toNat w < 2 := BitVec.isLt w
  have : BitVec.toNat w = 0 ∨ BitVec.toNat w = 1 := by omega
  rcases this with h | h <;> simp [h]

/-- A factor 0 or 1 passes through a finite sum of extended reals. -/
theorem sum_mul_mask {ι : Type} (s : Finset ι) (f : ι → EReal) (v : EReal) (hv : v = 0 ∨ v = 1) :
    (∑ l ∈ s, f l) * v = ∑ l ∈ s, f l * v := by
  rcases hv with rfl | rfl <;> simp

/-- Column k's count times its mask entry is the masked target summed over the rows. -/
theorem counts_times_mask (x1 : FVec Ideal S8x24x384x384 .f32) (x2 : IVec S8 32) (b : Fin 8) (k : Fin 24) :
    val_main_v12 (F := Ideal) x1 (ix2 b k) * val_main_v10 (F := Ideal) x2 (ix2 b k)
      = ∑ l : Fin 147456, val_main_v3 (F := Ideal) x1 (ix3 b l k) * val_main_v10 (F := Ideal) x2 (ix2 b k) := by
  rw [val_main_v12_apply]
  rw [show (val_main_cst (F := Ideal)) (Shape.Idx.first Cert.ReferenceIdeal.Gen.h_S_) = 0 from Ideal.ofBits_zero_f32, zero_add]
  rw [sum_mul_mask _ _ _ (mask01 x2 _)]
  refine Finset.sum_congr rfl fun l _ => ?_
  exact congrArg (fun j => val_main_v3 (F := Ideal) x1 j * val_main_v10 (F := Ideal) x2 (ix2 b k))
    (funext fun a => Fin.ext (by match a with | ⟨0, _⟩ => rfl | ⟨1, _⟩ => rfl | ⟨2, _⟩ => rfl))

/-- The kernel program's denominator is the reference's. -/
theorem denom_eq (x1 : FVec Ideal S8x24x384x384 .f32) (x2 : IVec S8 32) :
    (Host.reduceAdd (F := Ideal) (mulf (val_main_v12 (F := Ideal) x1) (val_main_v10 (F := Ideal) x2)) (constant (F := Ideal) S_ .f32 0#32) reducesTo_S8x24_S8_d1 h_S_ : FVec Ideal S8 .f32)
      = (val_main_v52 (F := Ideal) x1 x2 : FVec Ideal S8 .f32) := by
  funext i
  have hR : S8x24.Reduces [1] S8 := by decide
  simp only [Host.reduceAdd, Ideal.hostReduceAdd_def]
  rw [Ideal.hostReduceAdd_single reducesTo_S8x24_S8_d1 hR]
  rw [show constant (F := Ideal) S_ .f32 (0#32) (Shape.Idx.first h_S_) = 0 from Ideal.ofBits_zero_f32, zero_add]
  rw [Cert.RefRead.ref_v52 x1 x2 i, Finset.sum_comm]
  refine Finset.sum_congr rfl fun k _ => ?_
  have hl : hR.lift i k = ix2 (i 0) k := funext fun a => Fin.ext (by match a with | ⟨0, _⟩ => rfl | ⟨1, _⟩ => rfl)
  show val_main_v12 (F := Ideal) x1 (hR.lift i k) * val_main_v10 (F := Ideal) x2 (hR.lift i k) = _
  rw [hl]
  exact counts_times_mask x1 x2 (i 0) k

end Cert.Bridge

end
-- ==== Proof.R0Pieces.lean ====
/- The first TensorCore region: what each control case of the kernel body leaves in the accumulators and in the output
   windows, read back as the kernel's own arithmetic on the input blocks and on the accumulators' previous contents. -/
import proofs.«146572_j77713138254116_1_alg».proof.Proof.R0Frame
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Accumulating case: the first accumulator ends at its previous contents plus the blocks' product. -/
theorem sout0_B_0_eq (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) :
    sout0_B_0 c i arg2 harg2 arg3 harg3 arg4 harg4 arg5 harg5 arg6 harg6 arg7 harg7 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  try sl_unfold_words
  rw [View.canon_unit_zero (S := S24x32) hz2]
  simp only [View.readAt_eq_ld, harg2.read_unread, harg3.read_unread, harg6.read_unread, harg7.read_unread, View.ld_unit_zero (S := S1x18432x32) hz3, View.ld_unit_zero (S := S1x18432x24) hz3, View.ld_unit_zero (S := S24x32) hz2, View.ld_unit_zero (S := S1x24) hz2]

/-- Accumulating case: the second accumulator ends at its previous contents plus the second block's column sums. -/
theorem sout0_B_1_eq (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : ¬cond0_1 i)
    (x0 : Vec F S1x18432x32 .f32) (x1 : Vec F S1x18432x24 .f32) (xs0 : Vec F S24x32 .f32) (xs1 : Vec F S1x24 .f32) :
    sout0_B_1 c i arg2 harg2 arg3 harg3 arg4 harg4 arg5 harg5 arg6 harg6 arg7 harg7 hc0 hc1 x0 x1 xs0 xs1 = k0_pay5 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  try sl_unfold_words
  rw [View.canon_unit_zero (S := S1x24) hz2]
  simp only [View.readAt_eq_ld, harg2.read_unread, harg3.read_unread, harg6.read_unread, harg7.read_unread, View.ld_unit_zero (S := S1x18432x32) hz3, View.ld_unit_zero (S := S1x18432x24) hz3, View.ld_unit_zero (S := S24x32) hz2, View.ld_unit_zero (S := S1x24) hz2]

/-- Zeroing case: the first accumulator ends at zero plus the blocks' product. -/
theorem sout0_A_0_eq (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) :
    sout0_A_0 c i arg2 harg2 arg3 harg3 arg4 harg4 arg5 harg5 arg6 harg6 arg7 harg7 hc0 hc1 x0 x1 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S24x32) hz2, View.readCov_unit_zero (S := S24x32) _ hz2]
  simp only [View.readAt_eq_ld, harg2.read_unread, harg3.read_unread, harg6.read_unread, harg7.read_unread, View.ld_unit_zero (S := S1x18432x32) hz3, View.ld_unit_zero (S := S1x18432x24) hz3, View.ld_unit_zero (S := S24x32) hz2, View.ld_unit_zero (S := S1x24) hz2]

/-- Zeroing case: the second accumulator ends at zero plus the second block's column sums. -/
theorem sout0_A_1_eq (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : cond0_0 i) (hc1 : ¬cond0_1 i)
    (x0 : Vec F S1x18432x32 .f32) (x1 : Vec F S1x18432x24 .f32) :
    sout0_A_1 c i arg2 harg2 arg3 harg3 arg4 harg4 arg5 harg5 arg6 harg6 arg7 harg7 hc0 hc1 x0 x1 = k0_pay5 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x24) hz2, View.readCov_unit_zero (S := S1x24) _ hz2]
  simp only [View.readAt_eq_ld, harg2.read_unread, harg3.read_unread, harg6.read_unread, harg7.read_unread, View.ld_unit_zero (S := S1x18432x32) hz3, View.ld_unit_zero (S := S1x18432x24) hz3, View.ld_unit_zero (S := S24x32) hz2, View.ld_unit_zero (S := S1x24) hz2]

/-- Copy-out case: the first accumulator ends as in the accumulating case. -/
theorem sout0_C_0_eq (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) :
    sout0_C_0 c i arg2 harg2 arg3 harg3 arg4 harg4 arg5 harg5 arg6 harg6 arg7 harg7 hc0 hc1 x0 x1 xs0 xs1 = k0_pay4 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  try sl_unfold_words
  rw [View.canon_unit_zero (S := S24x32) hz2]
  simp only [View.readAt_eq_ld, harg2.read_unread, harg3.read_unread, harg6.read_unread, harg7.read_unread, View.ld_unit_zero (S := S1x18432x32) hz3, View.ld_unit_zero (S := S1x18432x24) hz3, View.ld_unit_zero (S := S24x32) hz2, View.ld_unit_zero (S := S1x24) hz2]

/-- Copy-out case: the second accumulator ends as in the accumulating case. -/
theorem sout0_C_1_eq (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) :
    sout0_C_1 c i arg2 harg2 arg3 harg3 arg4 harg4 arg5 harg5 arg6 harg6 arg7 harg7 hc0 hc1 x0 x1 xs0 xs1 = k0_pay5 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  try sl_unfold_words
  rw [View.canon_unit_zero (S := S1x24) hz2]
  simp only [View.readAt_eq_ld, harg2.read_unread, harg3.read_unread, harg6.read_unread, harg7.read_unread, View.ld_unit_zero (S := S1x18432x32) hz3, View.ld_unit_zero (S := S1x18432x24) hz3, View.ld_unit_zero (S := S24x32) hz2, View.ld_unit_zero (S := S1x24) hz2]

/-- Copy-out case: the first output window's buffer ends at the first accumulator's new contents, reshaped. -/
theorem out0_C_2_eq (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) :
    out0_C_2 c i arg2 harg2 arg3 harg3 arg4 harg4 arg5 harg5 arg6 harg6 arg7 harg7 hc0 hc1 x0 x1 xs0 xs1 = k0_pay6 (k0_pay4 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x24x32) hz3, View.readCov_unit_zero (S := S24x32) _ hz2]
  simp only [View.readAt_eq_ld, harg2.read_unread, harg3.read_unread, harg6.read_unread, harg7.read_unread, View.ld_unit_zero (S := S1x18432x32) hz3, View.ld_unit_zero (S := S1x18432x24) hz3, View.ld_unit_zero (S := S24x32) hz2, View.ld_unit_zero (S := S1x24) hz2]

/-- Copy-out case: the second output window's buffer ends at the second accumulator's new contents, reshaped. -/
theorem out0_C_3_eq (c : Dev nD) (i : grid0.Coords) (arg2 : Memref sig .tc .vmem S1x18432x32 .f32) (harg2 : arg2.IsWhole) (arg3 : Memref sig .tc .vmem S1x18432x24 .f32) (harg3 : arg3.IsWhole) (arg4 : Memref sig .tc .vmem S1x24x32 .f32) (harg4 : arg4.IsWhole) (arg5 : Memref sig .tc .vmem S1x1x24 .f32) (harg5 : arg5.IsWhole) (arg6 : Memref sig .tc .vmem S24x32 .f32) (harg6 : arg6.IsWhole) (arg7 : Memref sig .tc .vmem S1x24 .f32) (harg7 : arg7.IsWhole) (hc0 : ¬cond0_0 i) (hc1 : cond0_1 i)
    (x0 : Vec F S1x18432x32 .f32) (x1 : Vec F S1x18432x24 .f32) (xs0 : Vec F S24x32 .f32) (xs1 : Vec F S1x24 .f32) :
    out0_C_3 c i arg2 harg2 arg3 harg3 arg4 harg4 arg5 harg5 arg6 harg6 arg7 harg7 hc0 hc1 x0 x1 xs0 xs1 = k0_pay7 (k0_pay5 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x24) hz3, View.readCov_unit_zero (S := S1x24) _ hz2]
  simp only [View.readAt_eq_ld, harg2.read_unread, harg3.read_unread, harg6.read_unread, harg7.read_unread, View.ld_unit_zero (S := S1x18432x32) hz3, View.ld_unit_zero (S := S1x18432x24) hz3, View.ld_unit_zero (S := S24x32) hz2, View.ld_unit_zero (S := S1x24) hz2]

/-! ## The same, point by point -/

/-- The first accumulator after a point of case A. -/
theorem outsAt0_acc0_A (c : Dev nD) (t : Fin cfg0.N) (h0 : t.val % 8 = 0) (h1 : ¬t.val % 8 = 7) :
    (outsAt0 V c t.val t.isLt).2.2.1 = k0_pay4 (iblk0 V c 0 t) (iblk0 V c 1 t) (k0_pay1 (F := F)) := by
  rw [outsAt0_A V c t h0 h1]; dsimp only
  exact sout0_A_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)

/-- The second accumulator after a point of case A. -/
theorem outsAt0_acc1_A (c : Dev nD) (t : Fin cfg0.N) (h0 : t.val % 8 = 0) (h1 : ¬t.val % 8 = 7) :
    (outsAt0 V c t.val t.isLt).2.2.2 = k0_pay5 (iblk0 V c 1 t) (k0_pay2 (F := F)) := by
  rw [outsAt0_A V c t h0 h1]; dsimp only
  exact sout0_A_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)

/-- The first accumulator after a point of case B. -/
theorem outsAt0_acc0_B (c : Dev nD) (t : Fin cfg0.N) (h0 : ¬t.val % 8 = 0) (h1 : ¬t.val % 8 = 7) :
    (outsAt0 V c t.val t.isLt).2.2.1 = k0_pay4 (iblk0 V c 0 t) (iblk0 V c 1 t) (outsAt0 V c (t.val - 1) (Nat.lt_of_le_of_lt (Nat.sub_le _ _) t.isLt)).2.2.1 := by
  rw [outsAt0_B V c t h0 h1]; dsimp only
  exact sout0_B_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2

/-- The second accumulator after a point of case B. -/
theorem outsAt0_acc1_B (c : Dev nD) (t : Fin cfg0.N) (h0 : ¬t.val % 8 = 0) (h1 : ¬t.val % 8 = 7) :
    (outsAt0 V c t.val t.isLt).2.2.2 = k0_pay5 (iblk0 V c 1 t) (outsAt0 V c (t.val - 1) (Nat.lt_of_le_of_lt (Nat.sub_le _ _) t.isLt)).2.2.2 := by
  rw [outsAt0_B V c t h0 h1]; dsimp only
  exact sout0_B_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2

/-- The first accumulator after a point of case C. -/
theorem outsAt0_acc0_C (c : Dev nD) (t : Fin cfg0.N) (h0 : ¬t.val % 8 = 0) (h1 : t.val % 8 = 7) :
    (outsAt0 V c t.val t.isLt).2.2.1 = k0_pay4 (iblk0 V c 0 t) (iblk0 V c 1 t) (outsAt0 V c (t.val - 1) (Nat.lt_of_le_of_lt (Nat.sub_le _ _) t.isLt)).2.2.1 := by
  rw [outsAt0_C V c t h0 h1]; dsimp only
  exact sout0_C_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2

/-- The second accumulator after a point of case C. -/
theorem outsAt0_acc1_C (c : Dev nD) (t : Fin cfg0.N) (h0 : ¬t.val % 8 = 0) (h1 : t.val % 8 = 7) :
    (outsAt0 V c t.val t.isLt).2.2.2 = k0_pay5 (iblk0 V c 1 t) (outsAt0 V c (t.val - 1) (Nat.lt_of_le_of_lt (Nat.sub_le _ _) t.isLt)).2.2.2 := by
  rw [outsAt0_C V c t h0 h1]; dsimp only
  exact sout0_C_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2

/-- The first output window's buffer after a copy-out point: the first accumulator's new contents, reshaped. -/
theorem outsAt0_out2_C (c : Dev nD) (t : Fin cfg0.N) (h0 : ¬t.val % 8 = 0) (h1 : t.val % 8 = 7) :
    (outsAt0 V c t.val t.isLt).1 = k0_pay6 (k0_pay4 (iblk0 V c 0 t) (iblk0 V c 1 t) (outsAt0 V c (t.val - 1) (Nat.lt_of_le_of_lt (Nat.sub_le _ _) t.isLt)).2.2.1) := by
  rw [outsAt0_C V c t h0 h1]; dsimp only
  exact out0_C_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2

/-- The second output window's buffer after a copy-out point: the second accumulator's new contents, reshaped. -/
theorem outsAt0_out3_C (c : Dev nD) (t : Fin cfg0.N) (h0 : ¬t.val % 8 = 0) (h1 : t.val % 8 = 7) :
    (outsAt0 V c t.val t.isLt).2.1 = k0_pay7 (k0_pay5 (iblk0 V c 1 t) (outsAt0 V c (t.val - 1) (Nat.lt_of_le_of_lt (Nat.sub_le _ _) t.isLt)).2.2.2) := by
  rw [outsAt0_C V c t h0 h1]; dsimp only
  exact out0_C_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2

end Cert.KernelIdeal.R0

end
-- ==== Proof.R0ValPay.lean ====
/- The arithmetic of the first kernel's body read at one entry, at the exact (extended-real) values: the zero fills
   are 0; the first accumulator's update adds, at entry (g, p), the sum over the block's rows r of gt[r, g] · pred[r, p];
   the second adds the column sum of gt; the two copies out only relabel the entry. -/
import proofs.«146572_j77713138254116_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-- The zero fill of the first accumulator is 0 at every entry. -/
theorem pay1_apply (j : S24x32.Idx) : (k0_pay1 (F := Ideal)) j = (0 : EReal) := by
  unfold k0_pay1
  rw [shapeCast_self]
  exact Ideal.ofBits_zero_f32

/-- The zero fill of the second accumulator is 0 at every entry. -/
theorem pay2_apply (j : S1x24.Idx) : (k0_pay2 (F := Ideal)) j = (0 : EReal) := by
  unfold k0_pay2
  rw [shapeCast_self]
  exact Ideal.ofBits_zero_f32

/-- The first block with its leading unit axis dropped, at (r, g). -/
theorem pay3_apply (x1 : Vec Ideal S1x18432x24 .f32) (r : Fin 18432) (g : Fin 24) :
    k0_pay3 x1 (ix2 r g) = x1 (ix3 (0 : Fin 1) r g) := by
  unfold k0_pay3
  refine (shapeCast_dropUnit_apply ![18432, 24] x1 _ (ix2 r g)).trans ?_
  refine congrArg x1 (funext fun a => ?_)
  match a with
  | ⟨0, _⟩ => rfl
  | ⟨1, _⟩ => rfl
  | ⟨2, _⟩ => rfl

/-- The first accumulator's update at entry (g, p): what it held plus the sum over the block's rows of the products. -/
theorem pay4_apply (x0 : Vec Ideal S1x18432x32 .f32) (x1 : Vec Ideal S1x18432x24 .f32) (acc : Vec Ideal S24x32 .f32)
    (g : Fin 24) (p : Fin 32) :
    k0_pay4 x0 x1 acc (ix2 g p) = (acc (ix2 g p) + ∑ r : Fin 18432, x1 (ix3 (0 : Fin 1) r g) * x0 (ix3 (0 : Fin 1) r p) : EReal) := by
  unfold k0_pay4
  rw [shapeCast_self]
  refine congrArg (fun z : EReal => acc (ix2 g p) + z) ?_
  refine (Ideal.matmul_constant_zero_apply dot_S18432x24_S18432x32_S24x32_0_0_1_1_n_n (some .fp32) _ _ (ix2 g p)).trans ?_
  refine (Equiv.sum_comp (contrEquiv1 dot_S18432x24_S18432x32_S24x32_0_0_1_1_n_n 18432 rfl rfl).symm _).symm.trans ?_
  refine Finset.sum_congr rfl fun r _ => ?_
  have c2 := contrEquiv1_symm_val dot_S18432x24_S18432x32_S24x32_0_0_1_1_n_n 18432 rfl rfl r
  have l2 : (dot_S18432x24_S18432x32_S24x32_0_0_1_1_n_n).lhsIdx (ix2 g p) ((contrEquiv1 dot_S18432x24_S18432x32_S24x32_0_0_1_1_n_n 18432 rfl rfl).symm r) = ix2 r g := by
    funext ax; apply Fin.ext
    match ax with
    | ⟨0, _⟩ => simp [DotDims.lhsIdx, dot_S18432x24_S18432x32_S24x32_0_0_1_1_n_n]; exact c2
    | ⟨1, _⟩ => simp [DotDims.lhsIdx, dot_S18432x24_S18432x32_S24x32_0_0_1_1_n_n]; rfl
  have r2 : (dot_S18432x24_S18432x32_S24x32_0_0_1_1_n_n).rhsIdx (ix2 g p) ((contrEquiv1 dot_S18432x24_S18432x32_S24x32_0_0_1_1_n_n 18432 rfl rfl).symm r) = ix2 r p := by
    funext ax; apply Fin.ext
    match ax with
    | ⟨0, _⟩ => simp [DotDims.rhsIdx, dot_S18432x24_S18432x32_S24x32_0_0_1_1_n_n]; exact c2
    | ⟨1, _⟩ => simp [DotDims.rhsIdx, dot_S18432x24_S18432x32_S24x32_0_0_1_1_n_n]; rfl
  rw [l2, r2]
  refine congrArg₂ (fun a b : EReal => a * b) (pay3_apply x1 r g) ?_
  refine (shapeCast_dropUnit_apply ![18432, 32] x0 _ (ix2 r p)).trans ?_
  refine congrArg x0 (funext fun a => ?_)
  match a with
  | ⟨0, _⟩ => rfl
  | ⟨1, _⟩ => rfl
  | ⟨2, _⟩ => rfl

/-- The second accumulator's update at entry (0, g): what it held plus the block's column sum. -/
theorem pay5_apply (x1 : Vec Ideal S1x18432x24 .f32) (acc : Vec Ideal S1x24 .f32) (g : Fin 24) :
    k0_pay5 x1 acc (ix2 (0 : Fin 1) g) = (acc (ix2 (0 : Fin 1) g) + ∑ r : Fin 18432, x1 (ix3 (0 : Fin 1) r g) : EReal) := by
  unfold k0_pay5
  rw [shapeCast_self]
  refine congrArg (fun z : EReal => acc (ix2 (0 : Fin 1) g) + z) ?_
  refine (shapeCast_addUnit_apply ![24] _ _ (ix2 (0 : Fin 1) g)).trans ?_
  refine (Ideal.multiReduction_add_single _ _ _ _ _ _).trans ?_
  refine Finset.sum_congr rfl fun r _ => ?_
  refine Eq.trans (congrArg (k0_pay3 x1) ?_) (pay3_apply x1 r g)
  funext a; apply Fin.ext
  match a with
  | ⟨0, _⟩ => rfl
  | ⟨1, _⟩ => rfl

/-- The copy into the first output block only adds a leading unit axis. -/
theorem pay6_apply (v : Vec Ideal S24x32 .f32) (g : Fin 24) (p : Fin 32) :
    k0_pay6 v (ix3 (0 : Fin 1) g p) = v (ix2 g p) := by
  unfold k0_pay6
  refine (shapeCast_addUnit_apply ![24, 32] v _ (ix3 (0 : Fin 1) g p)).trans ?_
  refine congrArg v (funext fun a => ?_)
  match a with
  | ⟨0, _⟩ => rfl
  | ⟨1, _⟩ => rfl

/-- The copy into the second output block only adds a leading unit axis. -/
theorem pay7_apply (v : Vec Ideal S1x24 .f32) (g : Fin 24) :
    k0_pay7 v (ix3 (0 : Fin 1) (0 : Fin 1) g) = v (ix2 (0 : Fin 1) g) := by
  unfold k0_pay7
  refine (shapeCast_addUnit_apply ![1, 24] v _ (ix3 (0 : Fin 1) (0 : Fin 1) g)).trans ?_
  refine congrArg v (funext fun a => ?_)
  match a with
  | ⟨0, _⟩ => rfl
  | ⟨1, _⟩ => rfl

end Cert.KernelIdeal.R0

end
-- ==== Proof.R0ValBlk.lean ====
/- The first region's windows read at one entry: the block of an input at grid point t = 8b + j is rows
   j·18432 … of batch b of its array; the block of an output at point t is batch ⌊t/8⌋ of its array. -/
import proofs.«146572_j77713138254116_1_alg».proof.Proof.R0Runs
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]
variable (V : (c : Dev nD) → (b : Ref sig .tc) → Buf (Elt F) ((c : Thread nD τ).loc b))

/-- The block index of the first input at point `t`: (⌊t/8⌋, t mod 8, 0). -/
theorem index0_0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
/-- The same for the second input. -/
theorem index0_1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
/-- The block index of each output at point `t`: (⌊t/8⌋, 0, 0). -/
theorem index0_2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem index0_3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- The first input's block at point `t`, at entry `x`, is its array at batch ⌊t/8⌋, row (t mod 8)·18432 + x₁, column x₂. -/
theorem iblk0_0_apply (c : Dev nD) (t : Fin cfg0.N) (x : S1x18432x32.Idx) (k : S8x147456x32.Idx)
    (hk0 : (k 0).val = t.val / 8) (hk1 : (k 1).val = (t.val % 8) * 18432 + (x 1).val) (hk2 : (k 2).val = (x 2).val) :
    (iblk0 V c 0 t : Vec F S1x18432x32 .f32) x = (V c main_v1 : S8x147456x32.Idx → Elt F .f32) k := by
  obtain ⟨h0, h1, h2⟩ := index0_0 t
  have hx0 : (x 0).val < 1 := (x 0).isLt
  unfold iblk0
  rw [View.read_apply]
  show V c main_v1 _ = V c main_v1 _
  congr 1
  funext a
  apply Fin.ext
  match a with
  | ⟨0, _⟩ => show win0_0.index t 0 * 1 + 1 * (x 0).val = (k 0).val; rw [h0, hk0]; omega
  | ⟨1, _⟩ => show win0_0.index t 1 * 18432 + 1 * (x 1).val = (k 1).val; rw [h1, hk1]; omega
  | ⟨2, _⟩ => show win0_0.index t 2 * 32 + 1 * (x 2).val = (k 2).val; rw [h2, hk2]; omega

/-- The same for the second input. -/
theorem iblk0_1_apply (c : Dev nD) (t : Fin cfg0.N) (x : S1x18432x24.Idx) (k : S8x147456x24.Idx)
    (hk0 : (k 0).val = t.val / 8) (hk1 : (k 1).val = (t.val % 8) * 18432 + (x 1).val) (hk2 : (k 2).val = (x 2).val) :
    (iblk0 V c 1 t : Vec F S1x18432x24 .f32) x = (V c main_v3 : S8x147456x24.Idx → Elt F .f32) k := by
  obtain ⟨h0, h1, h2⟩ := index0_1 t
  have hx0 : (x 0).val < 1 := (x 0).isLt
  unfold iblk0
  rw [View.read_apply]
  show V c main_v3 _ = V c main_v3 _
  congr 1
  funext a
  apply Fin.ext
  match a with
  | ⟨0, _⟩ => show win0_1.index t 0 * 1 + 1 * (x 0).val = (k 0).val; rw [h0, hk0]; omega
  | ⟨1, _⟩ => show win0_1.index t 1 * 18432 + 1 * (x 1).val = (k 1).val; rw [h1, hk1]; omega
  | ⟨2, _⟩ => show win0_1.index t 2 * 24 + 1 * (x 2).val = (k 2).val; rw [h2, hk2]; omega

/-- Output window 2's block at point `t` of any contents `X` of its array, at entry `y`: `X` at batch ⌊t/8⌋ and `y`'s other coordinates. -/
theorem oblk0_2_apply (c : Dev nD) (X : Buf (Elt F) ((c : Thread nD τ).loc main_v4_0)) (t : Fin cfg0.N) (y : S1x24x32.Idx) (k : S8x24x32.Idx)
    (hk0 : (k 0).val = t.val / 8) (hk1 : (k 1).val = (y 1).val) (hk2 : (k 2).val = (y 2).val) :
    (((cfg0.win 2).blk t).view.read (Elt F) X : Vec F S1x24x32 .f32) y = (X : S8x24x32.Idx → Elt F .f32) k := by
  obtain ⟨h0, h1, h2⟩ := index0_2 t
  have hy0 : (y 0).val < 1 := (y 0).isLt
  rw [View.read_apply]
  show X _ = X _
  congr 1
  funext a
  apply Fin.ext
  match a with
  | ⟨0, _⟩ => show win0_2.index t 0 * 1 + 1 * (y 0).val = (k 0).val; rw [h0, hk0]; omega
  | ⟨1, _⟩ => show win0_2.index t 1 * 24 + 1 * (y 1).val = (k 1).val; rw [h1, hk1]; omega
  | ⟨2, _⟩ => show win0_2.index t 2 * 32 + 1 * (y 2).val = (k 2).val; rw [h2, hk2]; omega

/-- Output window 3's block at point `t` of any contents `X` of its array, at entry `y`: `X` at batch ⌊t/8⌋ and `y`'s other coordinates. -/
theorem oblk0_3_apply (c : Dev nD) (X : Buf (Elt F) ((c : Thread nD τ).loc main_v4_1)) (t : Fin cfg0.N) (y : S1x1x24.Idx) (k : S8x1x24.Idx)
    (hk0 : (k 0).val = t.val / 8) (hk1 : (k 1).val = (y 1).val) (hk2 : (k 2).val = (y 2).val) :
    (((cfg0.win 3).blk t).view.read (Elt F) X : Vec F S1x1x24 .f32) y = (X : S8x1x24.Idx → Elt F .f32) k := by
  obtain ⟨h0, h1, h2⟩ := index0_3 t
  have hy0 : (y 0).val < 1 := (y 0).isLt
  rw [View.read_apply]
  show X _ = X _
  congr 1
  funext a
  apply Fin.ext
  match a with
  | ⟨0, _⟩ => show win0_3.index t 0 * 1 + 1 * (y 0).val = (k 0).val; rw [h0, hk0]; omega
  | ⟨1, _⟩ => show win0_3.index t 1 * 1 + 1 * (y 1).val = (k 1).val; rw [h1, hk1]; omega
  | ⟨2, _⟩ => show win0_3.index t 2 * 24 + 1 * (y 2).val = (k 2).val; rw [h2, hk2]; omega

end Cert.KernelIdeal.R0

end
-- ==== Proof.R0ValAcc.lean ====
/- The first region's two accumulators after each grid point, at the exact values: after point t = 8b + j the first
   holds, at entry (g, p), the sum over the first j + 1 row blocks of batch b of gt[·, g] · pred[·, p]; the second the
   column sums of gt over the same rows. (0 + x = x, and each point adds its block's partial sum.) -/
import proofs.«146572_j77713138254116_1_alg».proof.Proof.R0Pieces
import proofs.«146572_j77713138254116_1_alg».proof.Proof.R0ValPay
import proofs.«146572_j77713138254116_1_alg».proof.Proof.R0ValBlk

set_option maxRecDepth 16384

noncomputable section

namespace Cert.KernelIdeal.R0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- The second operand (gt) by natural coordinates, 0 outside the array. -/
def Gn (c : Dev nD) (b l : ℕ) (g : Fin 24) : EReal :=
  if h : b < 8 ∧ l < 147456 then (V c main_v3 : S8x147456x24.Idx → EReal) (ix3 ⟨b, h.1⟩ ⟨l, h.2⟩ g) else 0
/-- The first operand (pred) by natural coordinates, 0 outside the array. -/
def Pn (c : Dev nD) (b l : ℕ) (p : Fin 32) : EReal :=
  if h : b < 8 ∧ l < 147456 then (V c main_v1 : S8x147456x32.Idx → EReal) (ix3 ⟨b, h.1⟩ ⟨l, h.2⟩ p) else 0

/-- Point `n`'s addend to the first accumulator: its row block's sum of products. -/
def M0 (c : Dev nD) (n : ℕ) (i : S24x32.Idx) : EReal :=
  ∑ r : Fin 18432, Gn V c (n / 8) (n % 8 * 18432 + r.val) (i 0) * Pn V c (n / 8) (n % 8 * 18432 + r.val) (i 1)
/-- Point `n`'s addend to the second accumulator: its row block's column sum. -/
def M1 (c : Dev nD) (n : ℕ) (i : S1x24.Idx) : EReal :=
  ∑ r : Fin 18432, Gn V c (n / 8) (n % 8 * 18432 + r.val) (i 1)

/-- The second input's block at point `t`, entry (0, r, g). -/
theorem iblk1_eq_Gn (c : Dev nD) (t : Fin cfg0.N) (r : Fin 18432) (g : Fin 24) :
    (iblk0 V c 1 t : Vec Ideal S1x18432x24 .f32) (ix3 (0 : Fin 1) r g) = Gn V c (t.val / 8) (t.val % 8 * 18432 + r.val) g := by
  have hN : t.val < 64 := lt_of_lt_of_eq t.isLt (show cfg0.N = 64 from N_0)
  have hb : t.val / 8 < 8 ∧ t.val % 8 * 18432 + r.val < 147456 := ⟨by omega, by have := r.isLt; omega⟩
  unfold Gn
  rw [dif_pos hb]
  exact iblk0_1_apply V c t _ _ rfl rfl rfl

/-- The first input's block at point `t`, entry (0, r, p). -/
theorem iblk0_eq_Pn (c : Dev nD) (t : Fin cfg0.N) (r : Fin 18432) (p : Fin 32) :
    (iblk0 V c 0 t : Vec Ideal S1x18432x32 .f32) (ix3 (0 : Fin 1) r p) = Pn V c (t.val / 8) (t.val % 8 * 18432 + r.val) p := by
  have hN : t.val < 64 := lt_of_lt_of_eq t.isLt (show cfg0.N = 64 from N_0)
  have hb : t.val / 8 < 8 ∧ t.val % 8 * 18432 + r.val < 147456 := ⟨by omega, by have := r.isLt; omega⟩
  unfold Pn
  rw [dif_pos hb]
  exact iblk0_0_apply V c t _ _ rfl rfl rfl

/-- One point's update of the first accumulator, at any entry: what it held plus the point's addend. -/
theorem step0 (c : Dev nD) (t : Fin cfg0.N) (acc : Vec Ideal S24x32 .f32) (i : S24x32.Idx) :
    k0_pay4 (iblk0 V c 0 t) (iblk0 V c 1 t) acc i = (acc i + M0 V c t.val i : EReal) := by
  obtain ⟨g, p, rfl⟩ : ∃ (g : Fin 24) (p : Fin 32), i = ix2 g p := ⟨i 0, i 1, eq_ix2 i⟩
  refine (pay4_apply (iblk0 V c 0 t) (iblk0 V c 1 t) acc g p).trans ?_
  refine congrArg (fun z : EReal => acc (ix2 g p) + z) ?_
  unfold M0
  refine Finset.sum_congr rfl fun r _ => ?_
  exact congrArg₂ (fun a b : EReal => a * b) (iblk1_eq_Gn V c t r g) (iblk0_eq_Pn V c t r p)

/-- One point's update of the second accumulator, at any entry. -/
theorem step1 (c : Dev nD) (t : Fin cfg0.N) (acc : Vec Ideal S1x24 .f32) (i : S1x24.Idx) :
    k0_pay5 (iblk0 V c 1 t) acc i = (acc i + M1 V c t.val i : EReal) := by
  obtain ⟨z, g, rfl⟩ : ∃ (z : Fin 1) (g : Fin 24), i = ix2 z g := ⟨i 0, i 1, eq_ix2 i⟩
  obtain rfl : z = 0 := Subsingleton.elim _ _
  refine (pay5_apply (iblk0 V c 1 t) acc g).trans ?_
  refine congrArg (fun z : EReal => acc (ix2 (0 : Fin 1) g) + z) ?_
  unfold M1
  refine Finset.sum_congr rfl fun r _ => ?_
  exact iblk1_eq_Gn V c t r g

/-- The first accumulator's value at a batch's first point, and its update at a later point, as functions of the point. -/
def a0 (c : Dev nD) (n : ℕ) (h : n < cfg0.N) : S24x32.Idx → EReal :=
  k0_pay4 (iblk0 V c 0 ⟨n, h⟩) (iblk0 V c 1 ⟨n, h⟩) (k0_pay1 (F := Ideal))
def g0 (c : Dev nD) (n : ℕ) (h : n < cfg0.N) (acc : S24x32.Idx → EReal) : S24x32.Idx → EReal :=
  k0_pay4 (iblk0 V c 0 ⟨n, h⟩) (iblk0 V c 1 ⟨n, h⟩) acc
/-- The same for the second accumulator. -/
def a1 (c : Dev nD) (n : ℕ) (h : n < cfg0.N) : S1x24.Idx → EReal :=
  k0_pay5 (iblk0 V c 1 ⟨n, h⟩) (k0_pay2 (F := Ideal))
def g1 (c : Dev nD) (n : ℕ) (h : n < cfg0.N) (acc : S1x24.Idx → EReal) : S1x24.Idx → EReal :=
  k0_pay5 (iblk0 V c 1 ⟨n, h⟩) acc

/-- The first accumulator after point `n`, at any entry: the addends of the points of its batch up to `n`. -/
theorem acc0_at (c : Dev nD) (n : ℕ) (hn : n < cfg0.N) (i : S24x32.Idx) :
    (outsAt0 V c n hn).2.2.1 i = ∑ s ∈ Finset.range (n % 8 + 1), M0 V c (8 * (n / 8) + s) i := by
  have hN : cfg0.N = 64 := N_0
  have h' : 8 * (n / 8) + n % 8 < cfg0.N := by rw [Nat.div_add_mod]; exact hn
  have e := Pipeline.eq_accAt_of_mod (N := cfg0.N) (fun n h => (outsAt0 V c n h).2.2.1) 8
    (a0 V c) (g0 V c)
    (fun n h h0 => outsAt0_acc0_A V c ⟨n, h⟩ h0 (by show ¬n % 8 = 7; omega))
    (fun n h h0 => by
      by_cases h1 : (n + 1) % 8 = 7
      · exact outsAt0_acc0_C V c ⟨n + 1, h⟩ h0 h1
      · exact outsAt0_acc0_B V c ⟨n + 1, h⟩ h0 h1)
    (by decide) n hn h'
  refine (congrFun e i).trans ?_
  refine (Pipeline.accAt_add_apply (a0 V c) (g0 V c) (fun _ => (0 : EReal)) (M0 V c) (8 * (n / 8)) 7
    (fun h i => (step0 V c ⟨8 * (n / 8), h⟩ (k0_pay1 (F := Ideal)) i).trans (congrArg (fun z : EReal => z + M0 V c (8 * (n / 8)) i) (pay1_apply i)))
    (fun m h acc i _ _ => step0 V c ⟨m, h⟩ acc i) (n % 8) (by omega) h' i).trans ?_
  exact zero_add _

/-- The second accumulator after point `n`, at any entry. -/
theorem acc1_at (c : Dev nD) (n : ℕ) (hn : n < cfg0.N) (i : S1x24.Idx) :
    (outsAt0 V c n hn).2.2.2 i = ∑ s ∈ Finset.range (n % 8 + 1), M1 V c (8 * (n / 8) + s) i := by
  have hN : cfg0.N = 64 := N_0
  have h' : 8 * (n / 8) + n % 8 < cfg0.N := by rw [Nat.div_add_mod]; exact hn
  have e := Pipeline.eq_accAt_of_mod (N := cfg0.N) (fun n h => (outsAt0 V c n h).2.2.2) 8
    (a1 V c) (g1 V c)
    (fun n h h0 => outsAt0_acc1_A V c ⟨n, h⟩ h0 (by show ¬n % 8 = 7; omega))
    (fun n h h0 => by
      by_cases h1 : (n + 1) % 8 = 7
      · exact outsAt0_acc1_C V c ⟨n + 1, h⟩ h0 h1
      · exact outsAt0_acc1_B V c ⟨n + 1, h⟩ h0 h1)
    (by decide) n hn h'
  refine (congrFun e i).trans ?_
  refine (Pipeline.accAt_add_apply (a1 V c) (g1 V c) (fun _ => (0 : EReal)) (M1 V c) (8 * (n / 8)) 7
    (fun h i => (step1 V c ⟨8 * (n / 8), h⟩ (k0_pay2 (F := Ideal)) i).trans (congrArg (fun z : EReal => z + M1 V c (8 * (n / 8)) i) (pay2_apply i)))
    (fun m h acc i _ _ => step1 V c ⟨m, h⟩ acc i) (n % 8) (by omega) h' i).trans ?_
  exact zero_add _

end Cert.KernelIdeal.R0

end
-- ==== Proof.R0Value.lean ====
/- What the first region leaves in its two result arrays, entry by entry, at the exact values: the first holds, at
   (b, g, p), the sum over ALL rows l of batch b of gt[b, l, g] · pred[b, l, p]; the second, at (b, 0, g), the sum over
   all rows of gt[b, l, g]. Each batch's block is written back once, at its last grid point, from the accumulators,
   which by then hold the sum of the batch's eight row-block partial sums; eight blocks of 18432 rows are the 147456 rows. -/
import proofs.«146572_j77713138254116_1_alg».proof.Proof.R0ValAcc

set_option maxRecDepth 16384

noncomputable section

namespace Cert.KernelIdeal.R0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- A sum over J consecutive blocks of K naturals is the sum over the first J·K naturals. -/
theorem sum_blocks (f : ℕ → EReal) (K : ℕ) : ∀ J : ℕ,
    ∑ s ∈ Finset.range J, ∑ r ∈ Finset.range K, f (s * K + r) = ∑ l ∈ Finset.range (J * K), f l
  | 0 => by simp
  | J + 1 => by
    rw [Finset.sum_range_succ, sum_blocks f K J, Nat.succ_mul, Finset.sum_range_add]

/-- The second operand (gt) and the first (pred) as the region finds them, as plain functions of the index. -/
abbrev Gv (c : Dev nD) : S8x147456x24.Idx → EReal := V c main_v3
abbrev Pv (c : Dev nD) : S8x147456x32.Idx → EReal := V c main_v1

/-- The first result array's final contents. -/
def sumsArr (c : Dev nD) : S8x24x32.Idx → EReal :=
  fun i => ∑ l : Fin 147456, Gv V c (ix3 (i 0) l (i 1)) * Pv V c (ix3 (i 0) l (i 2))
/-- The second result array's final contents. -/
def countsArr (c : Dev nD) : S8x1x24.Idx → EReal :=
  fun i => ∑ l : Fin 147456, Gv V c (ix3 (i 0) l (i 2))

/-- A batch's eight row-block addends to the first accumulator are the sum over all its rows. -/
theorem batch_sum0 (c : Dev nD) (b : Fin 8) (g : Fin 24) (p : Fin 32) :
    ∑ s ∈ Finset.range 8, M0 V c (8 * b.val + s) (ix2 g p)
      = ∑ l : Fin 147456, Gv V c (ix3 b l g) * Pv V c (ix3 b l p) := by
  have hb := b.isLt
  have e : ∀ s ∈ Finset.range 8, M0 V c (8 * b.val + s) (ix2 g p)
      = ∑ r ∈ Finset.range 18432, (fun l => Gn V c b.val l g * Pn V c b.val l p) (s * 18432 + r) := fun s hs => by
    have hs' : s < 8 := Finset.mem_range.mp hs
    have e1 : (8 * b.val + s) / 8 = b.val := by omega
    have e2 : (8 * b.val + s) % 8 = s := by omega
    unfold M0
    rw [e1, e2]
    exact Fin.sum_univ_eq_sum_range (fun r => Gn V c b.val (s * 18432 + r) g * Pn V c b.val (s * 18432 + r) p) 18432
  refine (Finset.sum_congr rfl e).trans ?_
  refine (sum_blocks (fun l => Gn V c b.val l g * Pn V c b.val l p) 18432 8).trans ?_
  refine (Fin.sum_univ_eq_sum_range (fun l => Gn V c b.val l g * Pn V c b.val l p) (8 * 18432)).symm.trans ?_
  refine Finset.sum_congr rfl fun l _ => ?_
  have hl : b.val < 8 ∧ l.val < 147456 := ⟨hb, l.isLt⟩
  unfold Gn Pn
  rw [dif_pos hl, dif_pos hl]

/-- A batch's eight row-block addends to the second accumulator are the column sum over all its rows. -/
theorem batch_sum1 (c : Dev nD) (b : Fin 8) (g : Fin 24) :
    ∑ s ∈ Finset.range 8, M1 V c (8 * b.val + s) (ix2 (0 : Fin 1) g)
      = ∑ l : Fin 147456, Gv V c (ix3 b l g) := by
  have hb := b.isLt
  have e : ∀ s ∈ Finset.range 8, M1 V c (8 * b.val + s) (ix2 (0 : Fin 1) g)
      = ∑ r ∈ Finset.range 18432, (fun l => Gn V c b.val l g) (s * 18432 + r) := fun s hs => by
    have hs' : s < 8 := Finset.mem_range.mp hs
    have e1 : (8 * b.val + s) / 8 = b.val := by omega
    have e2 : (8 * b.val + s) % 8 = s := by omega
    unfold M1
    rw [e1, e2]
    exact Fin.sum_univ_eq_sum_range (fun r => Gn V c b.val (s * 18432 + r) g) 18432
  refine (Finset.sum_congr rfl e).trans ?_
  refine (sum_blocks (fun l => Gn V c b.val l g) 18432 8).trans ?_
  refine (Fin.sum_univ_eq_sum_range (fun l => Gn V c b.val l g) (8 * 18432)).symm.trans ?_
  refine Finset.sum_congr rfl fun l _ => ?_
  have hl : b.val < 8 ∧ l.val < 147456 := ⟨hb, l.isLt⟩
  unfold Gn
  rw [dif_pos hl]

/-! ## The write-backs and the final arrays -/

/-- The output windows move their whole blocks at every point. -/
theorem xsize0_2 : ∀ t : Fin cfg0.N, win0_2.xsize (grid0.coords t) 0 = 1 ∧ win0_2.xsize (grid0.coords t) 1 = 24 ∧ win0_2.xsize (grid0.coords t) 2 = 32 :=
  (by decide +kernel : ∀ t : Fin grid0.N, win0_2.xsize (grid0.coords t) 0 = 1 ∧ win0_2.xsize (grid0.coords t) 1 = 24 ∧ win0_2.xsize (grid0.coords t) 2 = 32)
theorem xsize0_3 : ∀ t : Fin cfg0.N, win0_3.xsize (grid0.coords t) 0 = 1 ∧ win0_3.xsize (grid0.coords t) 1 = 1 ∧ win0_3.xsize (grid0.coords t) 2 = 24 :=
  (by decide +kernel : ∀ t : Fin grid0.N, win0_3.xsize (grid0.coords t) 0 = 1 ∧ win0_3.xsize (grid0.coords t) 1 = 1 ∧ win0_3.xsize (grid0.coords t) 2 = 24)

/-- What the write-back at a batch's last point writes into result array 0: that batch's block of `sumsArr`. -/
theorem flushed2_eq (c : Dev nD) (t : Fin cfg0.N) (hf : (cfg0.win 2).flush t = true) :
    (dat0 V c).flushed 2 t = ((cfg0.win 2).blk t).view.read (Elt Ideal) (sumsArr V c) := by
  have hN : t.val < 64 := lt_of_lt_of_eq t.isLt (show cfg0.N = 64 from N_0)
  have h7 : t.val % 8 = 7 := (flush0_2 t).mp hf
  have h0 : ¬t.val % 8 = 0 := by omega
  have hb : t.val / 8 < 8 := by omega
  obtain ⟨i0, i1, i2⟩ := index0_2 t
  show (cfg0.win 2).cut (grid0.coords t) ((dat0 V c).after 2 t) = _
  rw [after0_2]
  refine funext fun (y : S1x24x32.Idx) => ?_
  obtain ⟨z, g, p, rfl⟩ : ∃ (z : Fin 1) (g : Fin 24) (p : Fin 32), y = ix3 z g p := ⟨y 0, y 1, y 2, eq_ix3 y⟩
  obtain rfl : z = 0 := Subsingleton.elim _ _
  have R : ((cfg0.win 2).blk t).view.read (Elt Ideal) (sumsArr V c) (ix3 (0 : Fin 1) g p) = sumsArr V c (ix3 ⟨t.val / 8, hb⟩ g p) :=
    oblk0_2_apply (F := Ideal) c (sumsArr V c) t (ix3 (0 : Fin 1) g p) (ix3 ⟨t.val / 8, hb⟩ g p) rfl rfl rfl
  have L : (outsAt0 V c t.val t.isLt).1 (ix3 (0 : Fin 1) g p) = sumsArr V c (ix3 ⟨t.val / 8, hb⟩ g p) := by
    rw [outsAt0_out2_C V c t h0 h7, ← outsAt0_acc0_C V c t h0 h7]
    refine (pay6_apply _ g p).trans ?_
    refine (acc0_at V c t.val t.isLt (ix2 g p)).trans ?_
    rw [h7]
    exact batch_sum0 V c ⟨t.val / 8, hb⟩ g p
  refine Eq.trans ?_ (L.trans R.symm)
  exact congrArg (outsAt0 V c t.val t.isLt).1 (funext fun a => Fin.ext rfl)

/-- What the write-back at a batch's last point writes into result array 1: that batch's block of `countsArr`. -/
theorem flushed3_eq (c : Dev nD) (t : Fin cfg0.N) (hf : (cfg0.win 3).flush t = true) :
    (dat0 V c).flushed 3 t = ((cfg0.win 3).blk t).view.read (Elt Ideal) (countsArr V c) := by
  have hN : t.val < 64 := lt_of_lt_of_eq t.isLt (show cfg0.N = 64 from N_0)
  have h7 : t.val % 8 = 7 := (flush0_3 t).mp hf
  have h0 : ¬t.val % 8 = 0 := by omega
  have hb : t.val / 8 < 8 := by omega
  obtain ⟨i0, i1, i2⟩ := index0_3 t
  show (cfg0.win 3).cut (grid0.coords t) ((dat0 V c).after 3 t) = _
  rw [after0_3]
  refine funext fun (y : S1x1x24.Idx) => ?_
  obtain ⟨z, z', g, rfl⟩ : ∃ (z : Fin 1) (z' : Fin 1) (g : Fin 24), y = ix3 z z' g := ⟨y 0, y 1, y 2, eq_ix3 y⟩
  obtain rfl : z = 0 := Subsingleton.elim _ _
  obtain rfl : z' = 0 := Subsingleton.elim _ _
  have R : ((cfg0.win 3).blk t).view.read (Elt Ideal) (countsArr V c) (ix3 (0 : Fin 1) (0 : Fin 1) g) = countsArr V c (ix3 ⟨t.val / 8, hb⟩ (0 : Fin 1) g) :=
    oblk0_3_apply (F := Ideal) c (countsArr V c) t (ix3 (0 : Fin 1) (0 : Fin 1) g) (ix3 ⟨t.val / 8, hb⟩ (0 : Fin 1) g) rfl rfl rfl
  have L : (outsAt0 V c t.val t.isLt).2.1 (ix3 (0 : Fin 1) (0 : Fin 1) g) = countsArr V c (ix3 ⟨t.val / 8, hb⟩ (0 : Fin 1) g) := by
    rw [outsAt0_out3_C V c t h0 h7, ← outsAt0_acc1_C V c t h0 h7]
    refine (pay7_apply _ g).trans ?_
    refine (acc1_at V c t.val t.isLt (ix2 (0 : Fin 1) g)).trans ?_
    rw [h7]
    exact batch_sum1 V c ⟨t.val / 8, hb⟩ g
  refine Eq.trans ?_ (L.trans R.symm)
  exact congrArg (outsAt0 V c t.val t.isLt).2.1 (funext fun a => Fin.ext rfl)

/-- Every entry of result array 0 lies in the block its batch's last point writes back. -/
theorem cover2 (i : S8x24x32.Idx) :
    ∃ t : Fin cfg0.N, (cfg0.win 2).flush t = true ∧ i ∈ ((cfg0.win 2).blk t).view.set := by
  have hi0 : (i 0).val < 8 := (i 0).isLt
  have hi1 : (i 1).val < 24 := (i 1).isLt
  have hi2 : (i 2).val < 32 := (i 2).isLt
  have hN : cfg0.N = 64 := N_0
  obtain ⟨t, ht⟩ : ∃ t : Fin cfg0.N, t.val = 8 * (i 0).val + 7 := ⟨⟨8 * (i 0).val + 7, by omega⟩, rfl⟩
  refine ⟨t, (flush0_2 t).mpr (by omega), ?_⟩
  obtain ⟨j0, j1, j2⟩ := index0_2 t
  obtain ⟨x0, x1, x2⟩ := xsize0_2 t
  show i ∈ ((View.whole main_v4_0).slice (win0_2.rect t)).set
  rw [View.set_slice_whole, Rect.mem_set_unit]
  intro a
  match a with
  | ⟨0, _⟩ => show win0_2.index t 0 * win0_2.size 0 ≤ (i 0 : Nat) ∧ (i 0 : Nat) < win0_2.index t 0 * win0_2.size 0 + win0_2.xsize (grid0.coords t) 0
              rw [j0, x0, show win0_2.size 0 = 1 from rfl]; omega
  | ⟨1, _⟩ => show win0_2.index t 1 * win0_2.size 1 ≤ (i 1 : Nat) ∧ (i 1 : Nat) < win0_2.index t 1 * win0_2.size 1 + win0_2.xsize (grid0.coords t) 1
              rw [j1, x1, show win0_2.size 1 = 24 from rfl]; omega
  | ⟨2, _⟩ => show win0_2.index t 2 * win0_2.size 2 ≤ (i 2 : Nat) ∧ (i 2 : Nat) < win0_2.index t 2 * win0_2.size 2 + win0_2.xsize (grid0.coords t) 2
              rw [j2, x2, show win0_2.size 2 = 32 from rfl]; omega

/-- Every entry of result array 1 lies in the block its batch's last point writes back. -/
theorem cover3 (i : S8x1x24.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 24 := (i 2).isLt
  have hN : cfg0.N = 64 := N_0
  obtain ⟨t, ht⟩ : ∃ t : Fin cfg0.N, t.val = 8 * (i 0).val + 7 := ⟨⟨8 * (i 0).val + 7, by omega⟩, rfl⟩
  refine ⟨t, (flush0_3 t).mpr (by omega), ?_⟩
  obtain ⟨j0, j1, j2⟩ := index0_3 t
  obtain ⟨x0, x1, x2⟩ := xsize0_3 t
  show i ∈ ((View.whole main_v4_1).slice (win0_3.rect t)).set
  rw [View.set_slice_whole, Rect.mem_set_unit]
  intro a
  match a with
  | ⟨0, _⟩ => show win0_3.index t 0 * win0_3.size 0 ≤ (i 0 : Nat) ∧ (i 0 : Nat) < win0_3.index t 0 * win0_3.size 0 + win0_3.xsize (grid0.coords t) 0
              rw [j0, x0, show win0_3.size 0 = 1 from rfl]; omega
  | ⟨1, _⟩ => show win0_3.index t 1 * win0_3.size 1 ≤ (i 1 : Nat) ∧ (i 1 : Nat) < win0_3.index t 1 * win0_3.size 1 + win0_3.xsize (grid0.coords t) 1
              rw [j1, x1, show win0_3.size 1 = 1 from rfl]; omega
  | ⟨2, _⟩ => show win0_3.index t 2 * win0_3.size 2 ≤ (i 2 : Nat) ∧ (i 2 : Nat) < win0_3.index t 2 * win0_3.size 2 + win0_3.xsize (grid0.coords t) 2
              rw [j2, x2, show win0_3.size 2 = 24 from rfl]; omega

/-- The first result array after the region. -/
theorem sums_arr (c : Dev nD) : (dat0 V c).arrAt 2 cfg0.N = sumsArr V c :=
  (dat0 V c).arrAt_eq_of_cover 2 (sumsArr V c) (flushed2_eq V c) cover2

/-- The second result array after the region. -/
theorem counts_arr (c : Dev nD) : (dat0 V c).arrAt 3 cfg0.N = countsArr V c :=
  (dat0 V c).arrAt_eq_of_cover 3 (countsArr V c) (flushed3_eq V c) cover3

/-- Entry by entry: the first result array holds the sums of products over all rows of the entry's batch. -/
theorem sums_final (c : Dev nD) (i : S8x24x32.Idx) :
    (dat0 V c).arrAt 2 cfg0.N i
      = ∑ l : Fin 147456, Gv V c (ix3 (i 0) l (i 1)) * Pv V c (ix3 (i 0) l (i 2)) :=
  congrFun (sums_arr V c) i

/-- Entry by entry: the second result array holds the column sums over all rows of the entry's batch. -/
theorem counts_final (c : Dev nD) (i : S8x1x24.Idx) :
    (dat0 V c).arrAt 3 cfg0.N i = ∑ l : Fin 147456, Gv V c (ix3 (i 0) l (i 2)) :=
  congrFun (counts_arr V c) i

end Cert.KernelIdeal.R0

end
-- ==== Proof.BridgeR0.lean ====
/-
  What the first region leaves in its two result arrays, read as the reference's stages: the cluster sums are the
  reference's contraction of the re-laid target with the re-laid prediction over all rows of a batch, and the counts,
  re-laid from [8,1,24] to [8,24], are its column sums of the re-laid target (the sum's initial value is 0).
-/
import proofs.«146572_j77713138254116_1_alg».proof.Proof.Halves
import proofs.«146572_j77713138254116_1_alg».proof.Proof.BridgeHost
import proofs.«146572_j77713138254116_1_alg».proof.Proof.R0Value
import proofs.«146572_j77713138254116_1_alg».proof.Proof.Gen.ReferenceIdeal.Read

noncomputable section

namespace Cert.Bridge

open Cert.KernelIdeal Cert.KernelIdeal.Gen
open Cert.ReferenceIdeal.Read
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (c : Dev nD) (W4 : Dev nD → Valuation τ sig (Elt Ideal))

/-- The re-laid target as the first region finds it, at an entry. -/
theorem gv_apply (b : Fin 8) (l : Fin 147456) (g : Fin 24) (k : Cert.ReferenceIdeal.S8x147456x24.Idx)
    (hk : k = ix3 b l g) :
    Cert.KernelIdeal.R0.Gv (Cert.KernelIdeal.Asm.E1 m) c (ix3 b l g) = val_main_v3 (F := Ideal) (a1 m c) k := by
  subst hk
  exact congrFun (host0_v3 m c) (ix3 b l g)

/-- The re-laid prediction as the first region finds it, at an entry. -/
theorem pv_apply (b : Fin 8) (l : Fin 147456) (p : Fin 32) (k : Cert.ReferenceIdeal.S8x147456x32.Idx)
    (hk : k = ix3 b l p) :
    Cert.KernelIdeal.R0.Pv (Cert.KernelIdeal.Asm.E1 m) c (ix3 b l p) = val_main_v1 (F := Ideal) (a0 m c) k := by
  subst hk
  exact congrFun (host0_v1 m c) (ix3 b l p)

/-- The first region's first result array is the reference's cluster sums. -/
theorem r0_sums : Cert.KernelIdeal.Asm.outsOf m Cert.KernelIdeal.Asm.half0 W4 2 main_v4_0 c = val_main_v13 (F := Ideal) (a0 m c) (a1 m c) := by
  show Cert.KernelIdeal.Asm.W2 m Cert.KernelIdeal.Asm.half0 c (Proc.devRef .tc main_v4_0) = _
  refine (Cert.KernelIdeal.Asm.W2_arr m Cert.KernelIdeal.Asm.half0 c 2).trans ?_
  show (Cert.KernelIdeal.R0.dat0 (Cert.KernelIdeal.Asm.E1 m) c).arrAt 2 cfg0.N = _
  refine funext fun (i : S8x24x32.Idx) => ?_
  have key : (∑ l : Fin 147456, Cert.KernelIdeal.R0.Gv (Cert.KernelIdeal.Asm.E1 m) c (ix3 (i 0) l (i 1)) * Cert.KernelIdeal.R0.Pv (Cert.KernelIdeal.Asm.E1 m) c (ix3 (i 0) l (i 2)) : EReal)
      = ∑ k : Fin 147456, (val_main_v3 (F := Ideal) (a1 m c)) (lidx_main_v13 i k) * (val_main_v1 (F := Ideal) (a0 m c)) (ridx_main_v13 i k) :=
    Finset.sum_congr rfl fun l _ => congrArg₂ (fun x y : EReal => x * y)
      (gv_apply m c (i 0) l (i 1) (lidx_main_v13 i l) (funext fun a => by match a with | ⟨0, _⟩ => rfl | ⟨1, _⟩ => rfl | ⟨2, _⟩ => rfl))
      (pv_apply m c (i 0) l (i 2) (ridx_main_v13 i l) (funext fun a => by match a with | ⟨0, _⟩ => rfl | ⟨1, _⟩ => rfl | ⟨2, _⟩ => rfl))
  exact (Cert.KernelIdeal.R0.sums_final (Cert.KernelIdeal.Asm.E1 m) c i).trans (key.trans (val_main_v13_apply (a0 m c) (a1 m c) i).symm)

/-- The first region's second result array, re-laid to [8,24], is the reference's counts. -/
theorem r0_counts : (fun i => shapeCast main_v5.ty.shape (Cert.KernelIdeal.Asm.outsOf m Cert.KernelIdeal.Asm.half0 W4 2 main_v4_1 c) shapeCasts_S8x1x24_S8x24 i) = val_main_v12 (F := Ideal) (a1 m c) := by
  refine funext fun (i : S8x24.Idx) => ?_
  show shapeCast main_v5.ty.shape (Cert.KernelIdeal.Asm.W2 m Cert.KernelIdeal.Asm.half0 c (Proc.devRef .tc main_v4_1)) shapeCasts_S8x1x24_S8x24 i = _
  have e : Cert.KernelIdeal.Asm.W2 m Cert.KernelIdeal.Asm.half0 c (Proc.devRef .tc main_v4_1)
      = (Cert.KernelIdeal.R0.dat0 (Cert.KernelIdeal.Asm.E1 m) c).arrAt 3 cfg0.N :=
    Cert.KernelIdeal.Asm.W2_arr m Cert.KernelIdeal.Asm.half0 c 3
  rw [e]
  have h3 := Shape.rowMajor_val_three (d := ![8, 1, 24]) (ix3 (i 0) (0 : Fin 1) (i 1))
  have h2 := Shape.rowMajor_val_two (d := ![8, 24]) i
  refine (shapeCast_apply _ shapeCasts_S8x1x24_S8x24 i (ix3 (i 0) (0 : Fin 1) (i 1))
    (h3.trans (Eq.trans (by show ((i 0).val * 1 + 0) * 24 + (i 1).val = (i 0).val * 24 + (i 1).val; omega) h2.symm))).trans ?_
  have key : (∑ l : Fin 147456, Cert.KernelIdeal.R0.Gv (Cert.KernelIdeal.Asm.E1 m) c (ix3 (i 0) l (i 1)) : EReal)
      = ∑ k : Fin 147456, (val_main_v3 (F := Ideal) (a1 m c)) (idx_main_v12 i k) :=
    Finset.sum_congr rfl fun l _ =>
      gv_apply m c (i 0) l (i 1) (idx_main_v12 i l) (funext fun a => by match a with | ⟨0, _⟩ => rfl | ⟨1, _⟩ => rfl | ⟨2, _⟩ => rfl)
  have hv : val_main_v12 (F := Ideal) (a1 m c) i = (0 : EReal) + ∑ k : Fin 147456, (val_main_v3 (F := Ideal) (a1 m c)) (idx_main_v12 i k) :=
    (val_main_v12_apply (a1 m c) i).trans
      (congrArg (fun z : EReal => z + ∑ k : Fin 147456, (val_main_v3 (F := Ideal) (a1 m c)) (idx_main_v12 i k)) Ideal.ofBits_zero_f32)
  exact (Cert.KernelIdeal.R0.counts_final (Cert.KernelIdeal.Asm.E1 m) c (ix3 (i 0) (0 : Fin 1) (i 1))).trans
    (key.trans (hv.trans (zero_add _)).symm)

end Cert.Bridge

end
-- ==== Proof.R1Pieces.lean ====
/- Region 1: what each control case's run found in the carried scratch and in the output window, as the kernel's
   payload functions of the input blocks and of what the scratch held before the point. -/
import proofs.«146572_j77713138254116_1_alg».proof.Proof.R1Frame
import Idealize.ShloMosaic.Lib.Pipeline.Value
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The partial result a point adds into the scratch holding `s`: the kernel's accumulation payload at the point's
    five input blocks. -/
abbrev acc1 (x0 : Vec F S1x18432x32 .f32) (x1 : Vec F S1x18432x24 .f32) (x2 : Vec F S1x32x24 .f32) (x3 : Vec F S1x1x24 .f32) (x4 : Vec F S1x1x24 .f32) (s : Vec F S1x1 .f32) : Vec F S1x1 .f32 :=
  k1_pay1 (k1_pay4 x1) (k1_pay5 x0 x2 x4) (k1_pay6 x3) s

/-- Where the reset is taken the scratch ends at the partial result added to the reset's constant block. -/
theorem sout1_A_0_eq (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) :
    sout1_A_0 c i arg2 harg2 arg3 harg3 arg4 harg4 arg5 harg5 arg6 harg6 arg7 harg7 arg8 harg8 hc0 hc1 x0 x1 x2 x3 x4 = acc1 x0 x1 x2 x3 x4 (k1_pay3 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg8.read_unread, View.ld_unit_zero (S := S1x18432x32) hz3, View.ld_unit_zero (S := S1x18432x24) hz3, View.ld_unit_zero (S := S1x32x24) hz3, View.ld_unit_zero (S := S1x1x24) hz3, View.ld_unit_zero (S := S1x1) hz2]

/-- Where neither conditional is taken the scratch ends at the partial result added to what it held. -/
theorem sout1_B_0_eq (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) :
    sout1_B_0 c i arg2 harg2 arg3 harg3 arg4 harg4 arg5 harg5 arg6 harg6 arg7 harg7 arg8 harg8 hc0 hc1 x0 x1 x2 x3 x4 xs0 = acc1 x0 x1 x2 x3 x4 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero (S := S1x1) hz2]
  simp only [View.readAt_eq_ld, harg2.read_unread, harg3.read_unread, harg4.read_unread, harg5.read_unread, harg6.read_unread, harg8.read_unread, View.ld_unit_zero (S := S1x18432x32) hz3, View.ld_unit_zero (S := S1x18432x24) hz3, View.ld_unit_zero (S := S1x32x24) hz3, View.ld_unit_zero (S := S1x1x24) hz3, View.ld_unit_zero (S := S1x1) hz2]

/-- Where the copy is taken the scratch ends likewise, -/
theorem sout1_C_0_eq (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) :
    sout1_C_0 c i arg2 harg2 arg3 harg3 arg4 harg4 arg5 harg5 arg6 harg6 arg7 harg7 arg8 harg8 hc0 hc1 x0 x1 x2 x3 x4 xs0 = acc1 x0 x1 x2 x3 x4 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S1x1) hz2]
  simp only [View.readAt_eq_ld, harg2.read_unread, harg3.read_unread, harg4.read_unread, harg5.read_unread, harg6.read_unread, harg8.read_unread, View.ld_unit_zero (S := S1x18432x32) hz3, View.ld_unit_zero (S := S1x18432x24) hz3, View.ld_unit_zero (S := S1x32x24) hz3, View.ld_unit_zero (S := S1x1x24) hz3, View.ld_unit_zero (S := S1x1) hz2]

/-- and the output window's block is the scratch's final contents, reshaped. -/
theorem out1_C_5_eq (c : Dev nD) (i : grid1.Coords) (arg2 : Memref sig .tc .vmem S1x18432x32 .f32) (harg2 : arg2.IsWhole) (arg3 : Memref sig .tc .vmem S1x18432x24 .f32) (harg3 : arg3.IsWhole) (arg4 : Memref sig .tc .vmem S1x32x24 .f32) (harg4 : arg4.IsWhole) (arg5 : Memref sig .tc .vmem S1x1x24 .f32) (harg5 : arg5.IsWhole) (arg6 : Memref sig .tc .vmem S1x1x24 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 : Vec F S1x18432x32 .f32) (x1 : Vec F S1x18432x24 .f32) (x2 : Vec F S1x32x24 .f32) (x3 : Vec F S1x1x24 .f32) (x4 : Vec F S1x1x24 .f32) (xs0 : Vec F S1x1 .f32) :
    out1_C_5 c i arg2 harg2 arg3 harg3 arg4 harg4 arg5 harg5 arg6 harg6 arg7 harg7 arg8 harg8 hc0 hc1 x0 x1 x2 x3 x4 xs0 = k1_pay2 (acc1 x0 x1 x2 x3 x4 xs0) := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S1x1x1) hz3, View.readCov_unit_zero (S := S1x1) _ hz2]
  simp only [View.readAt_eq_ld, harg2.read_unread, harg3.read_unread, harg4.read_unread, harg5.read_unread, harg6.read_unread, harg8.read_unread, View.ld_unit_zero (S := S1x18432x32) hz3, View.ld_unit_zero (S := S1x18432x24) hz3, View.ld_unit_zero (S := S1x32x24) hz3, View.ld_unit_zero (S := S1x1x24) hz3, View.ld_unit_zero (S := S1x1) hz2]

end Cert.KernelIdeal.R1

end
-- ==== Proof.R1ValueA.lean ====
/- Region 1 at the ideal values: the kernel's payloads read at an index. The body's pointwise chain is one scalar
   function of five numbers; a point adds to the scratch the sum, over the block's rows and the 24 lanes, of that
   function. -/
import proofs.«146572_j77713138254116_1_alg».proof.Proof.R1Pieces
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat)

section Layout
variable {F : FTy → Type} [FloatOps F]

/-- The second input block with its unit axis dropped. -/
theorem pay4_apply (x1 : Vec F S1x18432x24 .f32) (r : Fin 18432) (k : Fin 24) :
    k1_pay4 x1 (ix2 r k) = x1 (ix3 (0 : Fin 1) r k) := by
  unfold k1_pay4
  exact shapeCast_1ab_ab_apply x1 _ r k

/-- The one-row block laid along every row. -/
theorem pay6_apply (x3 : Vec F S1x1x24 .f32) (r : Fin 18432) (k : Fin 24) :
    k1_pay6 x3 (ix2 r k) = x3 (ix3 (0 : Fin 1) (0 : Fin 1) k) := by
  unfold k1_pay6
  exact (broadcastTo_1b_ab_apply _ _ r k).trans (shapeCast_1ab_ab_apply x3 _ (0 : Fin 1) k)

end Layout

section AtIdeal

/-- THE BODY'S POINTWISE CHAIN, in the body's order: from a row's squared norm `p2`, its product `pm` with a
    column, and the column's number `m2`, the clamped squared distance `d2 = max ((p2 − 2·pm) + m2) 0`; the
    distance `√d2` where `d2` exceeds the threshold and `0` elsewhere; the excess `h = max (dist − ½) 0`; the
    term `(h·h)·(g·v)`. The float literals stay words. -/
def varTerm (p2 pm m2 g v : Ideal .f32) : Ideal .f32 :=
  let d2 := max ((p2 - Scalar.ofBits (F := Ideal) .f32 0x40000000#32 * pm) + m2) (Scalar.ofBits (F := Ideal) .f32 0x00000000#32)
  let pos := FloatOps.cmpf .ogt d2 (Scalar.ofBits (F := Ideal) .f32 0x2B8CBCCC#32)
  let dist := Scalar.select pos (FloatOps.sqrt (Scalar.select pos d2 (Scalar.ofBits (F := Ideal) .f32 0x3F800000#32))) (Scalar.ofBits (F := Ideal) .f32 0x00000000#32)
  let h := max (dist - Scalar.ofBits (F := Ideal) .f32 0x3F000000#32) (Scalar.ofBits (F := Ideal) .f32 0x00000000#32)
  (h * h) * (g * v)

theorem sqrt_apply {s : Shape} {φ : FTy} (a : FVec Ideal s φ) (i : s.Idx) : sqrt a i = FloatOps.sqrt (a i) := rfl

theorem lhs_0 (j : S18432x24.Idx) (q : dot_S18432x32_S32x24_S18432x24_1_0_0_1_n_n.contr.Idx) : (dot_S18432x32_S32x24_S18432x24_1_0_0_1_n_n.lhsIdx j q 0 : ℕ) = j 0 := by
  simp [DotDims.lhsIdx, dot_S18432x32_S32x24_S18432x24_1_0_0_1_n_n]; rfl
theorem lhs_1 (j : S18432x24.Idx) (q : dot_S18432x32_S32x24_S18432x24_1_0_0_1_n_n.contr.Idx) : (dot_S18432x32_S32x24_S18432x24_1_0_0_1_n_n.lhsIdx j q 1 : ℕ) = q ⟨0, by decide⟩ := by
  simp [DotDims.lhsIdx, dot_S18432x32_S32x24_S18432x24_1_0_0_1_n_n]; rfl
theorem rhs_0 (j : S18432x24.Idx) (q : dot_S18432x32_S32x24_S18432x24_1_0_0_1_n_n.contr.Idx) : (dot_S18432x32_S32x24_S18432x24_1_0_0_1_n_n.rhsIdx j q 0 : ℕ) = q ⟨0, by decide⟩ := by
  simp [DotDims.rhsIdx, dot_S18432x32_S32x24_S18432x24_1_0_0_1_n_n]; rfl
theorem rhs_1 (j : S18432x24.Idx) (q : dot_S18432x32_S32x24_S18432x24_1_0_0_1_n_n.contr.Idx) : (dot_S18432x32_S32x24_S18432x24_1_0_0_1_n_n.rhsIdx j q 1 : ℕ) = j 1 := by
  simp [DotDims.rhsIdx, dot_S18432x32_S32x24_S18432x24_1_0_0_1_n_n]; rfl

/-- The contraction index of the block's matrix product is its one coordinate, a feature. -/
def contrE : dot_S18432x32_S32x24_S18432x24_1_0_0_1_n_n.contr.Idx ≃ Fin 32 := contrEquiv1 dot_S18432x32_S32x24_S18432x24_1_0_0_1_n_n 32 rfl rfl

/-- The block's matrix product at a row and a lane: the sum over the 32 features. -/
theorem mm_apply (v4 : FVec Ideal S18432x32 .f32) (v8 : FVec Ideal S32x24 .f32) (r : Fin 18432) (k : Fin 24) :
    matmul dot_S18432x32_S32x24_S18432x24_1_0_0_1_n_n (some .fp32) v4 v8 (constant S18432x24 .f32 0x00000000#32) (ix2 r k)
      = ∑ d : Fin 32, v4 (ix2 r d) * v8 (ix2 d k) := by
  rw [show matmul dot_S18432x32_S32x24_S18432x24_1_0_0_1_n_n (some .fp32) v4 v8 (constant S18432x24 .f32 0x00000000#32) (ix2 r k)
      = FloatOps.matmul dot_S18432x32_S32x24_S18432x24_1_0_0_1_n_n (some .fp32) v4 v8 (constant S18432x24 .f32 0x00000000#32) (ix2 r k) from rfl,
    Ideal.matmul_constant_zero_apply, ← Equiv.sum_comp contrE.symm]
  refine Finset.sum_congr rfl fun d _ => ?_
  have hl : dot_S18432x32_S32x24_S18432x24_1_0_0_1_n_n.lhsIdx (ix2 r k) (contrE.symm d) = ix2 r d := funext fun a => Fin.ext (by
    match a with
    | ⟨0, _⟩ => exact lhs_0 _ _
    | ⟨1, _⟩ => exact (lhs_1 _ _).trans (contrEquiv1_symm_val dot_S18432x32_S32x24_S18432x24_1_0_0_1_n_n 32 rfl rfl d))
  have hr : dot_S18432x32_S32x24_S18432x24_1_0_0_1_n_n.rhsIdx (ix2 r k) (contrE.symm d) = ix2 d k := funext fun a => Fin.ext (by
    match a with
    | ⟨0, _⟩ => exact (rhs_0 _ _).trans (contrEquiv1_symm_val dot_S18432x32_S32x24_S18432x24_1_0_0_1_n_n 32 rfl rfl d)
    | ⟨1, _⟩ => exact rhs_1 _ _)
  rw [hl, hr]

/-- A row's squared norm, laid along the row's 24 lanes. -/
theorem rowsq_apply (v4 : FVec Ideal S18432x32 .f32) (r : Fin 18432) (k : Fin 24) :
    broadcastTo S18432x24 (shapeCast S18432x1 (multiReduction .add [1] S18432 (mulf v4 v4) 0x00000000#32 reduces_S18432x32_S18432 (.inl rfl) rfl) shapeCasts_S18432_S18432x1) broadcasts_S18432x1_S18432x24 (ix2 r k)
      = ∑ d : Fin 32, v4 (ix2 r d) * v4 (ix2 r d) := by
  rw [broadcastTo_apply _ broadcasts_S18432x1_S18432x24 (ix2 r k) (ix2 r (0 : Fin 1)) (fun a => by
        match a with
        | ⟨0, _⟩ => rfl
        | ⟨1, _⟩ => rfl),
    shapeCast_apply _ shapeCasts_S18432_S18432x1 (ix2 r (0 : Fin 1)) (ix1 r) (by
        rw [Shape.rowMajor_val_two, Shape.rowMajor_val_one]; show r.val = r.val * 1 + 0; omega)]
  refine (Ideal.multiReduction_add_single (mulf v4 v4) _ reduces_S18432x32_S18432 _ _ (ix1 r)).trans ?_
  refine Finset.sum_congr rfl fun d _ => ?_
  have hl : reduces_S18432x32_S18432.lift (ix1 r) d = ix2 r d := funext fun a => Fin.ext (by
    match a with
    | ⟨0, _⟩ => rfl
    | ⟨1, _⟩ => rfl)
  rw [hl]; rfl

/-- The distance part of the chain, at a row and a lane of the block. -/
theorem pay5_apply (x0 : Vec Ideal S1x18432x32 .f32) (x2 : Vec Ideal S1x32x24 .f32) (x4 : Vec Ideal S1x1x24 .f32) (r : Fin 18432) (k : Fin 24) :
    k1_pay5 x0 x2 x4 (ix2 r k)
      = (let d2 := max (((∑ d : Fin 32, x0 (ix3 (0 : Fin 1) r d) * x0 (ix3 (0 : Fin 1) r d)) - Scalar.ofBits (F := Ideal) .f32 0x40000000#32 * (∑ d : Fin 32, x0 (ix3 (0 : Fin 1) r d) * x2 (ix3 (0 : Fin 1) d k))) + x4 (ix3 (0 : Fin 1) (0 : Fin 1) k)) (Scalar.ofBits (F := Ideal) .f32 0x00000000#32)
         let pos := FloatOps.cmpf .ogt d2 (Scalar.ofBits (F := Ideal) .f32 0x2B8CBCCC#32)
         Scalar.select pos (FloatOps.sqrt (Scalar.select pos d2 (Scalar.ofBits (F := Ideal) .f32 0x3F800000#32))) (Scalar.ofBits (F := Ideal) .f32 0x00000000#32)) := by
  unfold k1_pay5
  simp only [select_apply, cmpf_apply, sqrt_apply, maximumf_apply, addf_apply, subf_apply, mulf_apply, broadcast_apply]
  rw [rowsq_apply, mm_apply, broadcastTo_1b_ab_apply]
  simp only [shapeCast_1ab_ab_apply]

/-- What a point adds into the scratch: over the 24 lanes and the block's rows, the excess squared times the two
    weights. -/
theorem pay1_apply (v6 v31 v32 : FVec Ideal S18432x24 .f32) (s : Vec Ideal S1x1 .f32) (y : S1x1.Idx) :
    k1_pay1 v6 v31 v32 s y
      = s y + ∑ k : Fin 24, ∑ r : Fin 18432,
          (let h := max (v31 (ix2 r k) - Scalar.ofBits (F := Ideal) .f32 0x3F000000#32) (Scalar.ofBits (F := Ideal) .f32 0x00000000#32)
           (h * h) * (v6 (ix2 r k) * v32 (ix2 r k))) := by
  obtain rfl : y = ix2 (0 : Fin 1) (0 : Fin 1) := funext fun a => Fin.ext (by
    match a with
    | ⟨0, _⟩ => have : (y 0).val < 1 := (y 0).isLt; show (y 0).val = 0; omega
    | ⟨1, _⟩ => have : (y 1).val < 1 := (y 1).isLt; show (y 1).val = 0; omega)
  unfold k1_pay1
  rw [shapeCast_self]
  rw [addf_apply]
  refine congrArg (s (ix2 (0 : Fin 1) (0 : Fin 1)) + ·) ?_
  refine (shapeCast_a_1a_apply _ shapeCasts_S1_S1x1 (0 : Fin 1) (0 : Fin 1)).trans ?_
  refine (Ideal.multiReduction_add_single _ _ reduces_S1x24_S1 _ _ (ix1 (0 : Fin 1))).trans ?_
  refine Finset.sum_congr rfl fun k _ => ?_
  have hl : reduces_S1x24_S1.lift (ix1 (0 : Fin 1)) k = ix2 (0 : Fin 1) k := funext fun a => Fin.ext (by
    match a with
    | ⟨0, _⟩ => rfl
    | ⟨1, _⟩ => rfl)
  rw [hl]
  refine (shapeCast_a_1a_apply _ shapeCasts_S24_S1x24 (0 : Fin 1) k).trans ?_
  refine (Ideal.multiReduction_add_single _ _ reduces_S18432x24_S24 _ _ (ix1 k)).trans ?_
  refine Finset.sum_congr rfl fun r _ => ?_
  have hl2 : reduces_S18432x24_S24.lift (ix1 k) r = ix2 r k := funext fun a => Fin.ext (by
    match a with
    | ⟨0, _⟩ => rfl
    | ⟨1, _⟩ => rfl)
  rw [hl2]; rfl

/-- THE POINT'S STEP: the scratch holding `s` ends at `s` plus, over the 24 lanes and the block's 18432 rows, the
    chain's term at the row's squared norm, its product with the lane's column, and the lane's three numbers. -/
theorem acc1_apply (x0 : Vec Ideal S1x18432x32 .f32) (x1 : Vec Ideal S1x18432x24 .f32) (x2 : Vec Ideal S1x32x24 .f32)
    (x3 x4 : Vec Ideal S1x1x24 .f32) (s : Vec Ideal S1x1 .f32) (y : S1x1.Idx) :
    acc1 x0 x1 x2 x3 x4 s y
      = s y + ∑ k : Fin 24, ∑ r : Fin 18432,
          varTerm (∑ d : Fin 32, x0 (ix3 (0 : Fin 1) r d) * x0 (ix3 (0 : Fin 1) r d))
            (∑ d : Fin 32, x0 (ix3 (0 : Fin 1) r d) * x2 (ix3 (0 : Fin 1) d k))
            (x4 (ix3 (0 : Fin 1) (0 : Fin 1) k)) (x1 (ix3 (0 : Fin 1) r k)) (x3 (ix3 (0 : Fin 1) (0 : Fin 1) k)) := by
  show k1_pay1 (k1_pay4 x1) (k1_pay5 x0 x2 x4) (k1_pay6 x3) s y = _
  rw [pay1_apply]
  refine congrArg (s y + ·) ?_
  refine Finset.sum_congr rfl fun k _ => Finset.sum_congr rfl fun r _ => ?_
  rw [pay4_apply, pay5_apply, pay6_apply]
  rfl

/-- The reset's block is zero. -/
theorem pay3_apply (y : S1x1.Idx) : k1_pay3 (F := Ideal) y = 0 := by
  unfold k1_pay3
  rw [shapeCast_self]
  exact Ideal.ofBits_zero_f32

/-- The copy into the output window keeps the scratch's one number. -/
theorem pay2_apply (s : Vec Ideal S1x1 .f32) (y : S1x1x1.Idx) : k1_pay2 s y = s (ix2 (0 : Fin 1) (0 : Fin 1)) := by
  obtain rfl : y = ix3 (0 : Fin 1) (0 : Fin 1) (0 : Fin 1) := funext fun a => Fin.ext (by
    match a with
    | ⟨0, _⟩ => have : (y 0).val < 1 := (y 0).isLt; show (y 0).val = 0; omega
    | ⟨1, _⟩ => have : (y 1).val < 1 := (y 1).isLt; show (y 1).val = 0; omega
    | ⟨2, _⟩ => have : (y 2).val < 1 := (y 2).isLt; show (y 2).val = 0; omega)
  unfold k1_pay2
  exact shapeCast_ab_1ab_apply s _ (0 : Fin 1) (0 : Fin 1) (0 : Fin 1)

end AtIdeal

end Cert.KernelIdeal.R1

end
-- ==== Proof.R1ValueB.lean ====
/- Region 1: each window's block at a grid point, read at an index, is the window's array at the point's batch and
   row block. The grid is 8 batches by 8 row blocks of 18432 rows; point `t` is batch `t / 8`, row block `t % 8`. -/
import proofs.«146572_j77713138254116_1_alg».proof.Proof.R1ValueA

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat)

section Blocks
variable {F : FTy → Type} [FloatOps F]
variable (V : (c : Dev nD) → (b : Ref sig .tc) → Buf (Elt F) ((c : Thread nD τ).loc b))

/-- The windows' block indices at a point, decided over the grid. -/
theorem index1 : ∀ t : Fin grid1.N,
    (win1_0.index t 0 = t.val / 8 ∧ win1_0.index t 1 = t.val % 8 ∧ win1_0.index t 2 = 0) ∧
    (win1_1.index t 0 = t.val / 8 ∧ win1_1.index t 1 = t.val % 8 ∧ win1_1.index t 2 = 0) ∧
    (win1_2.index t 0 = t.val / 8 ∧ win1_2.index t 1 = 0 ∧ win1_2.index t 2 = 0) ∧
    (win1_3.index t 0 = t.val / 8 ∧ win1_3.index t 1 = 0 ∧ win1_3.index t 2 = 0) ∧
    (win1_4.index t 0 = t.val / 8 ∧ win1_4.index t 1 = 0 ∧ win1_4.index t 2 = 0) ∧
    (win1_5.index t 0 = t.val / 8 ∧ win1_5.index t 1 = 0 ∧ win1_5.index t 2 = 0) := by decide +kernel

/-- Window 0's block at point `t` is its array at batch `t / 8` and rows `(t % 8)·18432 + r`. -/
theorem iblk1_0_apply (c : Dev nD) (t : Fin cfg1.N) (r : Fin 18432) (e : Fin 32) (b : Fin 8) (l : Fin 147456)
    (hb : b.val = t.val / 8) (hl : l.val = (t.val % 8) * 18432 + r.val) :
    (iblk1 V c 0 t : Vec F S1x18432x32 .f32) (ix3 (0 : Fin 1) r e)
      = (V c main_v1 : S8x147456x32.Idx → Elt F .f32) (ix3 b l e) := by
  obtain ⟨⟨h0, h1, h2⟩, -⟩ := index1 t
  unfold iblk1
  rw [View.read_apply]
  show V c main_v1 _ = V c main_v1 _
  refine congrArg (V c main_v1) (funext fun a => Fin.ext ?_)
  match a with
  | ⟨0, _⟩ => show win1_0.index t 0 * 1 + 1 * 0 = b.val; rw [h0, hb]; omega
  | ⟨1, _⟩ => show win1_0.index t 1 * 18432 + 1 * r.val = l.val; rw [h1, hl]; omega
  | ⟨2, _⟩ => show win1_0.index t 2 * 32 + 1 * e.val = e.val; rw [h2]; omega

/-- Window 1's block at point `t` is its array at batch `t / 8` and rows `(t % 8)·18432 + r`. -/
theorem iblk1_1_apply (c : Dev nD) (t : Fin cfg1.N) (r : Fin 18432) (e : Fin 24) (b : Fin 8) (l : Fin 147456)
    (hb : b.val = t.val / 8) (hl : l.val = (t.val % 8) * 18432 + r.val) :
    (iblk1 V c 1 t : Vec F S1x18432x24 .f32) (ix3 (0 : Fin 1) r e)
      = (V c main_v3 : S8x147456x24.Idx → Elt F .f32) (ix3 b l e) := by
  obtain ⟨-, ⟨h0, h1, h2⟩, -⟩ := index1 t
  unfold iblk1
  rw [View.read_apply]
  show V c main_v3 _ = V c main_v3 _
  refine congrArg (V c main_v3) (funext fun a => Fin.ext ?_)
  match a with
  | ⟨0, _⟩ => show win1_1.index t 0 * 1 + 1 * 0 = b.val; rw [h0, hb]; omega
  | ⟨1, _⟩ => show win1_1.index t 1 * 18432 + 1 * r.val = l.val; rw [h1, hl]; omega
  | ⟨2, _⟩ => show win1_1.index t 2 * 24 + 1 * e.val = e.val; rw [h2]; omega

/-- Window 2's block at point `t` is its array at batch `t / 8`. -/
theorem iblk1_2_apply (c : Dev nD) (t : Fin cfg1.N) (r : Fin 32) (e : Fin 24) (b : Fin 8)
    (hb : b.val = t.val / 8) :
    (iblk1 V c 2 t : Vec F S1x32x24 .f32) (ix3 (0 : Fin 1) r e)
      = (V c main_v21 : S8x32x24.Idx → Elt F .f32) (ix3 b r e) := by
  obtain ⟨-, -, ⟨h0, h1, h2⟩, -⟩ := index1 t
  unfold iblk1
  rw [View.read_apply]
  show V c main_v21 _ = V c main_v21 _
  refine congrArg (V c main_v21) (funext fun a => Fin.ext ?_)
  match a with
  | ⟨0, _⟩ => show win1_2.index t 0 * 1 + 1 * 0 = b.val; rw [h0, hb]; omega
  | ⟨1, _⟩ => show win1_2.index t 1 * 32 + 1 * r.val = r.val; rw [h1]; omega
  | ⟨2, _⟩ => show win1_2.index t 2 * 24 + 1 * e.val = e.val; rw [h2]; omega

/-- Window 3's block at point `t` is its array at batch `t / 8`. -/
theorem iblk1_3_apply (c : Dev nD) (t : Fin cfg1.N)  (e : Fin 24) (b : Fin 8)
    (hb : b.val = t.val / 8) :
    (iblk1 V c 3 t : Vec F S1x1x24 .f32) (ix3 (0 : Fin 1) (0 : Fin 1) e)
      = (V c main_v22 : S8x1x24.Idx → Elt F .f32) (ix3 b (0 : Fin 1) e) := by
  obtain ⟨-, -, -, ⟨h0, h1, h2⟩, -⟩ := index1 t
  unfold iblk1
  rw [View.read_apply]
  show V c main_v22 _ = V c main_v22 _
  refine congrArg (V c main_v22) (funext fun a => Fin.ext ?_)
  match a with
  | ⟨0, _⟩ => show win1_3.index t 0 * 1 + 1 * 0 = b.val; rw [h0, hb]; omega
  | ⟨1, _⟩ => show win1_3.index t 1 * 1 + 1 * 0 = 0; rw [h1]
  | ⟨2, _⟩ => show win1_3.index t 2 * 24 + 1 * e.val = e.val; rw [h2]; omega

/-- Window 4's block at point `t` is its array at batch `t / 8`. -/
theorem iblk1_4_apply (c : Dev nD) (t : Fin cfg1.N)  (e : Fin 24) (b : Fin 8)
    (hb : b.val = t.val / 8) :
    (iblk1 V c 4 t : Vec F S1x1x24 .f32) (ix3 (0 : Fin 1) (0 : Fin 1) e)
      = (V c main_v25 : S8x1x24.Idx → Elt F .f32) (ix3 b (0 : Fin 1) e) := by
  obtain ⟨-, -, -, -, ⟨h0, h1, h2⟩, -⟩ := index1 t
  unfold iblk1
  rw [View.read_apply]
  show V c main_v25 _ = V c main_v25 _
  refine congrArg (V c main_v25) (funext fun a => Fin.ext ?_)
  match a with
  | ⟨0, _⟩ => show win1_4.index t 0 * 1 + 1 * 0 = b.val; rw [h0, hb]; omega
  | ⟨1, _⟩ => show win1_4.index t 1 * 1 + 1 * 0 = 0; rw [h1]
  | ⟨2, _⟩ => show win1_4.index t 2 * 24 + 1 * e.val = e.val; rw [h2]; omega

end Blocks

end Cert.KernelIdeal.R1

end
-- ==== Proof.R1ValueC.lean ====
/- Region 1 at the ideal values: the scratch after a point is the sum of the addends of the points of its batch so far;
   a point's addend is the sum, over the 24 lanes and its 18432 rows, of the chain's term at the arrays. -/
import proofs.«146572_j77713138254116_1_alg».proof.Proof.R1ValueB

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat)

section Fold
variable (V : (c : Dev nD) → (b : Ref sig .tc) → Buf (Elt Ideal) ((c : Thread nD τ).loc b)) (c : Dev nD)

/-- The region's five input arrays as the region finds them: the rows' features `arrP` (8 × 147456 × 32), the rows'
    lane weights `arrG` (8 × 147456 × 24), the batch's columns `arrMT` (8 × 32 × 24), and the batch's two lane vectors
    `arrVR` and `arrM2` (8 × 1 × 24). -/
abbrev arrP : S8x147456x32.Idx → Ideal .f32 := V c main_v1
abbrev arrG : S8x147456x24.Idx → Ideal .f32 := V c main_v3
abbrev arrMT : S8x32x24.Idx → Ideal .f32 := V c main_v21
abbrev arrVR : S8x1x24.Idx → Ideal .f32 := V c main_v22
abbrev arrM2 : S8x1x24.Idx → Ideal .f32 := V c main_v25

/-- The chain's term at batch `b`, row `l`, lane `k` of the five arrays. -/
def termAt (b : Fin 8) (l : Fin 147456) (k : Fin 24) : Ideal .f32 :=
  varTerm (∑ d : Fin 32, arrP V c (ix3 b l d) * arrP V c (ix3 b l d))
    (∑ d : Fin 32, arrP V c (ix3 b l d) * arrMT V c (ix3 b d k))
    (arrM2 V c (ix3 b (0 : Fin 1) k))
    (arrG V c (ix3 b l k))
    (arrVR V c (ix3 b (0 : Fin 1) k))

theorem batch_lt (t : Fin cfg1.N) : t.val / 8 < 8 := by
  have := t.isLt; have : cfg1.N = 64 := N_1; omega
theorem row_lt (t : Fin cfg1.N) (r : Fin 18432) : (t.val % 8) * 18432 + r.val < 147456 := by
  have := r.isLt; omega

/-- The addend of point `t`: the term summed over the lanes and over the point's row block. -/
def qAt (t : Fin cfg1.N) : Ideal .f32 :=
  ∑ k : Fin 24, ∑ r : Fin 18432, termAt V c ⟨t.val / 8, batch_lt t⟩ ⟨(t.val % 8) * 18432 + r.val, row_lt t r⟩ k

/-- A point's step on a scratch holding `s`: `s` plus the point's addend. -/
theorem acc1_step (t : Fin cfg1.N) (s : Vec Ideal S1x1 .f32) (y : S1x1.Idx) :
    acc1 (iblk1 V c 0 t) (iblk1 V c 1 t) (iblk1 V c 2 t) (iblk1 V c 3 t) (iblk1 V c 4 t) s y = s y + qAt V c t := by
  rw [acc1_apply]
  refine congrArg (s y + ·) ?_
  unfold qAt termAt
  refine Finset.sum_congr rfl fun k _ => Finset.sum_congr rfl fun r _ => ?_
  have e0 : ∀ d : Fin 32, (iblk1 V c 0 t : Vec Ideal S1x18432x32 .f32) (ix3 (0 : Fin 1) r d) = _ :=
    fun d => iblk1_0_apply V c t r d ⟨t.val / 8, batch_lt t⟩ ⟨(t.val % 8) * 18432 + r.val, row_lt t r⟩ rfl rfl
  have e1 : (iblk1 V c 1 t : Vec Ideal S1x18432x24 .f32) (ix3 (0 : Fin 1) r k) = _ :=
    iblk1_1_apply V c t r k ⟨t.val / 8, batch_lt t⟩ ⟨(t.val % 8) * 18432 + r.val, row_lt t r⟩ rfl rfl
  have e2 : ∀ d : Fin 32, (iblk1 V c 2 t : Vec Ideal S1x32x24 .f32) (ix3 (0 : Fin 1) d k) = _ :=
    fun d => iblk1_2_apply V c t d k ⟨t.val / 8, batch_lt t⟩ rfl
  have e3 : (iblk1 V c 3 t : Vec Ideal S1x1x24 .f32) (ix3 (0 : Fin 1) (0 : Fin 1) k) = _ :=
    iblk1_3_apply V c t k ⟨t.val / 8, batch_lt t⟩ rfl
  have e4 : (iblk1 V c 4 t : Vec Ideal S1x1x24 .f32) (ix3 (0 : Fin 1) (0 : Fin 1) k) = _ :=
    iblk1_4_apply V c t k ⟨t.val / 8, batch_lt t⟩ rfl
  simp only [e0, e1, e2, e3, e4]

/-- The addend of position `n` (zero past the grid, where it is never used). -/
def Mq (n : ℕ) (_ : S1x1.Idx) : Ideal .f32 := if h : n < cfg1.N then qAt V c ⟨n, h⟩ else 0

/-- At the first point of a batch the scratch is the step on the reset's zero block. -/
theorem scr_reset (n : ℕ) (h : n < cfg1.N) (hm : n % 8 = 0) :
    (outsAt1 V c n h).2 = acc1 (iblk1 V c 0 ⟨n, h⟩) (iblk1 V c 1 ⟨n, h⟩) (iblk1 V c 2 ⟨n, h⟩) (iblk1 V c 3 ⟨n, h⟩) (iblk1 V c 4 ⟨n, h⟩) (k1_pay3 (F := Ideal)) := by
  have hne : ¬n % 8 = 7 := by omega
  refine (congrArg Prod.snd (outsAt1_A V c ⟨n, h⟩ hm hne)).trans ?_
  exact sout1_A_0_eq c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) scM1_0 (Memref.isWhole_whole _) ((hcond1_0 ⟨n, h⟩).mpr hm) (fun hh => hne ((hcond1_1 ⟨n, h⟩).mp hh)) (iblk1 V c 0 ⟨n, h⟩) (iblk1 V c 1 ⟨n, h⟩) (iblk1 V c 2 ⟨n, h⟩) (iblk1 V c 3 ⟨n, h⟩) (iblk1 V c 4 ⟨n, h⟩)

/-- At every other point it is the step on what the point before left. -/
theorem scr_step (n : ℕ) (h : n + 1 < cfg1.N) (hm : ¬(n + 1) % 8 = 0) :
    (outsAt1 V c (n + 1) h).2 = acc1 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2 := by
  by_cases h7 : (n + 1) % 8 = 7
  · refine (congrArg Prod.snd (outsAt1_C V c ⟨n + 1, h⟩ hm h7)).trans ?_
    exact sout1_C_0_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (fun hh => hm ((hcond1_0 ⟨n + 1, h⟩).mp hh)) ((hcond1_1 ⟨n + 1, h⟩).mpr h7) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2
  · refine (congrArg Prod.snd (outsAt1_B V c ⟨n + 1, h⟩ hm h7)).trans ?_
    exact sout1_B_0_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) scM1_0 (Memref.isWhole_whole _) (fun hh => hm ((hcond1_0 ⟨n + 1, h⟩).mp hh)) (fun hh => h7 ((hcond1_1 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2

/-- THE SCRATCH AFTER POINT `t`: the addends of its batch's points up to `t`, added in order from zero. -/
theorem scr_eq (t : Fin cfg1.N) (y : S1x1.Idx) :
    (outsAt1 V c t.val t.isLt).2 y = 0 + ∑ s ∈ Finset.range (t.val % 8 + 1), Mq V c (8 * (t.val / 8) + s) y := by
  have hN : cfg1.N = 64 := N_1
  have h' : 8 * (t.val / 8) + t.val % 8 < cfg1.N := by have := t.isLt; omega
  refine (congrFun (Pipeline.eq_accAt_of_mod (N := cfg1.N) (fun n h => (outsAt1 V c n h).2) 8
      (fun n h => acc1 (iblk1 V c 0 ⟨n, h⟩) (iblk1 V c 1 ⟨n, h⟩) (iblk1 V c 2 ⟨n, h⟩) (iblk1 V c 3 ⟨n, h⟩) (iblk1 V c 4 ⟨n, h⟩) (k1_pay3 (F := Ideal)))
      (fun n h acc => acc1 (iblk1 V c 0 ⟨n, h⟩) (iblk1 V c 1 ⟨n, h⟩) (iblk1 V c 2 ⟨n, h⟩) (iblk1 V c 3 ⟨n, h⟩) (iblk1 V c 4 ⟨n, h⟩) acc)
      (fun n h hm => scr_reset V c n h hm) (fun n h hm => scr_step V c n h hm) (by decide) t.val t.isLt h') y).trans ?_
  exact Pipeline.accAt_add_apply _ _ (fun _ => (0 : Ideal .f32)) (Mq V c) (8 * (t.val / 8)) 7
    (fun h i => by
      show acc1 (iblk1 V c 0 ⟨8 * (t.val / 8), h⟩) (iblk1 V c 1 ⟨8 * (t.val / 8), h⟩) (iblk1 V c 2 ⟨8 * (t.val / 8), h⟩) (iblk1 V c 3 ⟨8 * (t.val / 8), h⟩) (iblk1 V c 4 ⟨8 * (t.val / 8), h⟩) (k1_pay3 (F := Ideal)) i = 0 + Mq V c (8 * (t.val / 8)) i
      rw [acc1_step, pay3_apply]; unfold Mq; rw [dif_pos h])
    (fun n h acc i _ _ => by
      show acc1 (iblk1 V c 0 ⟨n, h⟩) (iblk1 V c 1 ⟨n, h⟩) (iblk1 V c 2 ⟨n, h⟩) (iblk1 V c 3 ⟨n, h⟩) (iblk1 V c 4 ⟨n, h⟩) acc i = acc i + Mq V c n i
      rw [acc1_step]; unfold Mq; rw [dif_pos h])
    (t.val % 8) (by omega) h' y

/-- At the last point of a batch the output window's block is the scratch's final number. -/
theorem out_last (t : Fin cfg1.N) (h7 : t.val % 8 = 7) (y : S1x1x1.Idx) :
    (outsAt1 V c t.val t.isLt).1 y = (outsAt1 V c t.val t.isLt).2 (ix2 (0 : Fin 1) (0 : Fin 1)) := by
  have e := outsAt1_C V c t (by omega) h7
  rw [e]
  dsimp only
  rw [out1_C_5_eq, sout1_C_0_eq, pay2_apply]

end Fold

end Cert.KernelIdeal.R1

end
-- ==== Proof.R1ValueD.lean ====
/- Region 1 at the ideal values: the output array after the region. Batch `b`'s number is the sum, over the batch's
   147456 rows and the 24 lanes, of the chain's term: the eight row blocks' addends, added in the grid's order, re-indexed
   by row. -/
import proofs.«146572_j77713138254116_1_alg».proof.Proof.R1ValueC

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat)

section Final
variable (V : (c : Dev nD) → (b : Ref sig .tc) → Buf (Elt Ideal) ((c : Thread nD τ).loc b)) (c : Dev nD)

/-- Batch `b`'s number: the term summed over the batch's rows and the lanes. -/
def resultAt (b : Fin 8) : Ideal .f32 := ∑ l : Fin 147456, ∑ k : Fin 24, termAt V c b l k

/-- The eight row blocks' addends of batch `b` add up to the batch's number: row `l` is row `r` of block `s` with
    `l = 18432·s + r`, and the lanes' sum and the rows' sum commute. -/
theorem batch_sum (b : Fin 8) (y : S1x1.Idx) :
    ∑ s ∈ Finset.range 8, Mq V c (8 * b.val + s) y = resultAt V c b := by
  have hN : cfg1.N = 64 := N_1
  rw [Finset.sum_range]
  unfold resultAt
  rw [← Equiv.sum_comp (finProdFinEquiv : Fin 8 × Fin 18432 ≃ Fin 147456), Fintype.sum_prod_type]
  refine Finset.sum_congr rfl fun s _ => ?_
  have hlt : 8 * b.val + s.val < cfg1.N := by have := b.isLt; have := s.isLt; omega
  unfold Mq; rw [dif_pos hlt]
  unfold qAt
  rw [Finset.sum_comm]
  refine Finset.sum_congr rfl fun r _ => Finset.sum_congr rfl fun k _ => ?_
  have hb : (⟨(8 * b.val + s.val) / 8, batch_lt ⟨8 * b.val + s.val, hlt⟩⟩ : Fin 8) = b :=
    Fin.ext (by show (8 * b.val + s.val) / 8 = b.val; have := s.isLt; omega)
  have hl : (⟨(8 * b.val + s.val) % 8 * 18432 + r.val, row_lt ⟨8 * b.val + s.val, hlt⟩ r⟩ : Fin 147456) = finProdFinEquiv (s, r) :=
    Fin.ext (by
      show (8 * b.val + s.val) % 8 * 18432 + r.val = (finProdFinEquiv (s, r)).val
      rw [finProdFinEquiv_apply_val]
      show (8 * b.val + s.val) % 8 * 18432 + r.val = r.val + 18432 * s.val
      have := s.isLt; omega)
  exact congrArg₂ (fun b' l' => termAt V c b' l' k) hb hl

/-- The output array the region leaves: at `(b, 0, 0)` batch `b`'s number. -/
def resultArr : Buf (Elt Ideal) ((c : Thread nD τ).loc main_v26) := fun (i : S8x1x1.Idx) => resultAt V c (i 0)

theorem resultArr_apply (i : S8x1x1.Idx) : resultArr V c i = resultAt V c (i 0) := rfl

/-- The output window's block at a point, read off any contents of its array, entry by entry. -/
theorem read5_apply (G : Buf (Elt Ideal) ((c : Thread nD τ).loc main_v26)) (t : Fin cfg1.N)
    (y : ((cfg1.win 5).xblock (grid1.coords t)).Idx) :
    ((cfg1.win 5).blk t).view.read (Elt Ideal) G y = G (((cfg1.win 5).blk t).view.emb y) := rfl

theorem xsize1_5 : ∀ (t : Fin grid1.N) (a : Fin 3), win1_5.xsize (grid1.coords t) a = 1 := by decide +kernel

set_option maxRecDepth 65536 in
/-- Each write-back, at the last point of a batch, writes that batch's number. -/
theorem flushed_eq (t : Fin cfg1.N) (hf : (cfg1.win 5).flush t = true) :
    (dat1 V c).flushed 5 t = ((cfg1.win 5).blk t).view.read (Elt Ideal) (resultArr V c) := by
  have hN : cfg1.N = 64 := N_1
  have h7 : t.val % 8 = 7 := (flush1_5 t).mp hf
  obtain ⟨-, -, -, -, -, ⟨h0, -, -⟩⟩ := index1 t
  show (cfg1.win 5).cut (grid1.coords t) ((dat1 V c).after 5 t) = _
  rw [after1_5]
  funext y
  refine Eq.trans ?_ (read5_apply c (resultArr V c) t y).symm
  rw [resultArr_apply]
  have hr : Finset.range (t.val % 8 + 1) = Finset.range 8 := by rw [h7]
  refine (out_last V c t h7 ((cfg1.win 5).xinj (grid1.coords t) y)).trans ?_
  rw [scr_eq, zero_add, hr]
  refine (batch_sum V c ⟨t.val / 8, batch_lt t⟩ _).trans ?_
  refine congrArg (resultAt V c) (Fin.ext ?_)
  have e := Pipeline.Window.rect_emb_val win1_5 t y 0
  have hy : (y 0).val < win1_5.xsize (grid1.coords t) 0 := (y 0).isLt
  rw [xsize1_5] at hy
  refine Eq.trans ?_ e.symm
  rw [h0]
  show t.val / 8 = t.val / 8 * 1 + (y 0).val
  omega

set_option maxRecDepth 65536 in
/-- Every entry of the output array lies in the block its batch's last point writes back. -/
theorem cover (i : ((cfg1.win 5).arr.view.loc (c.tc : Thread nD τ)).2.ty.Idx) :
    ∃ t : Fin cfg1.N, (cfg1.win 5).flush t = true ∧ i ∈ ((cfg1.win 5).blk t).view.set := by
  have hN : cfg1.N = 64 := N_1
  have hN' : grid1.N = 64 := N_1
  have hi0 : (i 0).val < 8 := (i 0).isLt
  have hi1 : (i 1).val < 1 := (i 1).isLt
  have hi2 : (i 2).val < 1 := (i 2).isLt
  have hlt : 8 * (i 0).val + 7 < grid1.N := by omega
  refine ⟨⟨8 * (i 0).val + 7, hlt⟩, (flush1_5 _).mpr (by show (8 * (i 0).val + 7) % 8 = 7; omega), ?_⟩
  obtain ⟨-, -, -, -, -, ⟨h0, h1, h2⟩⟩ := index1 (⟨8 * (i 0).val + 7, hlt⟩ : Fin grid1.N)
  show i ∈ ((View.whole main_v26).slice (win1_5.rect ⟨8 * (i 0).val + 7, hlt⟩)).set
  rw [View.set_slice_whole, Rect.mem_set_unit]
  intro a
  match a with
  | ⟨0, _⟩ =>
    show win1_5.index ⟨8 * (i 0).val + 7, hlt⟩ 0 * win1_5.size 0 ≤ (i 0).val ∧ (i 0).val < win1_5.index ⟨8 * (i 0).val + 7, hlt⟩ 0 * win1_5.size 0 + win1_5.xsize (grid1.coords ⟨8 * (i 0).val + 7, hlt⟩) 0
    rw [h0, xsize1_5]
    show (8 * (i 0).val + 7) / 8 * 1 ≤ (i 0).val ∧ (i 0).val < (8 * (i 0).val + 7) / 8 * 1 + 1
    omega
  | ⟨1, _⟩ =>
    show win1_5.index ⟨8 * (i 0).val + 7, hlt⟩ 1 * win1_5.size 1 ≤ (i 1).val ∧ (i 1).val < win1_5.index ⟨8 * (i 0).val + 7, hlt⟩ 1 * win1_5.size 1 + win1_5.xsize (grid1.coords ⟨8 * (i 0).val + 7, hlt⟩) 1
    rw [h1, xsize1_5]
    omega
  | ⟨2, _⟩ =>
    show win1_5.index ⟨8 * (i 0).val + 7, hlt⟩ 2 * win1_5.size 2 ≤ (i 2).val ∧ (i 2).val < win1_5.index ⟨8 * (i 0).val + 7, hlt⟩ 2 * win1_5.size 2 + win1_5.xsize (grid1.coords ⟨8 * (i 0).val + 7, hlt⟩) 2
    rw [h2, xsize1_5]
    omega

/-- THE REGION'S OUTPUT ARRAY after the run: entry `(b, 0, 0)` is the sum, over batch `b`'s 147456 rows and the 24
    lanes, of the chain's term at the row's squared norm, its product with the lane's column, and the lane's numbers. -/
theorem varnum_final (i : S8x1x1.Idx) :
    (dat1 (F := Ideal) V c).arrAt 5 cfg1.N i
      = ∑ l : Fin 147456, ∑ k : Fin 24,
          varTerm (∑ d : Fin 32, arrP V c (ix3 (i 0) l d) * arrP V c (ix3 (i 0) l d))
            (∑ d : Fin 32, arrP V c (ix3 (i 0) l d) * arrMT V c (ix3 (i 0) d k))
            (arrM2 V c (ix3 (i 0) (0 : Fin 1) k)) (arrG V c (ix3 (i 0) l k)) (arrVR V c (ix3 (i 0) (0 : Fin 1) k)) :=
  (congrFun ((dat1 V c).arrAt_eq_of_cover 5 (resultArr V c) (flushed_eq V c) (cover c)) i).trans (resultArr_apply V c i)

end Final

end Cert.KernelIdeal.R1

end
-- ==== Proof.BridgeR1.lean ====
/-
  The bridge from what the second region leaves to the reference: the region's output array, re-laid from [8,1,1] to
  [8], is the reference's variance numerator. Entry b of either is the sum, over the batch's rows and the 24 columns,
  of one pointwise term of five numbers; the region's five input arrays are the reference's stages (the re-laid
  prediction and target, the cluster means with their last two axes exchanged, the mask and the means' squared norms
  laid as one row each), so the two sums agree term by term.
-/
import proofs.«146572_j77713138254116_1_alg».proof.Proof.Halves
import proofs.«146572_j77713138254116_1_alg».proof.Proof.BridgeHost
import proofs.«146572_j77713138254116_1_alg».proof.Proof.BridgeR0
import proofs.«146572_j77713138254116_1_alg».proof.Proof.RefRead
import proofs.«146572_j77713138254116_1_alg».proof.Proof.R1ValueD
import Idealize.ShloMosaic.Lib.ValueLayout

set_option maxRecDepth 16384

noncomputable section

namespace Cert.Bridge

open Cert.KernelIdeal Cert.KernelIdeal.Gen
open Cert.ReferenceIdeal.Read
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (c : Dev nD)

/-- The region's pointwise term is the reference's: the same text. -/
theorem varTerm_eq (p2 pm m2 g v : Ideal .f32) : Cert.KernelIdeal.R1.varTerm p2 pm m2 g v = Cert.RefRead.varT p2 pm m2 g v := rfl

/-- The prediction rows as the second region finds them. -/
theorem r1_p (b : Fin 8) (l : Fin 147456) (d : Fin 32) (k : Cert.ReferenceIdeal.S8x147456x32.Idx) (hk : k = ix3 b l d) :
    Cert.KernelIdeal.R1.arrP (Cert.KernelIdeal.Asm.E3 m Cert.KernelIdeal.Asm.half0) c (ix3 b l d) = val_main_v1 (F := Ideal) (a0 m c) k := by
  subst hk
  exact congrFun (host1_v1 m (Cert.KernelIdeal.Asm.outsOf m Cert.KernelIdeal.Asm.half0 fun c => Gen.V1 m c) c) (ix3 b l d)

/-- The target rows. -/
theorem r1_g (b : Fin 8) (l : Fin 147456) (g : Fin 24) (k : Cert.ReferenceIdeal.S8x147456x24.Idx) (hk : k = ix3 b l g) :
    Cert.KernelIdeal.R1.arrG (Cert.KernelIdeal.Asm.E3 m Cert.KernelIdeal.Asm.half0) c (ix3 b l g) = val_main_v3 (F := Ideal) (a1 m c) k := by
  subst hk
  exact congrFun (host1_v3 m (Cert.KernelIdeal.Asm.outsOf m Cert.KernelIdeal.Asm.half0 fun c => Gen.V1 m c) c) (ix3 b l g)

/-- The means, entered with their last two axes exchanged: entry (b, d, k) is the mean k's feature d. -/
theorem r1_mt (b : Fin 8) (d : Fin 32) (g : Fin 24) (k : Cert.ReferenceIdeal.S8x24x32.Idx) (hk : k = ix3 b g d) :
    Cert.KernelIdeal.R1.arrMT (Cert.KernelIdeal.Asm.E3 m Cert.KernelIdeal.Asm.half0) c (ix3 b d g) = val_main_v21 (F := Ideal) (a0 m c) (a1 m c) (a2 m c) k := by
  subst hk
  refine (congrFun (host1_v21 m (Cert.KernelIdeal.Asm.outsOf m Cert.KernelIdeal.Asm.half0 fun c => Gen.V1 m c) c (r0_sums m c (fun c => Gen.V1 m c)) (r0_counts m c (fun c => Gen.V1 m c))) (ix3 b d g)).trans ?_
  exact transpose_ix3_021_apply _ _ b d g

/-- The mask, laid as one row per batch. -/
theorem r1_vr (b : Fin 8) (g : Fin 24) (k : Cert.ReferenceIdeal.S8x24.Idx) (hk : k = ix2 b g) :
    Cert.KernelIdeal.R1.arrVR (Cert.KernelIdeal.Asm.E3 m Cert.KernelIdeal.Asm.half0) c (ix3 b (0 : Fin 1) g) = val_main_v10 (F := Ideal) (a2 m c) k := by
  subst hk
  refine (congrFun (host1_v22 m (Cert.KernelIdeal.Asm.outsOf m Cert.KernelIdeal.Asm.half0 fun c => Gen.V1 m c) c) (ix3 b (0 : Fin 1) g)).trans ?_
  refine (val_main_v42_apply (a2 m c) (ix3 b (0 : Fin 1) g)).trans ?_
  exact congrArg (val_main_v10 (F := Ideal) (a2 m c)) (funext fun a => Fin.ext (by match a with | ⟨0, _⟩ => rfl | ⟨1, _⟩ => rfl))

set_option maxRecDepth 65536 in
/-- The means' squared norms, laid as one row per batch. -/
theorem r1_m2 (b : Fin 8) (g : Fin 24) (k : Cert.ReferenceIdeal.S8x24.Idx) (hk : k = ix2 b g) :
    Cert.KernelIdeal.R1.arrM2 (Cert.KernelIdeal.Asm.E3 m Cert.KernelIdeal.Asm.half0) c (ix3 b (0 : Fin 1) g) = val_main_v25 (F := Ideal) (a0 m c) (a1 m c) (a2 m c) k := by
  subst hk
  refine (congrFun (host1_v25 m (Cert.KernelIdeal.Asm.outsOf m Cert.KernelIdeal.Asm.half0 fun c => Gen.V1 m c) c (r0_sums m c (fun c => Gen.V1 m c)) (r0_counts m c (fun c => Gen.V1 m c))) (ix3 b (0 : Fin 1) g)).trans ?_
  refine (val_main_v32_apply (F := Ideal) (a0 m c) (a1 m c) (a2 m c) (ix3 b (0 : Fin 1) g)).trans ?_
  exact congrArg (val_main_v25 (F := Ideal) (a0 m c) (a1 m c) (a2 m c)) (funext fun a => Fin.ext (by match a with | ⟨0, _⟩ => rfl | ⟨1, _⟩ => rfl))

/-- The pointwise term respects equal arguments. -/
theorem varT_congr {A A' B B' C C' D D' E E' : Ideal .f32} (hA : A = A') (hB : B = B') (hC : C = C') (hD : D = D') (hE : E = E') :
    Cert.RefRead.varT A B C D E = Cert.RefRead.varT A' B' C' D' E' := by
  subst hA hB hC hD hE; rfl

/-- THE NUMERATOR: the second region's output array, re-laid to [8], is the reference's variance numerator. -/
theorem num : (fun i => shapeCast main_v27.ty.shape (Gen.V4 m (Cert.KernelIdeal.Asm.outsK (F := Ideal) m) c (Proc.devRef .tc main_v26)) shapeCasts_S8x1x1_S8 i)
    = val_main_v51 (F := Ideal) (a0 m c) (a1 m c) (a2 m c) := by
  refine funext fun (i : S8.Idx) => ?_
  have e : Gen.V4 m (Cert.KernelIdeal.Asm.outsK (F := Ideal) m) c (Proc.devRef .tc main_v26)
      = (Cert.KernelIdeal.R1.dat1 (Cert.KernelIdeal.Asm.E3 m Cert.KernelIdeal.Asm.half0) c).arrAt 5 cfg1.N :=
    (Cert.KernelIdeal.Asm.hF1 m Cert.KernelIdeal.Asm.half0 Cert.KernelIdeal.Asm.half1 c 5).symm
  rw [e]
  have h3 := Shape.rowMajor_val_three (d := ![8, 1, 1]) (ix3 (i 0) (0 : Fin 1) (0 : Fin 1))
  have h1 := Shape.rowMajor_val_one (d := ![8]) i
  have key : (∑ l : Fin 147456, ∑ k : Fin 24,
        Cert.KernelIdeal.R1.varTerm (∑ d : Fin 32, Cert.KernelIdeal.R1.arrP (Cert.KernelIdeal.Asm.E3 m Cert.KernelIdeal.Asm.half0) c (ix3 (i 0) l d) * Cert.KernelIdeal.R1.arrP (Cert.KernelIdeal.Asm.E3 m Cert.KernelIdeal.Asm.half0) c (ix3 (i 0) l d))
          (∑ d : Fin 32, Cert.KernelIdeal.R1.arrP (Cert.KernelIdeal.Asm.E3 m Cert.KernelIdeal.Asm.half0) c (ix3 (i 0) l d) * Cert.KernelIdeal.R1.arrMT (Cert.KernelIdeal.Asm.E3 m Cert.KernelIdeal.Asm.half0) c (ix3 (i 0) d k))
          (Cert.KernelIdeal.R1.arrM2 (Cert.KernelIdeal.Asm.E3 m Cert.KernelIdeal.Asm.half0) c (ix3 (i 0) (0 : Fin 1) k)) (Cert.KernelIdeal.R1.arrG (Cert.KernelIdeal.Asm.E3 m Cert.KernelIdeal.Asm.half0) c (ix3 (i 0) l k)) (Cert.KernelIdeal.R1.arrVR (Cert.KernelIdeal.Asm.E3 m Cert.KernelIdeal.Asm.half0) c (ix3 (i 0) (0 : Fin 1) k)) : EReal)
      = ∑ l : Fin 147456, ∑ k : Fin 24,
        Cert.RefRead.varT (∑ d : Fin 32, val_main_v1 (F := Ideal) (a0 m c) (ix3 (i 0) l d) * val_main_v1 (F := Ideal) (a0 m c) (ix3 (i 0) l d))
          (∑ d : Fin 32, val_main_v1 (F := Ideal) (a0 m c) (ix3 (i 0) l d) * val_main_v21 (F := Ideal) (a0 m c) (a1 m c) (a2 m c) (ix3 (i 0) k d))
          (val_main_v25 (F := Ideal) (a0 m c) (a1 m c) (a2 m c) (ix2 (i 0) k)) (val_main_v3 (F := Ideal) (a1 m c) (ix3 (i 0) l k)) (val_main_v10 (F := Ideal) (a2 m c) (ix2 (i 0) k)) :=
    Finset.sum_congr rfl fun l _ => Finset.sum_congr rfl fun k _ =>
      (varTerm_eq _ _ _ _ _).trans (varT_congr
        (Finset.sum_congr rfl fun d _ => congrArg₂ (fun x y : EReal => x * y) (r1_p m c (i 0) l d _ rfl) (r1_p m c (i 0) l d _ rfl))
        (Finset.sum_congr rfl fun d _ => congrArg₂ (fun x y : EReal => x * y) (r1_p m c (i 0) l d _ rfl) (r1_mt m c (i 0) d k _ rfl))
        (r1_m2 m c (i 0) k _ rfl) (r1_g m c (i 0) l k _ rfl) (r1_vr m c (i 0) k _ rfl))
  exact (shapeCast_apply _ shapeCasts_S8x1x1_S8 i (ix3 (i 0) (0 : Fin 1) (0 : Fin 1))
      (h3.trans (Eq.trans (by show ((i 0).val * 1 + 0) * 1 + 0 = (i 0).val; omega) h1.symm))).trans
    ((Cert.KernelIdeal.R1.varnum_final (Cert.KernelIdeal.Asm.E3 m Cert.KernelIdeal.Asm.half0) c (ix3 (i 0) (0 : Fin 1) (0 : Fin 1))).trans
      (key.trans (Cert.RefRead.ref_v51 (a0 m c) (a1 m c) (a2 m c) i).symm))

end Cert.Bridge

end
-- ==== Proof.Bridge.lean ====
/-
  The kernel program's scalar result is the reference's. What region 0 leaves (the cluster sums and counts) are the
  reference's contraction and column sums; the host stretch between the regions then computes the reference's means,
  squared norms and mask; what region 1 leaves is the reference's variance numerator; the denominators agree; and the
  remaining host operations are the reference's own.
-/
import proofs.«146572_j77713138254116_1_alg».proof.Proof.Halves
import proofs.«146572_j77713138254116_1_alg».proof.Proof.BridgeHost
import proofs.«146572_j77713138254116_1_alg».proof.Proof.BridgeTail
import proofs.«146572_j77713138254116_1_alg».proof.Proof.BridgeDen
import proofs.«146572_j77713138254116_1_alg».proof.Proof.BridgeR0
import proofs.«146572_j77713138254116_1_alg».proof.Proof.BridgeR1

noncomputable section

namespace Cert.Bridge

open Cert.KernelIdeal Cert.KernelIdeal.Gen
open Cert.ReferenceIdeal.Read
open Idealize.ShloMosaic Idealize.ShloMosaic.TcCoe Idealize.SL.Sem Idealize.ShloMosaic.ValueIdx

variable (m : (ℓ : Loc nD τ sig) → Buf (Elt Ideal) ℓ) (c : Dev nD)

/-- What the two regions leave, for the fold of @main. -/
abbrev outsI : Gen.Outs (F := Ideal) := Cert.KernelIdeal.Asm.outsK (F := Ideal) m

theorem v20 : Gen.V4 m (outsI m) c (Proc.devRef .tc main_v20) = val_main_v21 (F := Ideal) (a0 m c) (a1 m c) (a2 m c) :=
  (Gen.V4_of m (outsI m) c main_v20 (by decide)).trans (host1_v20 m (outsI m) c (r0_sums m c _) (r0_counts m c _))
theorem v24 : Gen.V4 m (outsI m) c (Proc.devRef .tc main_v24) = val_main_v25 (F := Ideal) (a0 m c) (a1 m c) (a2 m c) :=
  (Gen.V4_of m (outsI m) c main_v24 (by decide)).trans (host1_v24 m (outsI m) c (r0_sums m c _) (r0_counts m c _))
theorem v12 : Gen.V4 m (outsI m) c (Proc.devRef .tc main_v12) = val_main_v10 (F := Ideal) (a2 m c) :=
  (Gen.V4_of m (outsI m) c main_v12 (by decide)).trans (host1_v12 m (outsI m) c)
theorem v5 : Gen.V4 m (outsI m) c (Proc.devRef .tc main_v5) = val_main_v12 (F := Ideal) (a1 m c) :=
  (Gen.V4_of m (outsI m) c main_v5 (by decide)).trans (host1_v5 m (outsI m) c (r0_counts m c _))
theorem varg2 : Gen.V4 m (outsI m) c (Proc.devRef .tc main_arg2) = a2 m c :=
  (Gen.V4_of m (outsI m) c main_arg2 (by decide)).trans (host1_arg2 m (outsI m) c)

/-- The denominators agree. -/
theorem den : (Host.reduceAdd (F := Ideal) (mulf (Gen.V4 m (outsI m) c (Proc.devRef .tc main_v5)) (Gen.V4 m (outsI m) c (Proc.devRef .tc main_v12))) (constant (F := Ideal) S_ .f32 0#32) reducesTo_S8x24_S8_d1 h_S_ : FVec Ideal S8 .f32)
    = (val_main_v52 (F := Ideal) (a1 m c) (a2 m c) : FVec Ideal S8 .f32) := by
  rw [v5, v12]; exact denom_eq _ _

/-- The program's result is the reference's result term. -/
theorem result_eq : Gen.V13 m (outsI m) c (Proc.devRef .tc main_v98) = val_main_v120 (F := Ideal) (a0 m c) (a1 m c) (a2 m c) :=
  tail_eq m (outsI m) c (a0 m c) (a1 m c) (a2 m c) (num m c) (den m c) (v20 m c) (v24 m c) (v12 m c) (varg2 m c)

end Cert.Bridge

end
-- ==== Proof.lean ====
/-
  The discriminative loss computed by two streaming kernels — per batch, the cluster sums and counts accumulated over
  eight row blocks, then the variance numerator accumulated over the same blocks — against the plain jnp reference.
  The claim's five parts: the three programs run to the end, fault nowhere and leave their arguments unchanged; the
  idealization rewrote nothing; and at the ideal instance the two programs' scalar results are equal. The kernel
  program's run goes through its two regions (each a grid of 8 × 8 points carrying scratch accumulators from point to
  point); the reference's run is its operations' composed term. The results agree because a sum over 147456 rows is
  the sum of its eight blocks' sums, a product with a 0/1 mask passes through a sum, and every other operation is
  literally the same on both sides.
-/
import proofs.«146572_j77713138254116_1_alg».proof.Defs
import proofs.«146572_j77713138254116_1_alg».proof.Proof.Gen.Kernel
import proofs.«146572_j77713138254116_1_alg».proof.Proof.Gen.Kernel.Skeleton
import proofs.«146572_j77713138254116_1_alg».proof.Proof.Gen.Kernel.Launch
import proofs.«146572_j77713138254116_1_alg».proof.Proof.Gen.Kernel.Regions
import proofs.«146572_j77713138254116_1_alg».proof.Proof.Gen.Kernel.Points
import proofs.«146572_j77713138254116_1_alg».proof.Proof.Gen.KernelIdeal
import proofs.«146572_j77713138254116_1_alg».proof.Proof.Gen.KernelIdeal.Skeleton
import proofs.«146572_j77713138254116_1_alg».proof.Proof.Gen.KernelIdeal.Launch
import proofs.«146572_j77713138254116_1_alg».proof.Proof.Gen.KernelIdeal.Regions
import proofs.«146572_j77713138254116_1_alg».proof.Proof.Gen.KernelIdeal.Points
import proofs.«146572_j77713138254116_1_alg».proof.Proof.Gen.ReferenceIdeal
import proofs.«146572_j77713138254116_1_alg».proof.Proof.Gen.Pre_finite_inputs
import proofs.«146572_j77713138254116_1_alg».proof.Proof.Gen.ReferenceIdeal.Run
import proofs.«146572_j77713138254116_1_alg».proof.Proof.Gen.ReferenceIdeal.Read
import proofs.«146572_j77713138254116_1_alg».proof.Proof.Halves
import proofs.«146572_j77713138254116_1_alg».proof.Proof.BHalves
import proofs.«146572_j77713138254116_1_alg».proof.Proof.Bridge
import Idealize.ShloMosaic.Adequacy
import Idealize.ShloMosaic.Init

noncomputable section

namespace Cert.Proof

open Idealize.ShloMosaic Idealize.SL.Sem

/-- The word-level kernel program runs to the end and leaves its arguments unchanged. -/
theorem frame_k : @Cert.frame_Kernel Cert.Kernel.Gen.facts Cert.Pre_finite_inputs.Gen.facts :=
  fun m ρ _ => Cert.Kernel.Asm.frame_main (F := Bits) m ρ

/-- So does its idealization. -/
theorem frame_ki : @Cert.frame_KernelIdeal Cert.KernelIdeal.Gen.facts Cert.Pre_finite_inputs.Gen.facts :=
  fun m ρ _ => Cert.KernelIdeal.Asm.frame_main (F := Ideal) m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- At the ideal instance both programs end with the reference's result term of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v120 (F := Ideal) (Cert.Bridge.a0 m c) (Cert.Bridge.a1 m c) (Cert.Bridge.a2 m c), ?_, ?_⟩
  · exact (θ_run Cert.KernelIdeal.defs _ _).mono (fun _ h c =>
      ⟨(h c _ (Cert.KernelIdeal.Asm.mem_uc Cert.KernelIdeal.main_v98 (by decide))).trans (Cert.Bridge.result_eq m c),
       (h c _ (Cert.KernelIdeal.Asm.mem_uc Cert.KernelIdeal.main_arg0 (by decide))).trans (Cert.KernelIdeal.Gen.V13_main_arg0 m _ c),
       (h c _ (Cert.KernelIdeal.Asm.mem_uc Cert.KernelIdeal.main_arg1 (by decide))).trans (Cert.KernelIdeal.Gen.V13_main_arg1 m _ c),
       (h c _ (Cert.KernelIdeal.Asm.mem_uc Cert.KernelIdeal.main_arg2 (by decide))).trans (Cert.KernelIdeal.Gen.V13_main_arg2 m _ c)⟩)
      (Cert.KernelIdeal.Asm.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v120_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
